-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) (main_arg1 : FVec F S4x4096x1024 .f32) (main_arg2 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  main_v13
-- ==== Kernel.lean ====
abbrev S4x4096x1024 : Shape := ⟨3, ![4, 4096, 1024]⟩
abbrev S4x1024x1024 : Shape := ⟨3, ![4, 1024, 1024]⟩
abbrev S4x1x1024 : Shape := ⟨3, ![4, 1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 29
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x1024x1024, .f32⟩
  | .hbm, ⟨4, _⟩ => ⟨S4x1x1024, .f32⟩
  | .hbm, ⟨5, _⟩ => ⟨S4x1x1024, .f32⟩
  | .hbm, ⟨6, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1024x1024, .f32⟩
  | .local _ .vmem, ⟨26, _⟩ => ⟨S1x1024x1024, .f32⟩
  | .local _ .vmem, ⟨27, _⟩ => ⟨S1x512x1024, .f32⟩
  | .local _ .vmem, ⟨28, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_18 : BitVec 32 := 0#32
  let v27 : BitVec 1 := Scalar.cmpi .ne v26 c0_i32_18
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  reduces_S512x1024_S1024 : S512x1024.Reduces [0] S1024
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  broadcasts_S1x1024_S512x1024 : S1x1024.Broadcasts S512x1024
  shapeCasts_S512x1024_S1x512x1024 : S512x1024.ShapeCasts S1x512x1024
  dot_S512x1024_S512x1024_S1024x1024_0_0_1_1_n_n_wf : DotDims.WF S512x1024 S512x1024 S1024x1024 [0] [0] [1] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x4096x1024.size a
  hwx0_1 : ∀ i : grid0.Coords, EltTy.bits .f32 = 32 ∨ (Rect.block (s := S4x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x4096x1024.size a
  hwx0_2 : ∀ i : grid0.Coords, EltTy.bits .f32 = 32 ∨ (Rect.block (s := S4x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .f32 = 32 ∨ (Rect.block (s := S4x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S4x1x1024.size a
  hwx0_4 : ∀ i : grid0.Coords, EltTy.bits .f32 = 32 ∨ (Rect.block (s := S4x1x1024) S1x1x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .f32 = 32 ∨ (Rect.block (s := S4x4096x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S4x1x1024.size a
  hwx1_1 : ∀ i : grid1.Coords, EltTy.bits .f32 = 32 ∨ (Rect.block (s := S4x1x1024) S1x1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S4x1x1024.size a
  hwx1_2 : ∀ i : grid1.Coords, EltTy.bits .f32 = 32 ∨ (Rect.block (s := S4x1x1024) S1x1x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x4096x1024.size a
  hwx2_0 : ∀ i : grid2.Coords, EltTy.bits .f32 = 32 ∨ (Rect.block (s := S4x4096x1024) S1x512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x1024.size a ≤ S4x1x1024.size a
  hwx2_1 : ∀ i : grid2.Coords, EltTy.bits .f32 = 32 ∨ (Rect.block (s := S4x1x1024) S1x1x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1024.size a ≤ S4x1x1024.size a
  hwx2_2 : ∀ i : grid2.Coords, EltTy.bits .f32 = 32 ∨ (Rect.block (s := S4x1x1024) S1x1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x1024x1024.size a
  hwx2_3 : ∀ i : grid2.Coords, EltTy.bits .f32 = 32 ∨ (Rect.block (s := S4x1024x1024) S1x1024x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x1024.size a ≤ S4x4096x1024.size a
  hwx2_4 : ∀ i : grid2.Coords, EltTy.bits .f32 = 32 ∨ (Rect.block (s := S4x4096x1024) S1x512x1024.size (cc2_transform_4 i) (hinb2_4 i)).WholeWords (EltTy.packing .f32)

variable [Facts₀]

def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S1x1x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_0) S1x1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x512x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S4x1024x1024 : Shape := ⟨3, ![4, 1024, 1024]⟩
abbrev S_ : Shape := ⟨0, ![]⟩
abbrev S4x1024 : Shape := ⟨2, ![4, 1024]⟩
abbrev S4x1x1024 : Shape := ⟨3, ![4, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S4x4096x1024, .f32⟩
  | .hbm, ⟨8, _⟩ => ⟨S_, .f32⟩
  | .hbm, ⟨9, _⟩ => ⟨S4x1024, .f32⟩
  | .hbm, ⟨10, _⟩ => ⟨S4x1x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x1024, .f32⟩
  | .hbm, ⟨18, _⟩ => ⟨S_, .f32⟩
  | .hbm, ⟨19, _⟩ => ⟨S4x1024, .f32⟩
  | .hbm, ⟨20, _⟩ => ⟨S4x1024, .f32⟩
  | .hbm, ⟨21, _⟩ => ⟨S4x1x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S4x1024x1024 : S_.BroadcastsInDim S4x1024x1024 (![] : Fin 0 → Fin S4x1024x1024.rank)
  reducesTo_S4x4096x1024_S4x1024_d1 : S4x4096x1024.ReducesTo [1] S4x1024
  h_S_ : 0 < S_.numel
  bcast_S4x1024_S4x1x1024_0_2 : S4x1024.BroadcastsInDim S4x1x1024 (![0, 2] : Fin 2 → Fin S4x1x1024.rank)
  bcast_S_S4x1x1024 : S_.BroadcastsInDim S4x1x1024 (![] : Fin 0 → Fin S4x1x1024.rank)
  bcast_S4x1x1024_S4x4096x1024_0_1_2 : S4x1x1024.BroadcastsInDim S4x4096x1024 (![0, 1, 2] : Fin 3 → Fin S4x4096x1024.rank)
  bcast_S_S4x1024 : S_.BroadcastsInDim S4x1024 (![] : Fin 0 → Fin S4x1024.rank)
  dot_S4x4096x1024_S4x4096x1024_S4x1024x1024_1_1_2_2_0_0_wf : DotDims.WF S4x4096x1024 S4x4096x1024 S4x1024x1024 [1] [1] [2] [2] [0] [0]
  dot_S4x4096x1024_S4x1024x1024_S4x4096x1024_2_1_1_2_0_0_wf : DotDims.WF S4x4096x1024 S4x1024x1024 S4x4096x1024 [2] [1] [1] [2] [0] [0]

variable [Facts₀]

def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x4096x1024_S4x1024x1024_S4x4096x1024_2_1_1_2_0_0 : DotDims S4x4096x1024 S4x1024x1024 S4x4096x1024 where
  lhsContracting := [2]
  rhsContracting := [1]
  lhsNonContracting := [1]
  rhsNonContracting := [2]
  lhsBatch := [0]
  rhsBatch := [0]
  wf := dot_S4x4096x1024_S4x1024x1024_S4x4096x1024_2_1_1_2_0_0_wf

class Facts : Prop extends Facts₀ where

variable [Facts]
-- ==== Proof.DataK.lean ====
/-
  The three pipelined calls of the program, each described at a PARAMETER `V` (what the TensorCore's unscoped
  buffers hold when the call is entered), for any float instance `F`.

  Call 0 runs over the grid (b, s), b < 4, s < 8 (point t = 8·b + s). It keeps two accumulators in scratch memory:
  a 1024×1024 one, set to zero at s = 0 and increased at every point by the product (k-block)ᵀ · (v-block) of the
  point's 512-row blocks, and a 1×1024 one, set to zero at s = 0 and increased by the column sums of exp of the
  point's q-block. At s = 7 it writes the first, scaled, to block b of its first result and one plus the second to
  block b of its second result. Call 1 has one 1×1024 accumulator of the same kind (column sums of
  exp (exp q / denominator)) and writes it out at s = 7. Call 2 has no state: each point's output block is a function
  of its four input blocks.

  Here: each window's block at a point (`iblkK`), the accumulators after each point as a recursion on the point
  (`acc0`, `acc1`), the invariant that carries them from point to point (`Phi0`, `Phi1`), and the pipeline's proof
  data (`dat0`, `dat1`, `dat2`), with the projections of these definitions that the later modules rewrite with.
-/
import proofs.«169869_j23854248362895_1_alg».proof.Proof.Gen.Kernel.Launch
import proofs.«169869_j23854248362895_1_alg».proof.Proof.Gen.Kernel.Skeleton
import proofs.«169869_j23854248362895_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch accumulators as whole memrefs. -/
abbrev scr0_0 : Memref sig .tc .vmem S1024x1024 .f32 := Memref.whole cc0_scratch0
abbrev scr0_1 : Memref sig .tc .vmem S1x1024 .f32 := Memref.whole cc0_scratch1

/-- Both accumulators at zero. -/
def zero0 : Vec F S1024x1024 .f32 × Vec F S1x1024 .f32 := (k0_pay1, k0_pay2)

/-- One point's update of the two accumulators from what they held: the matrix one increased by the product of the
    point's k- and v-blocks, the row one by the column sums of exp of its q-block. -/
def step0 (c : Dev nD) (t : Fin cfg0.N) (p : Vec F S1024x1024 .f32 × Vec F S1x1024 .f32) :
    Vec F S1024x1024 .f32 × Vec F S1x1024 .f32 :=
  (k0_pay3 (iblk0 V c 0 t) (iblk0 V c 1 t) p.1, k0_pay4 (iblk0 V c 2 t) p.2)

/-- The accumulators after the body at position `n`: updated from zero where a new batch row starts (n ≡ 0 mod 8),
    from what the point before left elsewhere. -/
def acc0 (c : Dev nD) : (n : ℕ) → n < cfg0.N → Vec F S1024x1024 .f32 × Vec F S1x1024 .f32
  | 0, hn => step0 V c ⟨0, hn⟩ zero0
  | n + 1, hn => step0 V c ⟨n + 1, hn⟩ (if (n + 1) % 8 = 0 then zero0 else acc0 c n (Nat.lt_of_succ_lt hn))

theorem acc0_first (c : Dev nD) (t : Fin cfg0.N) (h : t.val % 8 = 0) :
    acc0 V c t.val t.isLt = step0 V c t zero0 := by
  obtain ⟨n, hn⟩ := t
  cases n with
  | zero => rfl
  | succ n => exact congrArg (step0 V c ⟨n + 1, hn⟩) (if_pos h)

theorem acc0_later (c : Dev nD) (t : Fin cfg0.N) (h : ¬ t.val % 8 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => exact congrArg (step0 V c ⟨n + 1, hn⟩) (if_neg h)

/-- The invariant before position `n`: before the first point the scoped buffers no window stages, at anything,
    and the generator register; afterwards the two accumulators at what the point before left, the other such
    buffers at anything, and the register. -/
def Phi0 (c : Dev nD) : (n : ℕ) → n ≤ cfg0.N → sProp 𝕄
  | 0, _ => Pipeline.ΦA spec0 c
  | n + 1, hn => iprop(owns (c : Thread nD τ) scr0_0 fullShare (acc0 V c n hn).1
      ∗ owns (c : Thread nD τ) scr0_1 fullShare (acc0 V c n hn).2
      ∗ Pipeline.scopedRestBut (Ix := Unit) (Name := ℕ) (U := UR sig nD τ) (Lvl := ℕ) (Val := Elt F) spec0 c [cc0_scratch0, cc0_scratch1]
      ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scr0_0 fullShare (acc0 V c n hn).1
      ∗ owns (c : Thread nD τ) scr0_1 fullShare (acc0 V c n hn).2
      ∗ Pipeline.scopedRestBut (Ix := Unit) (Name := ℕ) (U := UR sig nD τ) (Lvl := ℕ) (Val := Elt F) spec0 c [cc0_scratch0, cc0_scratch1]
      ∗ (∃ r, prngReg c r)) := rfl

theorem Phi0_pos (c : Dev nD) (n : ℕ) (h : n ≤ cfg0.N) (hz : n ≠ 0) :
    Phi0 V c n h = iprop(owns (c : Thread nD τ) scr0_0 fullShare (acc0 V c (n - 1) (by omega)).1
      ∗ owns (c : Thread nD τ) scr0_1 fullShare (acc0 V c (n - 1) (by omega)).2
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero => exact absurd rfl hz
  | succ n => rfl

/-- The proof data of call 0: the arrays as the call finds them; after the body each input's buffer at its block,
    the first result's at the scaled matrix accumulator, the second's at one plus the row accumulator (read only at
    the points that write them back, s = 7); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay5 (acc0 V c t.val t.isLt).1
    | ⟨4, _⟩ => k0_pay6 (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay5 (acc0 V c t.val t.isLt).1 := by dsimp only [dat0]
theorem after0_4 (c : Dev nD) (t : Fin cfg0.N) : (dat0 V c).after 4 t = k0_pay6 (acc0 V c t.val t.isLt).2 := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem Phi0_at_succ (c : Dev nD) (t : Fin cfg0.N) :
    (dat0 V c).Φ t.succ = Phi0 V c (t.val + 1) t.isLt := rfl

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! # Call 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scr1_0 : Memref sig .tc .vmem S1x1024 .f32 := Memref.whole cc1_scratch0

/-- One point's update of the accumulator: increased by the column sums of exp (exp q / denominator) over the
    point's q-block. -/
def step1 (c : Dev nD) (t : Fin cfg1.N) (p : Vec F S1x1024 .f32) : Vec F S1x1024 .f32 :=
  k1_pay2 (iblk1 V c 0 t) (iblk1 V c 1 t) p

def acc1 (c : Dev nD) : (n : ℕ) → n < cfg1.N → Vec F S1x1024 .f32
  | 0, hn => step1 V c ⟨0, hn⟩ k1_pay1
  | n + 1, hn => step1 V c ⟨n + 1, hn⟩ (if (n + 1) % 8 = 0 then k1_pay1 else acc1 c n (Nat.lt_of_succ_lt hn))

theorem acc1_first (c : Dev nD) (t : Fin cfg1.N) (h : t.val % 8 = 0) :
    acc1 V c t.val t.isLt = step1 V c t k1_pay1 := by
  obtain ⟨n, hn⟩ := t
  cases n with
  | zero => rfl
  | succ n => exact congrArg (step1 V c ⟨n + 1, hn⟩) (if_pos h)

theorem acc1_later (c : Dev nD) (t : Fin cfg1.N) (h : ¬ t.val % 8 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => exact congrArg (step1 V c ⟨n + 1, hn⟩) (if_neg h)

def Phi1 (c : Dev nD) : (n : ℕ) → n ≤ cfg1.N → sProp 𝕄
  | 0, _ => Pipeline.ΦA spec1 c
  | n + 1, hn => iprop(owns (c : Thread nD τ) scr1_0 fullShare (acc1 V c n hn)
      ∗ Pipeline.scopedRestBut (Ix := Unit) (Name := ℕ) (U := UR sig nD τ) (Lvl := ℕ) (Val := Elt F) spec1 c [cc1_scratch0]
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scr1_0 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem Phi1_pos (c : Dev nD) (n : ℕ) (h : n ≤ cfg1.N) (hz : n ≠ 0) :
    Phi1 V c n h = iprop(owns (c : Thread nD τ) scr1_0 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem Phi1_at_succ (c : Dev nD) (t : Fin cfg1.N) :
    (dat1 V c).Φ t.succ = Phi1 V c (t.val + 1) t.isLt := rfl

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! # Call 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

end Cert.Kernel.Fr

end
-- ==== Proof.Body0K.lean ====
/-
  The body of call 0 at every grid point, for any float instance.

  The body has two conditionals on the step s within a row: the first (s = 0) zeroes the two scratch accumulators, the
  second (s = 7) stores the scaled matrix accumulator and one plus the row accumulator into the two results. Between
  them it always adds (k-block)ᵀ · (v-block) to the matrix accumulator and the column sums of exp of the q-block to
  the row accumulator. So a point is in one of three control cases: A (s = 0: zeroing, no result stored), B (0 < s < 7:
  neither), C (s = 7: results stored). Each case's run is stated directly over the payloads: from the inputs' buffers at
  their blocks and the accumulators at what they held (at anything in case A), the body leaves the accumulators at one
  update of them and, in case C, the results at their payloads of the updated accumulators; in cases A and B the
  results' buffers come back exactly as they were. Every load and store goes through the whole-shape rectangle at zero
  offsets, through which a load reads the contents and a store leaves its payload.

  The body obligation then follows by cases on the point's position in its row, the invariant carrying the accumulators
  from point to point in the closed recursive form of their contents.
-/
import proofs.«169869_j23854248362895_1_alg».proof.Proof.DataK
import Idealize.ShloMosaic.Lib.Pipeline.Value
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 and of a rank-3 whole-shape rectangle, however spelt. -/
theorem a_hz2 : (![0, 0] : Fin 2 → Nat) = fun _ => 0 := funext fun a => by fin_cases a <;> rfl
theorem a_hz3 : (![0, 0, 0] : Fin 3 → Nat) = fun _ => 0 := funext fun a => by fin_cases a <;> rfl

/-- The condition of the body's first conditional (the row's first step, s = 0), from the grid coordinates. -/
abbrev a_cond1 (i : grid0.Coords) : Prop := (Scalar.cmpi .ne (Scalar.extui (Scalar.cmpi .eq (BitVec.ofNat 32 (i 1).val) 0#32)) 0#32) = 1#1
/-- The condition of its second conditional (the row's last step, s = 7). -/
abbrev a_cond2 (i : grid0.Coords) : Prop := k0_cond2 i = 1#1

/-! ## The three control cases' runs -/

set_option maxHeartbeats 1000000 in
/-- CASE A (a row's first step). From the inputs' buffers at `x0 x1 x2`, the results' at `d3 d4`, the accumulators at
    anything: the body zeroes the accumulators, updates them once, stores no result. -/
theorem a_runA (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S1x1024 .f32) (harg8 : arg8.IsWhole)
    (hc0 : a_cond1 i) (hc1 : ¬a_cond2 i)
    (x0 x1 x2 : Vec F S1x512x1024 .f32) (d3 : Vec F S1x1024x1024 .f32) (d4 : Vec F S1x1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare d4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare d4
            ∗ owns (c : Thread nD τ) arg7 fullShare (k0_pay3 x0 x1 k0_pay1) ∗ owns (c : Thread nD τ) arg8 fullShare (k0_pay4 x2 k0_pay2)) -∗ K ⟨⟩))
      ⊢ wp frame (wpE (defs₀ (F := F)) Variants.none c none) E (cc0__scores_denom_kernel i arg2 harg2 arg3 harg3 arg4 harg4 arg5 harg5 arg6 harg6 arg7 harg7 arg8 harg8) K := by
  simp only [cc0__scores_denom_kernel_eq_skeleton]; unfold cc0__scores_denom_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    rw [View.read_writes_eq_canon _ _ _ (fun y => ⟨_, List.mem_cons.mpr (Or.inl rfl), View.mem_set_unit_zero a_hz2 inb_S1024x1024_S1024x1024_0_0 y⟩)]
    sl_unfold_words
    rw [View.canon_cons_unit_zero (S := S1024x1024) a_hz2, View.readCov_unit_zero (S := S1024x1024) _ a_hz2]
    simp only [View.readAt_eq_ld, harg2.read_unread, harg3.read_unread, View.ld_unit_zero (S := S1x512x1024) a_hz3]
  · iexists _; isplitr
    swap; · iexact HS1
    ipureintro
    rw [View.read_writes_eq_canon _ _ _ (fun y => ⟨_, List.mem_cons.mpr (Or.inl rfl), View.mem_set_unit_zero a_hz2 inb_S1x1024_S1x1024_0_0 y⟩)]
    sl_unfold_words
    rw [View.canon_cons_unit_zero (S := S1x1024) a_hz2, View.readCov_unit_zero (S := S1x1024) _ a_hz2]
    simp only [View.readAt_eq_ld, harg4.read_unread, View.ld_unit_zero (S := S1x512x1024) a_hz3]

set_option maxHeartbeats 1000000 in
/-- CASE B (a row's inner steps). From the inputs' buffers at `x0 x1 x2`, the results' at `d3 d4`, the accumulators at
    `p0 p1`: the body updates the accumulators once and stores no result. -/
theorem a_runB (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S1x1024 .f32) (harg8 : arg8.IsWhole)
    (hc0 : ¬a_cond1 i) (hc1 : ¬a_cond2 i)
    (x0 x1 x2 : Vec F S1x512x1024 .f32) (d3 : Vec F S1x1024x1024 .f32) (d4 : Vec F S1x1x1024 .f32) (p0 : Vec F S1024x1024 .f32) (p1 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare d4
        ∗ owns (c : Thread nD τ) arg7 fullShare p0 ∗ owns (c : Thread nD τ) arg8 fullShare p1
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare d4
            ∗ owns (c : Thread nD τ) arg7 fullShare (k0_pay3 x0 x1 p0) ∗ owns (c : Thread nD τ) arg8 fullShare (k0_pay4 x2 p1)) -∗ K ⟨⟩))
      ⊢ wp frame (wpE (defs₀ (F := F)) Variants.none c none) E (cc0__scores_denom_kernel i arg2 harg2 arg3 harg3 arg4 harg4 arg5 harg5 arg6 harg6 arg7 harg7 arg8 harg8) K := by
  simp only [cc0__scores_denom_kernel_eq_skeleton]; unfold cc0__scores_denom_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    rw [View.read_writes_eq_canon _ _ _ (fun y => ⟨_, List.mem_singleton_self _, View.mem_set_unit_zero a_hz2 inb_S1024x1024_S1024x1024_0_0 y⟩)]
    rw [View.canon_unit_zero a_hz2]
    simp only [View.readAt_eq_ld, harg2.read_unread, harg3.read_unread, harg7.read_unread,
      View.ld_unit_zero (S := S1x512x1024) a_hz3, View.ld_unit_zero (S := S1024x1024) a_hz2]
  · iexists _; isplitr
    swap; · iexact HS1
    ipureintro
    rw [View.read_writes_eq_canon _ _ _ (fun y => ⟨_, List.mem_singleton_self _, View.mem_set_unit_zero a_hz2 inb_S1x1024_S1x1024_0_0 y⟩)]
    rw [View.canon_unit_zero a_hz2]
    simp only [View.readAt_eq_ld, harg4.read_unread, harg8.read_unread,
      View.ld_unit_zero (S := S1x512x1024) a_hz3, View.ld_unit_zero (S := S1x1024) a_hz2]

set_option maxHeartbeats 1000000 in
/-- CASE C (a row's last step). From the inputs' buffers at `x0 x1 x2`, the results' at anything, the accumulators at
    `p0 p1`: the body updates the accumulators once, then stores the scaled matrix accumulator and one plus the row
    accumulator into the results. -/
theorem a_runC (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S1x1024 .f32) (harg8 : arg8.IsWhole)
    (hc0 : ¬a_cond1 i) (hc1 : a_cond2 i)
    (x0 x1 x2 : Vec F S1x512x1024 .f32) (p0 : Vec F S1024x1024 .f32) (p1 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare p0 ∗ owns (c : Thread nD τ) arg8 fullShare p1
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 (k0_pay3 x0 x1 p0)) ∗ owns (c : Thread nD τ) arg6 fullShare (k0_pay6 (k0_pay4 x2 p1))
            ∗ owns (c : Thread nD τ) arg7 fullShare (k0_pay3 x0 x1 p0) ∗ owns (c : Thread nD τ) arg8 fullShare (k0_pay4 x2 p1)) -∗ K ⟨⟩))
      ⊢ wp frame (wpE (defs₀ (F := F)) Variants.none c none) E (cc0__scores_denom_kernel i arg2 harg2 arg3 harg3 arg4 harg4 arg5 harg5 arg6 harg6 arg7 harg7 arg8 harg8) K := by
  simp only [cc0__scores_denom_kernel_eq_skeleton]; unfold cc0__scores_denom_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg7.eq_unread hfs0; obtain rfl := harg8.eq_unread hfs1
  sl_exec (disch := first | exact hc0 | exact hc1)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_singleton_self _, View.mem_set_unit_zero a_hz3 inb_S1x1024x1024_S1x1024x1024_0_0_0 y⟩)]
    rw [View.canon_unit_zero a_hz3, View.readCov_unit_zero (S := S1024x1024) _ a_hz2]
    simp only [View.readAt_eq_ld, harg2.read_unread, harg3.read_unread, harg7.read_unread,
      View.ld_unit_zero (S := S1x512x1024) a_hz3, View.ld_unit_zero (S := S1024x1024) a_hz2]
  isplitl [H4]
  · iexists _; isplitr
    swap; · iexact H4
    ipureintro
    sl_unfold_words
    rw [View.read_writes_eq_canon _ _ _ (fun y => ⟨_, List.mem_singleton_self _, View.mem_set_unit_zero a_hz3 inb_S1x1x1024_S1x1x1024_0_0_0 y⟩)]
    rw [View.canon_unit_zero a_hz3, View.readCov_unit_zero (S := S1x1024) _ a_hz2]
    simp only [View.readAt_eq_ld, harg4.read_unread, harg8.read_unread,
      View.ld_unit_zero (S := S1x512x1024) a_hz3, View.ld_unit_zero (S := S1x1024) a_hz2]
  isplitl [HS0]
  · iexists _; isplitr
    swap; · iexact HS0
    ipureintro
    sl_unfold_words
    rw [View.read_writes_eq_canon _ _ _ (fun y => ⟨_, List.mem_singleton_self _, View.mem_set_unit_zero a_hz2 inb_S1024x1024_S1024x1024_0_0 y⟩)]
    rw [View.canon_unit_zero a_hz2]
    simp only [View.readAt_eq_ld, harg2.read_unread, harg3.read_unread, harg7.read_unread,
      View.ld_unit_zero (S := S1x512x1024) a_hz3, View.ld_unit_zero (S := S1024x1024) a_hz2]
  · iexists _; isplitr
    swap; · iexact HS1
    ipureintro
    sl_unfold_words
    rw [View.read_writes_eq_canon _ _ _ (fun y => ⟨_, List.mem_singleton_self _, View.mem_set_unit_zero a_hz2 inb_S1x1024_S1x1024_0_0 y⟩)]
    rw [View.canon_unit_zero a_hz2]
    simp only [View.readAt_eq_ld, harg4.read_unread, harg8.read_unread,
      View.ld_unit_zero (S := S1x512x1024) a_hz3, View.ld_unit_zero (S := S1x1024) a_hz2]

variable (V : (c : Dev nD) → (b : Ref sig .tc) → Buf (Elt F) ((c : Thread nD τ).loc b))

/-! ## Which case a point is in, and where the result windows are idle -/

/-- The first conditional is taken at the points ≡ 0 (mod 8): decided over the grid. -/
theorem a_hcond1 : ∀ t : Fin cfg0.N, a_cond1 (grid0.coords t) ↔ t.val % 8 = 0 :=
  (by decide +kernel : ∀ t : Fin grid0.N, a_cond1 (grid0.coords t) ↔ t.val % 8 = 0)
/-- The second at the points ≡ 7 (mod 8). -/
theorem a_hcond2 : ∀ t : Fin cfg0.N, a_cond2 (grid0.coords t) ↔ t.val % 8 = 7 :=
  (by decide +kernel : ∀ t : Fin grid0.N, a_cond2 (grid0.coords t) ↔ t.val % 8 = 7)

/-- The three inputs are never idle. -/
theorem a_live0 : ∀ t : Fin cfg0.N, cfg0.idle 0 (grid0.coords t) = false := fun _ => rfl
theorem a_live1 : ∀ t : Fin cfg0.N, cfg0.idle 1 (grid0.coords t) = false := fun _ => rfl
theorem a_live2 : ∀ t : Fin cfg0.N, cfg0.idle 2 (grid0.coords t) = false := fun _ => rfl
/-- The two results are idle away from a row's last step, live at it. -/
theorem a_idle3 : ∀ t : Fin cfg0.N, ¬ t.val % 8 = 7 → cfg0.idle 3 (grid0.coords t) = true :=
  (by decide +kernel : ∀ t : Fin grid0.N, ¬ t.val % 8 = 7 → cfg0.idle 3 (grid0.coords t) = true)
theorem a_idle4 : ∀ t : Fin cfg0.N, ¬ t.val % 8 = 7 → cfg0.idle 4 (grid0.coords t) = true :=
  (by decide +kernel : ∀ t : Fin grid0.N, ¬ t.val % 8 = 7 → cfg0.idle 4 (grid0.coords t) = true)
theorem a_live3 : ∀ t : Fin cfg0.N, t.val % 8 = 7 → cfg0.idle 3 (grid0.coords t) = false :=
  (by decide +kernel : ∀ t : Fin grid0.N, t.val % 8 = 7 → cfg0.idle 3 (grid0.coords t) = false)
theorem a_live4 : ∀ t : Fin cfg0.N, t.val % 8 = 7 → cfg0.idle 4 (grid0.coords t) = false :=
  (by decide +kernel : ∀ t : Fin grid0.N, t.val % 8 = 7 → cfg0.idle 4 (grid0.coords t) = false)
/-- Away from a row's last step neither result's block is written back. -/
theorem a_noflush3 (t : Fin cfg0.N) (h : ¬ t.val % 8 = 7) : (cfg0.win 3).flush t = false :=
  Bool.eq_false_iff.mpr fun hf => h ((flush0_3 t).mp hf)
theorem a_noflush4 (t : Fin cfg0.N) (h : ¬ t.val % 8 = 7) : (cfg0.win 4).flush t = false :=
  Bool.eq_false_iff.mpr fun hf => h ((flush0_4 t).mp hf)

/-- Each window's current staging memref at point `t`, as the pipeline passes it to the body, and its wholeness. -/
abbrev a_ms0 (t : Fin cfg0.N) : Memref sig .tc .vmem S1x512x1024 .f32 := win0_0.stage (cfg0.slots t 0)
abbrev a_hs0 (t : Fin cfg0.N) : (a_ms0 t).IsWhole := hstage0_0 ((cfg0.slots t 0).cast nbuf0_0)
abbrev a_ms1 (t : Fin cfg0.N) : Memref sig .tc .vmem S1x512x1024 .f32 := win0_1.stage (cfg0.slots t 1)
abbrev a_hs1 (t : Fin cfg0.N) : (a_ms1 t).IsWhole := hstage0_1 ((cfg0.slots t 1).cast nbuf0_1)
abbrev a_ms2 (t : Fin cfg0.N) : Memref sig .tc .vmem S1x512x1024 .f32 := win0_2.stage (cfg0.slots t 2)
abbrev a_hs2 (t : Fin cfg0.N) : (a_ms2 t).IsWhole := hstage0_2 ((cfg0.slots t 2).cast nbuf0_2)
abbrev a_ms3 (t : Fin cfg0.N) : Memref sig .tc .vmem S1x1024x1024 .f32 := win0_3.stage (cfg0.slots t 3)
abbrev a_hs3 (t : Fin cfg0.N) : (a_ms3 t).IsWhole := hstage0_3 ((cfg0.slots t 3).cast nbuf0_3)
abbrev a_ms4 (t : Fin cfg0.N) : Memref sig .tc .vmem S1x1x1024 .f32 := win0_4.stage (cfg0.slots t 4)
abbrev a_hs4 (t : Fin cfg0.N) : (a_ms4 t).IsWhole := hstage0_4 ((cfg0.slots t 4).cast nbuf0_4)

/-- What the launch hands the call, with the two accumulators split off as memrefs owned at some contents and the
    other scoped buffers left unopened. -/
theorem a_PhiA_eq (c : Dev nD) :
    (Pipeline.ΦA spec0 c : sProp 𝕄)
      = iprop((((∃ d, owns (c : Thread nD τ) scr0_0 fullShare d) ∗ (∃ d, owns (c : Thread nD τ) scr0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA
  rw [Pipeline.scopedRest_split_of_list spec0 c [cc0_scratch0, cc0_scratch1] (by decide) (by decide)]
  simp only [scr0_0, scr0_1, owns_whole]; rfl

/-! ## The body obligation, at a generic point -/

/-- What the body is called with at point `t`: the invariant, what the core owes, and every window's current staging
    buffer at what it holds. -/
def a_bodyPre (c : Dev nD) (t : Fin cfg0.N) : sProp 𝕄 :=
  iprop((dat0 V c).Φ t.castSucc ∗ (dat0 V c).owesAt () t.castSucc
    ∗ (∃ d, owns (c : Thread nD τ) (a_ms0 t) fullShare ((dat0 V c).before 0 t d))
    ∗ (∃ d, owns (c : Thread nD τ) (a_ms1 t) fullShare ((dat0 V c).before 1 t d))
    ∗ (∃ d, owns (c : Thread nD τ) (a_ms2 t) fullShare ((dat0 V c).before 2 t d))
    ∗ (∃ d, owns (c : Thread nD τ) (a_ms3 t) fullShare ((dat0 V c).before 3 t d))
    ∗ (∃ d, owns (c : Thread nD τ) (a_ms4 t) fullShare ((dat0 V c).before 4 t d)))

/-- And what it returns. -/
def a_bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point. The inputs' buffers hold their blocks; the point's position in its row says which of the
    three control cases it is in; the invariant hands the body the two accumulators at what the point before left (at
    anything where a row starts, which zeroes them) and takes them back at this point's update of them; away from a
    row's last step the two results' buffers come back untouched, at it they hold the scaled matrix accumulator and one
    plus the row accumulator. -/
theorem a_sound_body (c : Dev nD) (t : Fin cfg0.N) :
    a_bodyPre V c t ⊢ wp frame (wpE (defs₀ (F := F)) Variants.none c none) Set.univ (bodyAt0 t) (fun _ => a_bodyPost V c t) := by
  unfold a_bodyPre a_bodyPost bodyAt0
  simp only [before0_0, before0_1, before0_2]
  rw [show (dat0 V c).owesAt () t.succ = (dat0 V c).owesAt () t.castSucc from rfl]
  rw [Phi0_at_succ, Phi0_succ]
  have hN : t.val < 32 := lt_of_lt_of_eq t.isLt (show cfg0.N = 32 from N_0)
  rw [show (dat0 V c).leavesExact 0 t = owns (c : Thread nD τ) (a_ms0 t) fullShare ((dat0 V c).after 0 t) from by
    unfold Dat.leavesExact; rw [a_live0 t], after0_0]
  rw [show (dat0 V c).leavesExact 1 t = owns (c : Thread nD τ) (a_ms1 t) fullShare ((dat0 V c).after 1 t) from by
    unfold Dat.leavesExact; rw [a_live1 t], after0_1]
  rw [show (dat0 V c).leavesExact 2 t = owns (c : Thread nD τ) (a_ms2 t) fullShare ((dat0 V c).after 2 t) from by
    unfold Dat.leavesExact; rw [a_live2 t], after0_2]
  by_cases h0 : t.val % 8 = 0
  · have h7 : ¬ t.val % 8 = 7 := by omega
    rw [Dat.leavesExact_idle (dat0 V c) 3 t (a_idle3 t h7) (a_noflush3 t h7),
      Dat.leavesExact_idle (dat0 V c) 4 t (a_idle4 t h7) (a_noflush4 t h7)]
    rw [acc0_first V c t h0]
    unfold step0 zero0
    dsimp only
    by_cases hz : t.val = 0
    · rw [Phi0_castSucc V c t, Phi0_zero V c _ _ hz, a_PhiA_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (a_runA c (grid0.coords t) (a_ms0 t) (a_hs0 t) (a_ms1 t) (a_hs1 t) (a_ms2 t) (a_hs2 t) (a_ms3 t) (a_hs3 t) (a_ms4 t) (a_hs4 t) scr0_0 (Memref.isWhole_whole _) scr0_1 (Memref.isWhole_whole _) ((a_hcond1 t).mpr h0) (fun h => h7 ((a_hcond2 t).mp h)) (iblk0 V c 0 t) (iblk0 V c 1 t) (iblk0 V c 2 t) ((dat0 V c).before 3 t d3) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexists d3; iexact H3
      iexists d4; iexact H4
    · rw [Phi0_castSucc V c t, Phi0_pos V c _ _ hz]
      iintro ⟨⟨HS0, HS1, Hrest, Hg⟩, Ho, ⟨%d0, H0⟩, ⟨%d1, H1⟩, ⟨%d2, H2⟩, ⟨%d3, H3⟩, ⟨%d4, H4⟩⟩
      iapply (a_runA c (grid0.coords t) (a_ms0 t) (a_hs0 t) (a_ms1 t) (a_hs1 t) (a_ms2 t) (a_hs2 t) (a_ms3 t) (a_hs3 t) (a_ms4 t) (a_hs4 t) scr0_0 (Memref.isWhole_whole _) scr0_1 (Memref.isWhole_whole _) ((a_hcond1 t).mpr h0) (fun h => h7 ((a_hcond2 t).mp h)) (iblk0 V c 0 t) (iblk0 V c 1 t) (iblk0 V c 2 t) ((dat0 V c).before 3 t d3) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexists d3; iexact H3
      iexists d4; iexact H4
  · have hz : t.val ≠ 0 := fun h => h0 (by rw [h])
    rw [acc0_later V c t h0]
    unfold step0
    dsimp only
    rw [Phi0_castSucc V c t, Phi0_pos V c _ _ hz]
    by_cases h7 : t.val % 8 = 7
    · rw [show (dat0 V c).leavesExact 3 t = owns (c : Thread nD τ) (a_ms3 t) fullShare ((dat0 V c).after 3 t) from by
        unfold Dat.leavesExact; rw [a_live3 t h7], after0_3]
      rw [show (dat0 V c).leavesExact 4 t = owns (c : Thread nD τ) (a_ms4 t) fullShare ((dat0 V c).after 4 t) from by
        unfold Dat.leavesExact; rw [a_live4 t h7], after0_4]
      rw [acc0_later V c t h0]
      unfold step0
      dsimp only
      iintro ⟨⟨HS0, HS1, Hrest, Hg⟩, Ho, ⟨%d0, H0⟩, ⟨%d1, H1⟩, ⟨%d2, H2⟩, ⟨%d3, H3⟩, ⟨%d4, H4⟩⟩
      iapply (a_runC c (grid0.coords t) (a_ms0 t) (a_hs0 t) (a_ms1 t) (a_hs1 t) (a_ms2 t) (a_hs2 t) (a_ms3 t) (a_hs3 t) (a_ms4 t) (a_hs4 t) scr0_0 (Memref.isWhole_whole _) scr0_1 (Memref.isWhole_whole _) (fun h => h0 ((a_hcond1 t).mp h)) ((a_hcond2 t).mpr h7) (iblk0 V c 0 t) (iblk0 V c 1 t) (iblk0 V c 2 t) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 3 t (a_idle3 t h7) (a_noflush3 t h7),
        Dat.leavesExact_idle (dat0 V c) 4 t (a_idle4 t h7) (a_noflush4 t h7)]
      iintro ⟨⟨HS0, HS1, Hrest, Hg⟩, Ho, ⟨%d0, H0⟩, ⟨%d1, H1⟩, ⟨%d2, H2⟩, ⟨%d3, H3⟩, ⟨%d4, H4⟩⟩
      iapply (a_runB c (grid0.coords t) (a_ms0 t) (a_hs0 t) (a_ms1 t) (a_hs1 t) (a_ms2 t) (a_hs2 t) (a_ms3 t) (a_hs3 t) (a_ms4 t) (a_hs4 t) scr0_0 (Memref.isWhole_whole _) scr0_1 (Memref.isWhole_whole _) (fun h => h0 ((a_hcond1 t).mp h)) (fun h => h7 ((a_hcond2 t).mp h)) (iblk0 V c 0 t) (iblk0 V c 1 t) (iblk0 V c 2 t) ((dat0 V c).before 3 t d3) ((dat0 V c).before 4 t d4) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation0 (c : Dev nD) : BodyObligation (dat0 (F := F) V c) (defs₀ (F := F)) Variants.none () Set.univ := fun t => by
  rw [bigSep_W0, bigSep_W0]
  exact a_sound_body V c t

/-- What the launch hands the call is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives it back: the accumulators' named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), a_PhiA_eq]
  iintro ⟨HS0, HS1, Hrest, Hg⟩
  isplitr [Hg]
  · isplitr [Hrest]
    · isplitl [HS0]
      · iexists _; iexact HS0
      · iexists _; iexact HS1
    · iexact Hrest
  · iexact Hg

end Cert.Kernel.Fr

end
-- ==== Proof.Body1K.lean ====
/-
  The body of the second call at a grid point (b, s). It carries one 1×1024 accumulator in scratch memory: at s = 0
  the accumulator is set to zero; at every point it is increased by the column sums of exp (exp q / denominator) over
  the point's 512-row q-block; at s = 7 it is copied, reshaped, into the output's staging buffer. So there are three
  control cases: the first point of a batch row (zeroing branch taken), an inner point (neither branch), and the last
  point of a batch row (output branch taken). In each the body's run is stated over the values it stores, and the
  invariant hands the accumulator from point to point.

-/
import proofs.«169869_j23854248362895_1_alg».proof.Proof.DataK
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, in closed form over the grid -/

/-- The condition of the zeroing branch, from the grid coordinates. -/
abbrev b_cond1_0 (i : grid1.Coords) : Prop :=
  (Scalar.cmpi .ne (Scalar.extui (Scalar.cmpi .eq (BitVec.ofNat 32 (i 1).val) 0#32)) 0#32) = 1#1
/-- It holds at the points ≡ 0 (mod 8): the first point of each batch row. -/
theorem b_hcond1_0 : ∀ t : Fin cfg1.N, b_cond1_0 (grid1.coords t) ↔ t.val % 8 = 0 :=
  (by decide +kernel : ∀ t : Fin grid1.N, b_cond1_0 (grid1.coords t) ↔ t.val % 8 = 0)

/-- The condition of the output branch. -/
abbrev b_cond1_1 (i : grid1.Coords) : Prop := k1_cond2 i = 1#1
/-- It holds at the points ≡ 7 (mod 8): the last point of each batch row. -/
theorem b_hcond1_1 : ∀ t : Fin cfg1.N, b_cond1_1 (grid1.coords t) ↔ t.val % 8 = 7 :=
  (by decide +kernel : ∀ t : Fin grid1.N, b_cond1_1 (grid1.coords t) ↔ t.val % 8 = 7)

/-- The two input windows are never idle. -/
theorem b_liveAt1_0 : ∀ t : Fin cfg1.N, cfg1.idle 0 (grid1.coords t) = false := by decide +kernel
theorem b_liveAt1_1 : ∀ t : Fin cfg1.N, cfg1.idle 1 (grid1.coords t) = false := by decide +kernel
/-- Off the last point of a batch row the output window is idle and is not written back; -/
theorem b_idleAt1_2 : ∀ t : Fin cfg1.N, ¬b_cond1_1 (grid1.coords t) → cfg1.idle 2 (grid1.coords t) = true := by decide +kernel
theorem b_noFlush1_2 : ∀ t : Fin cfg1.N, ¬b_cond1_1 (grid1.coords t) → (cfg1.win 2).flush t = false := by decide +kernel
/-- at it the window is live. -/
theorem b_liveAt1_2 : ∀ t : Fin cfg1.N, b_cond1_1 (grid1.coords t) → cfg1.idle 2 (grid1.coords t) = false := by decide +kernel

/-! ## Whole-buffer loads and stores -/

/-- Offsets spelt as literal zeros are the zero offset. -/
theorem b_hz1_2 : (![0, 0] : Fin 2 → Nat) = fun _ => 0 := funext fun a => by fin_cases a <;> rfl
theorem b_hz1_3 : (![0, 0, 0] : Fin 3 → Nat) = fun _ => 0 := funext fun a => by fin_cases a <;> rfl

/-- A last store through the whole-buffer rectangle covers the buffer, whatever was stored before. -/
theorem b_cover_unit1 {S : Shape} {e : EltTy} {off : Fin S.rank → Nat} (h : off = fun _ => 0)
    (inb : ∀ a, off a + S.size a ≤ S.size a) (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons.mpr (Or.inl rfl), View.mem_set_unit_zero h inb y⟩

/-! ## The body's run in each control case

On whole staging memrefs: the q-block's at `x0`, the denominator row's at `x1`, the output row's and the accumulator's
as the case says. Every load and store is through the whole-buffer rectangle, so a load reads the contents (or, after a
store, the stored value) and a store leaves its value. -/

set_option maxHeartbeats 1000000 in
/-- First point of a batch row: the accumulator, found at anything, is zeroed and then increased, so it ends at the
    update of zero; the output's buffer is not touched. -/
theorem b_run1_A (c : Dev nD) (E : Set ℕ) (i : grid1.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1024 .f32) (harg5 : arg5.IsWhole) (hc0 : b_cond1_0 i) (hc1 : ¬b_cond1_1 i)
    (x0 : Vec F S1x512x1024 .f32) (x1 : Vec F S1x1x1024 .f32) (x2 : Vec F S1x1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k1_pay2 x0 x1 k1_pay1)) -∗ K ⟨⟩))
      ⊢ wp frame (wpE (defs₀ (F := F)) Variants.none c none) E
          (cc1__z_kernel i arg2 harg2 arg3 harg3 arg4 harg4 arg5 harg5) K := by
  simp only [cc1__z_kernel_eq_skeleton]; unfold cc1__z_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (b_cover_unit1 b_hz1_2 _ _ _), View.canon_cons_unit_zero b_hz1_2,
    View.readCov_unit_zero _ b_hz1_2]
  simp only [View.readAt_eq_ld, View.ld_unit_zero (S := S1x512x1024) b_hz1_3, View.ld_unit_zero (S := S1x1x1024) b_hz1_3,
    View.ld_unit_zero (S := S1x1024) b_hz1_2]

set_option maxHeartbeats 1000000 in
/-- An inner point: the accumulator, found at `p`, ends at the update of `p`; the output's buffer is not touched. -/
theorem b_run1_B (c : Dev nD) (E : Set ℕ) (i : grid1.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1024 .f32) (harg5 : arg5.IsWhole) (hc0 : ¬b_cond1_0 i) (hc1 : ¬b_cond1_1 i)
    (x0 : Vec F S1x512x1024 .f32) (x1 : Vec F S1x1x1024 .f32) (x2 : Vec F S1x1x1024 .f32) (p : Vec F S1x1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare p
        ∗ (iprop(owns (c : Thread nD τ) arg2 fullShare x0 ∗ owns (c : Thread nD τ) arg3 fullShare x1
            ∗ owns (c : Thread nD τ) arg4 fullShare x2
            ∗ owns (c : Thread nD τ) arg5 fullShare (k1_pay2 x0 x1 p)) -∗ K ⟨⟩))
      ⊢ wp frame (wpE (defs₀ (F := F)) Variants.none c none) E
          (cc1__z_kernel i arg2 harg2 arg3 harg3 arg4 harg4 arg5 harg5) K := by
  simp only [cc1__z_kernel_eq_skeleton]; unfold cc1__z_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (b_cover_unit1 b_hz1_2 _ _ _), View.canon_unit_zero b_hz1_2]
  simp only [View.readAt_eq_ld, View.ld_unit_zero (S := S1x512x1024) b_hz1_3, View.ld_unit_zero (S := S1x1x1024) b_hz1_3,
    View.ld_unit_zero (S := S1x1024) b_hz1_2]

set_option maxHeartbeats 1000000 in
/-- Last point of a batch row: the accumulator, found at `p`, ends at the update of `p`, and the output's buffer,
    found at anything, ends at that value reshaped. -/
theorem b_run1_C (c : Dev nD) (E : Set ℕ) (i : grid1.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1024 .f32) (harg5 : arg5.IsWhole) (hc0 : ¬b_cond1_0 i) (hc1 : b_cond1_1 i)
    (x0 : Vec F S1x512x1024 .f32) (x1 : Vec F S1x1x1024 .f32) (p : Vec F S1x1024 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare p
        ∗ (iprop(owns (c : Thread nD τ) arg2 fullShare x0 ∗ owns (c : Thread nD τ) arg3 fullShare x1
            ∗ owns (c : Thread nD τ) arg4 fullShare (k1_pay3 (k1_pay2 x0 x1 p))
            ∗ owns (c : Thread nD τ) arg5 fullShare (k1_pay2 x0 x1 p)) -∗ K ⟨⟩))
      ⊢ wp frame (wpE (defs₀ (F := F)) Variants.none c none) E
          (cc1__z_kernel i arg2 harg2 arg3 harg3 arg4 harg4 arg5 harg5) K := by
  simp only [cc1__z_kernel_eq_skeleton]; unfold cc1__z_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (b_cover_unit1 b_hz1_3 _ _ _), View.canon_unit_zero b_hz1_3,
      View.readCov_unit_zero _ b_hz1_2]
    simp only [View.readAt_eq_ld, View.ld_unit_zero (S := S1x512x1024) b_hz1_3, View.ld_unit_zero (S := S1x1x1024) b_hz1_3,
    View.ld_unit_zero (S := S1x1024) b_hz1_2]
  iexists _; isplitr
  swap; · iexact HS
  ipureintro
  sl_unfold_run_names
  rw [View.read_writes_eq_canon _ _ _ (b_cover_unit1 b_hz1_2 _ _ _), View.canon_unit_zero b_hz1_2]
  simp only [View.readAt_eq_ld, View.ld_unit_zero (S := S1x512x1024) b_hz1_3, View.ld_unit_zero (S := S1x1x1024) b_hz1_3,
    View.ld_unit_zero (S := S1x1024) b_hz1_2]

/-! ## The invariant, split at the accumulator -/

/-- Separating conjunction reassociated, as an equation. -/
theorem b_sep_assoc_eq (X Y Z : sProp 𝕄) : iprop((X ∗ Y) ∗ Z) = iprop(X ∗ Y ∗ Z) :=
  BI.Entails.antisymm
    (show iprop((X ∗ Y) ∗ Z) ⊢ iprop(X ∗ Y ∗ Z) from by
      iintro ⟨⟨HX, HY⟩, HZ⟩
      isplitl [HX]; · iexact HX
      isplitl [HY]; · iexact HY
      iexact HZ)
    (show iprop(X ∗ Y ∗ Z) ⊢ iprop((X ∗ Y) ∗ Z) from by
      iintro ⟨HX, HY, HZ⟩
      isplitl [HX HY]
      · isplitl [HX]; · iexact HX
        iexact HY
      iexact HZ)

/-- What the call is entered with — the scoped buffers no window stages, at anything, and the generator register —
    with the accumulator's buffer named: it at anything, the others at anything, the register. -/
theorem b_PhiA1_eq (c : Dev nD) :
    (Pipeline.ΦA spec1 c : sProp 𝕄)
      = iprop((∃ d, owns (c : Thread nD τ) scr1_0 fullShare d)
        ∗ Pipeline.scopedRestBut (Ix := Unit) (Name := ℕ) (U := UR sig nD τ) (Lvl := ℕ) (Val := Elt F) spec1 c [cc1_scratch0]
        ∗ (∃ r, prngReg c r)) := by
  unfold Pipeline.ΦA
  rw [Pipeline.scopedRest_split_of_list spec1 c [cc1_scratch0] (by decide) (by decide)]
  simp only [bigSepL_singleton, scr1_0, owns_whole]
  exact b_sep_assoc_eq _ _ _

/-! ## The body obligation, at a generic point -/

/-- What the body is called with at point `t`: the invariant, the core's debts, and each window's current staging
    buffer at what the pipeline put there. -/
def b_bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def b_bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's position in its batch row says which
    case it is in; the invariant hands the body the accumulator at what the point before left (at anything before the
    first point) and takes it back at this point's value, which is the recursion's step; off the last point of a batch
    row the output's buffer goes back as it came, and at it the buffer ends at the reshaped accumulator. -/
theorem b_sound_body1 (c : Dev nD) (t : Fin cfg1.N) :
    b_bodyPre1 V c t ⊢ wp frame (wpE (defs₀ (F := F)) Variants.none c none) Set.univ (bodyAt1 t) (fun _ => b_bodyPost1 V c t) := by
  unfold b_bodyPre1 b_bodyPost1 bodyAt1
  simp only [before1_0, before1_1]
  rw [show (dat1 V c).owesAt () t.succ = (dat1 V c).owesAt () t.castSucc from rfl]
  rw [Phi1_at_succ, Phi1_succ]
  rw [show (dat1 V c).leavesExact 0 t = owns (c : Thread nD τ) (st1_0 t) fullShare ((dat1 V c).after 0 t) from by
    unfold Dat.leavesExact; rw [b_liveAt1_0 t], after1_0]
  rw [show (dat1 V c).leavesExact 1 t = owns (c : Thread nD τ) (st1_1 t) fullShare ((dat1 V c).after 1 t) from by
    unfold Dat.leavesExact; rw [b_liveAt1_1 t], after1_1]
  have hN : t.val < 32 := lt_of_lt_of_eq t.isLt (show cfg1.N = 32 from N_1)
  by_cases h0 : t.val % 8 = 0
  · have hc0 : b_cond1_0 (grid1.coords t) := (b_hcond1_0 t).mpr h0
    have hc1 : ¬b_cond1_1 (grid1.coords t) := fun h => by have h7 := (b_hcond1_1 t).mp h; omega
    rw [Dat.leavesExact_idle (dat1 V c) 2 t (b_idleAt1_2 t hc1) (b_noFlush1_2 t hc1)]
    rw [acc1_first V c t h0]; unfold step1
    by_cases hz : t.val = 0
    · rw [Phi1_castSucc V c t, Phi1_zero V c _ _ hz, b_PhiA1_eq]
      iintro ⟨⟨HS, Hr, Hg⟩, Ho, ⟨%d0, H0⟩, ⟨%d1, H1⟩, ⟨%d2, H2⟩⟩
      iapply (b_run1_A c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · rw [Phi1_castSucc V c t, Phi1_pos V c _ _ hz]
      iintro ⟨⟨HS, Hr, Hg⟩, Ho, ⟨%d0, H0⟩, ⟨%d1, H1⟩, ⟨%d2, H2⟩⟩
      iapply (b_run1_A c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
  · have hc0 : ¬b_cond1_0 (grid1.coords t) := fun h => h0 ((b_hcond1_0 t).mp h)
    have hz : t.val ≠ 0 := fun h => h0 (by rw [h])
    rw [acc1_later V c t h0]; unfold step1
    rw [Phi1_castSucc V c t, Phi1_pos V c _ _ hz]
    by_cases h1 : t.val % 8 = 7
    · have hc1 : b_cond1_1 (grid1.coords t) := (b_hcond1_1 t).mpr h1
      rw [show (dat1 V c).leavesExact 2 t = owns (c : Thread nD τ) (st1_2 t) fullShare ((dat1 V c).after 2 t) from by
        unfold Dat.leavesExact; rw [b_liveAt1_2 t hc1], after1_2]
      rw [acc1_later V c t h0]; unfold step1
      iintro ⟨⟨HS, Hr, Hg⟩, Ho, ⟨%d0, H0⟩, ⟨%d1, H1⟩, ⟨%d2, H2⟩⟩
      iapply (b_run1_C c Set.univ (grid1.coords t) _ _ _ _ _ _ _ _ hc0 hc1 (iblk1 V c 0 t) (iblk1 V c 1 t)
        (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · have hc1 : ¬b_cond1_1 (grid1.coords t) := fun h => h1 ((b_hcond1_1 t).mp h)
      rw [Dat.leavesExact_idle (dat1 V c) 2 t (b_idleAt1_2 t hc1) (b_noFlush1_2 t hc1)]
      iintro ⟨⟨HS, Hr, Hg⟩, Ho, ⟨%d0, H0⟩, ⟨%d1, H1⟩, ⟨%d2, H2⟩⟩
      iapply (b_run1_B c Set.univ (grid1.coords t) _ _ _ _ _ _ _ _ hc0 hc1 (iblk1 V c 0 t) (iblk1 V c 1 t) ((dat1 V c).before 2 t d2)
        (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The body obligation of the second call, at every point. -/
theorem body_obligation1 (c : Dev nD) : BodyObligation (dat1 (F := F) V c) (defs₀ (F := F)) Variants.none () Set.univ := fun t => by
  rw [bigSep_W1, bigSep_W1]
  exact b_sound_body1 V c t

/-- What the call is entered with is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives that back: the accumulator's value is forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have hN : cfg1.N = 32 := N_1; omega), b_PhiA1_eq]
  iintro ⟨HS, Hr, Hg⟩
  isplitl [HS]; · iexists _; iexact HS
  isplitl [Hr]; · iexact Hr
  iexact Hg

end Cert.Kernel.Fr

end
-- ==== Proof.Body2K.lean ====
/-
  The body of the third call at a grid point. It keeps no state: it loads the whole of its four input blocks (the
  point's q-block, the batch row's two 1×1024 denominator rows, and the batch row's 1024×1024 score matrix) and stores
  the whole of its output block once, so what the output's staging buffer holds afterwards is the stored value as a
  function of the four blocks, and the inputs' buffers, the other scoped buffers and the generator register are as
  the body found them.

-/
import proofs.«169869_j23854248362895_1_alg».proof.Proof.DataK
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A rank-3 offset spelt as three literal zeros is the zero offset. -/
theorem b_hz3 : (![0, 0, 0] : Fin 3 → Nat) = fun _ => 0 := funext fun a => by fin_cases a <;> rfl

/-- One store through the whole-buffer rectangle covers the buffer. -/
theorem b_cover_unit2 {S : Shape} {e : EltTy} {off : Fin S.rank → Nat} (h : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set :=
  ⟨_, List.mem_singleton_self _, View.mem_set_unit_zero h inb y⟩

set_option maxHeartbeats 1000000 in
/-- The body on whole staging memrefs, the four inputs' at contents `x0 … x3` and the output's at anything, runs to
    the continuation holding the inputs' as they were and the output's at the stored value of the four: every load
    is through the whole-buffer rectangle, so it reads the contents, and the one store covers the buffer. -/
theorem b_sound_kernel2 (c : Dev nD) (E : Set ℕ) (i : grid2.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1024x1024 .f32) (harg5 : arg5.IsWhole)
    (arg6 : Memref sig .tc .vmem S1x512x1024 .f32) (harg6 : arg6.IsWhole)
    (x0 : Vec F S1x512x1024 .f32) (x1 : Vec F S1x1x1024 .f32) (x2 : Vec F S1x1x1024 .f32) (x3 : Vec F S1x1024x1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay1 x0 x1 x2 x3)) -∗ K ⟨⟩))
      ⊢ wp frame (wpE (defs₀ (F := F)) Variants.none c none) E
          (cc2__out_kernel i arg2 harg2 arg3 harg3 arg4 harg4 arg5 harg5 arg6 harg6) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (b_cover_unit2 b_hz3 _ _),
    View.canon_unit_zero b_hz3]
  simp only [View.readAt_eq_ld, View.ld_unit_zero (S := S1x512x1024) b_hz3, View.ld_unit_zero (S := S1x1x1024) b_hz3,
    View.ld_unit_zero (S := S1x1024x1024) b_hz3]

/-- What the body is called with at point `t`: the invariant, the core's debts, and each window's current staging
    buffer at what the pipeline put there. -/
def b_bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: each buffer at what the body leaves in it. -/
def b_bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: each input's buffer holds its block there, so the body's run applies at the four blocks;
    the invariant and the core's debts pass through untouched. -/
theorem b_sound_body2 (c : Dev nD) (t : Fin cfg2.N) :
    b_bodyPre2 V c t ⊢ wp frame (wpE (defs₀ (F := F)) Variants.none c none) Set.univ (bodyAt2 t) (fun _ => b_bodyPost2 V c t) := by
  unfold b_bodyPre2 b_bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (b_sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the third call, at every point. -/
theorem body_obligation2 (c : Dev nD) : BodyObligation (dat2 (F := F) V c) (defs₀ (F := F)) Variants.none () Set.univ := fun t => by
  rw [bigSep_W2, bigSep_W2]
  exact b_sound_body2 V c t

end Cert.Kernel.Fr

end
-- ==== Proof.RunK.lean ====
/-
  The whole program as three segments, one per pipelined call, and its run: every weakly fair execution ends, with
  the three argument arrays as launched and the result array at what the third call's write-backs leave.

  The unscoped buffers' contents at the four boundaries are a fold from the launch memory: `W0` the launch
  contents; after call K, that call's arrays at the contents its pipeline leaves and every other buffer unchanged
  (`W1`, `W2`, `W3`). Each call's proof data is taken at the contents its call is entered with.
-/
import proofs.«169869_j23854248362895_1_alg».proof.Proof.DataK
import proofs.«169869_j23854248362895_1_alg».proof.Proof.Body0K
import proofs.«169869_j23854248362895_1_alg».proof.Proof.Body1K
import proofs.«169869_j23854248362895_1_alg».proof.Proof.Body2K

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- Core `c`'s buffers at launch. -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b

/-- After call 0: its arrays at what the pipeline leaves (an input as entered, an output with its write-backs
    folded in), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After call 1: its arrays at what the pipeline leaves (an input as entered, an output with its write-backs
    folded in), every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After call 2: its arrays at what the pipeline leaves (an input as entered, an output with its write-backs
    folded in), every other buffer as entered. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-! ## The arguments end as launched

No call writes an argument: each is an input window of a call (its array after the run is its array before) or no
window of it (it bypasses the call). -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl

theorem W1_main_arg1 (c : Dev nD) : W1 m c (Proc.devRef .tc main_arg1) = m ((c : Thread nD τ).loc main_arg1) :=
  (W1_arr m c 2).trans (((dat0 (V0 m) c).arrAt_in 2 rfl _).trans (A_eq0 (V0 m) c 2))
theorem W2_main_arg1 (c : Dev nD) : W2 m c (Proc.devRef .tc main_arg1) = m ((c : Thread nD τ).loc main_arg1) :=
  ((W2_arr m c 0).trans (((dat1 (V1 m) c).arrAt_in 0 rfl _).trans (A_eq1 (V1 m) c 0))).trans (W1_main_arg1 m c)
theorem W3_main_arg1 (c : Dev nD) : W3 m c (Proc.devRef .tc main_arg1) = m ((c : Thread nD τ).loc main_arg1) :=
  ((W3_arr m c 0).trans (((dat2 (V2 m) c).arrAt_in 0 rfl _).trans (A_eq2 (V2 m) c 0))).trans (W2_main_arg1 m c)

/-! ## The proof data family and the thread state -/

/-- No call has a prefetched table. -/
abbrev adm : (p : Fin 3) → (pcfgs (F := F) p).Adm := fun p => (cfgs p).toPCfg_adm
/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The calls as segments -/

/-- The class invariant from the generator register and the scoped rest (whatever rides between them is dropped), -/
theorem phiA_in {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
/-- and back. -/
theorem phiA_out {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

-- a library lemma stated over `pin pcs a p` unifies with the pinned configuration only when unification may unfold
-- plain definitions in a metavariable's type
set_option backward.isDefEq.respectTransparency.types false in
/-- Call 0 as a segment: entered with every unscoped buffer at `W0`, left with them at `W1`. Its arrays
    are split out of the unscoped buffers and put back at what the write-backs leave; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in spec0 c _).trans (hin0 (V0 m) c)
  hout c := by
    rw [Pipeline.ownSems0_none]
    exact (hout0 (V0 m) c).trans (phiA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Call 1 as a segment: entered with every unscoped buffer at `W1`, left with them at `W2`. Its arrays
    are split out of the unscoped buffers and put back at what the write-backs leave; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in spec1 c _).trans (hin1 (V1 m) c)
  hout c := by
    rw [Pipeline.ownSems0_none]
    exact (hout1 (V1 m) c).trans (phiA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Call 2 as a segment: entered with every unscoped buffer at `W2`, left with them at `W3`. Its arrays
    are split out of the unscoped buffers and put back at what the write-backs leave; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := show _ ⊢ (Pipeline.ΦA spec2 c : sProp 𝕄) from phiA_in spec2 c _
  hout c := by
    rw [Pipeline.ownSems0_none]
    exact show (Pipeline.ΦA spec2 c : sProp 𝕄) ⊢ _ from phiA_out spec2 c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .region (reg0 m), .region (reg1 m), .region (reg2 m) ]

theorem main_run (c : Dev nD) : main (F := F) c = Pipeline.Seg.run (segs m) := (main_chain c).trans (by chain_rfl)

set_option backward.isDefEq.respectTransparency.types false in
/-- THE RUN. From any memory with zero counters every weakly fair execution of the program ends, nothing faulting;
    the result array then holds what the third call's write-backs leave (`W3` at it) and each argument array what
    it held at launch. -/
theorem run_val : θ_run defs (onTc (τ := τ) (main (F := F))) ⟨m, fun _ => 0, ρ⟩ (fun r => ∀ c : Dev nD,
      r.2.mem ((c.tc : Thread nD τ).loc main_v2) = W3 m c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v2 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

end Cert.Kernel.Fr

end
-- ==== Proof.Data.lean ====
/-
  The three pipelined calls of the program, each described at a PARAMETER `V` (what the TensorCore's unscoped
  buffers hold when the call is entered), for any float instance `F`.

  Call 0 runs over the grid (b, s), b < 4, s < 8 (point t = 8·b + s). It keeps two accumulators in scratch memory:
  a 1024×1024 one, set to zero at s = 0 and increased at every point by the product (k-block)ᵀ · (v-block) of the
  point's 512-row blocks, and a 1×1024 one, set to zero at s = 0 and increased by the column sums of exp of the
  point's q-block. At s = 7 it writes the first, scaled, to block b of its first result and one plus the second to
  block b of its second result. Call 1 has one 1×1024 accumulator of the same kind (column sums of
  exp (exp q / denominator)) and writes it out at s = 7. Call 2 has no state: each point's output block is a function
  of its four input blocks.

  Here: each window's block at a point (`iblkK`), the accumulators after each point as a recursion on the point
  (`acc0`, `acc1`), the invariant that carries them from point to point (`Phi0`, `Phi1`), and the pipeline's proof
  data (`dat0`, `dat1`, `dat2`), with the projections of these definitions that the later modules rewrite with.
-/
import proofs.«169869_j23854248362895_1_alg».proof.Proof.Gen.KernelIdeal.Launch
import proofs.«169869_j23854248362895_1_alg».proof.Proof.Gen.KernelIdeal.Skeleton
import proofs.«169869_j23854248362895_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch accumulators as whole memrefs. -/
abbrev scr0_0 : Memref sig .tc .vmem S1024x1024 .f32 := Memref.whole cc0_scratch0
abbrev scr0_1 : Memref sig .tc .vmem S1x1024 .f32 := Memref.whole cc0_scratch1

/-- Both accumulators at zero. -/
def zero0 : Vec F S1024x1024 .f32 × Vec F S1x1024 .f32 := (k0_pay1, k0_pay2)

/-- One point's update of the two accumulators from what they held: the matrix one increased by the product of the
    point's k- and v-blocks, the row one by the column sums of exp of its q-block. -/
def step0 (c : Dev nD) (t : Fin cfg0.N) (p : Vec F S1024x1024 .f32 × Vec F S1x1024 .f32) :
    Vec F S1024x1024 .f32 × Vec F S1x1024 .f32 :=
  (k0_pay3 (iblk0 V c 0 t) (iblk0 V c 1 t) p.1, k0_pay4 (iblk0 V c 2 t) p.2)

/-- The accumulators after the body at position `n`: updated from zero where a new batch row starts (n ≡ 0 mod 8),
    from what the point before left elsewhere. -/
def acc0 (c : Dev nD) : (n : ℕ) → n < cfg0.N → Vec F S1024x1024 .f32 × Vec F S1x1024 .f32
  | 0, hn => step0 V c ⟨0, hn⟩ zero0
  | n + 1, hn => step0 V c ⟨n + 1, hn⟩ (if (n + 1) % 8 = 0 then zero0 else acc0 c n (Nat.lt_of_succ_lt hn))

theorem acc0_first (c : Dev nD) (t : Fin cfg0.N) (h : t.val % 8 = 0) :
    acc0 V c t.val t.isLt = step0 V c t zero0 := by
  obtain ⟨n, hn⟩ := t
  cases n with
  | zero => rfl
  | succ n => exact congrArg (step0 V c ⟨n + 1, hn⟩) (if_pos h)

theorem acc0_later (c : Dev nD) (t : Fin cfg0.N) (h : ¬ t.val % 8 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => exact congrArg (step0 V c ⟨n + 1, hn⟩) (if_neg h)

/-- The invariant before position `n`: before the first point the scoped buffers no window stages, at anything,
    and the generator register; afterwards the two accumulators at what the point before left, the other such
    buffers at anything, and the register. -/
def Phi0 (c : Dev nD) : (n : ℕ) → n ≤ cfg0.N → sProp 𝕄
  | 0, _ => Pipeline.ΦA spec0 c
  | n + 1, hn => iprop(owns (c : Thread nD τ) scr0_0 fullShare (acc0 V c n hn).1
      ∗ owns (c : Thread nD τ) scr0_1 fullShare (acc0 V c n hn).2
      ∗ Pipeline.scopedRestBut (Ix := Unit) (Name := ℕ) (U := UR sig nD τ) (Lvl := ℕ) (Val := Elt F) spec0 c [cc0_scratch0, cc0_scratch1]
      ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scr0_0 fullShare (acc0 V c n hn).1
      ∗ owns (c : Thread nD τ) scr0_1 fullShare (acc0 V c n hn).2
      ∗ Pipeline.scopedRestBut (Ix := Unit) (Name := ℕ) (U := UR sig nD τ) (Lvl := ℕ) (Val := Elt F) spec0 c [cc0_scratch0, cc0_scratch1]
      ∗ (∃ r, prngReg c r)) := rfl

theorem Phi0_pos (c : Dev nD) (n : ℕ) (h : n ≤ cfg0.N) (hz : n ≠ 0) :
    Phi0 V c n h = iprop(owns (c : Thread nD τ) scr0_0 fullShare (acc0 V c (n - 1) (by omega)).1
      ∗ owns (c : Thread nD τ) scr0_1 fullShare (acc0 V c (n - 1) (by omega)).2
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero => exact absurd rfl hz
  | succ n => rfl

/-- The proof data of call 0: the arrays as the call finds them; after the body each input's buffer at its block,
    the first result's at the scaled matrix accumulator, the second's at one plus the row accumulator (read only at
    the points that write them back, s = 7); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay5 (acc0 V c t.val t.isLt).1
    | ⟨4, _⟩ => k0_pay6 (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay5 (acc0 V c t.val t.isLt).1 := by dsimp only [dat0]
theorem after0_4 (c : Dev nD) (t : Fin cfg0.N) : (dat0 V c).after 4 t = k0_pay6 (acc0 V c t.val t.isLt).2 := by dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem Phi0_at_succ (c : Dev nD) (t : Fin cfg0.N) :
    (dat0 V c).Φ t.succ = Phi0 V c (t.val + 1) t.isLt := rfl

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! # Call 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scr1_0 : Memref sig .tc .vmem S1x1024 .f32 := Memref.whole cc1_scratch0

/-- One point's update of the accumulator: increased by the column sums of exp (exp q / denominator) over the
    point's q-block. -/
def step1 (c : Dev nD) (t : Fin cfg1.N) (p : Vec F S1x1024 .f32) : Vec F S1x1024 .f32 :=
  k1_pay2 (iblk1 V c 0 t) (iblk1 V c 1 t) p

def acc1 (c : Dev nD) : (n : ℕ) → n < cfg1.N → Vec F S1x1024 .f32
  | 0, hn => step1 V c ⟨0, hn⟩ k1_pay1
  | n + 1, hn => step1 V c ⟨n + 1, hn⟩ (if (n + 1) % 8 = 0 then k1_pay1 else acc1 c n (Nat.lt_of_succ_lt hn))

theorem acc1_first (c : Dev nD) (t : Fin cfg1.N) (h : t.val % 8 = 0) :
    acc1 V c t.val t.isLt = step1 V c t k1_pay1 := by
  obtain ⟨n, hn⟩ := t
  cases n with
  | zero => rfl
  | succ n => exact congrArg (step1 V c ⟨n + 1, hn⟩) (if_pos h)

theorem acc1_later (c : Dev nD) (t : Fin cfg1.N) (h : ¬ t.val % 8 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => exact congrArg (step1 V c ⟨n + 1, hn⟩) (if_neg h)

def Phi1 (c : Dev nD) : (n : ℕ) → n ≤ cfg1.N → sProp 𝕄
  | 0, _ => Pipeline.ΦA spec1 c
  | n + 1, hn => iprop(owns (c : Thread nD τ) scr1_0 fullShare (acc1 V c n hn)
      ∗ Pipeline.scopedRestBut (Ix := Unit) (Name := ℕ) (U := UR sig nD τ) (Lvl := ℕ) (Val := Elt F) spec1 c [cc1_scratch0]
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scr1_0 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

theorem Phi1_pos (c : Dev nD) (n : ℕ) (h : n ≤ cfg1.N) (hz : n ≠ 0) :
    Phi1 V c n h = iprop(owns (c : Thread nD τ) scr1_0 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem Phi1_at_succ (c : Dev nD) (t : Fin cfg1.N) :
    (dat1 V c).Φ t.succ = Phi1 V c (t.val + 1) t.isLt := rfl

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! # Call 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

end Cert.KernelIdeal.Fr

end
-- ==== Proof.Body0.lean ====
/-
  The body of call 0 at every grid point, for any float instance.

  The body has two conditionals on the step s within a row: the first (s = 0) zeroes the two scratch accumulators, the
  second (s = 7) stores the scaled matrix accumulator and one plus the row accumulator into the two results. Between
  them it always adds (k-block)ᵀ · (v-block) to the matrix accumulator and the column sums of exp of the q-block to
  the row accumulator. So a point is in one of three control cases: A (s = 0: zeroing, no result stored), B (0 < s < 7:
  neither), C (s = 7: results stored). Each case's run is stated directly over the payloads: from the inputs' buffers at
  their blocks and the accumulators at what they held (at anything in case A), the body leaves the accumulators at one
  update of them and, in case C, the results at their payloads of the updated accumulators; in cases A and B the
  results' buffers come back exactly as they were. Every load and store goes through the whole-shape rectangle at zero
  offsets, through which a load reads the contents and a store leaves its payload.

  The body obligation then follows by cases on the point's position in its row, the invariant carrying the accumulators
  from point to point in the closed recursive form of their contents.
-/
import proofs.«169869_j23854248362895_1_alg».proof.Proof.Data
import Idealize.ShloMosaic.Lib.Pipeline.Value
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 and of a rank-3 whole-shape rectangle, however spelt. -/
theorem a_hz2 : (![0, 0] : Fin 2 → Nat) = fun _ => 0 := funext fun a => by fin_cases a <;> rfl
theorem a_hz3 : (![0, 0, 0] : Fin 3 → Nat) = fun _ => 0 := funext fun a => by fin_cases a <;> rfl

/-- The condition of the body's first conditional (the row's first step, s = 0), from the grid coordinates. -/
abbrev a_cond1 (i : grid0.Coords) : Prop := (Scalar.cmpi .ne (Scalar.extui (Scalar.cmpi .eq (BitVec.ofNat 32 (i 1).val) 0#32)) 0#32) = 1#1
/-- The condition of its second conditional (the row's last step, s = 7). -/
abbrev a_cond2 (i : grid0.Coords) : Prop := k0_cond2 i = 1#1

/-! ## The three control cases' runs -/

set_option maxHeartbeats 1000000 in
/-- CASE A (a row's first step). From the inputs' buffers at `x0 x1 x2`, the results' at `d3 d4`, the accumulators at
    anything: the body zeroes the accumulators, updates them once, stores no result. -/
theorem a_runA (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S1x1024 .f32) (harg8 : arg8.IsWhole)
    (hc0 : a_cond1 i) (hc1 : ¬a_cond2 i)
    (x0 x1 x2 : Vec F S1x512x1024 .f32) (d3 : Vec F S1x1024x1024 .f32) (d4 : Vec F S1x1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare d4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare d4
            ∗ owns (c : Thread nD τ) arg7 fullShare (k0_pay3 x0 x1 k0_pay1) ∗ owns (c : Thread nD τ) arg8 fullShare (k0_pay4 x2 k0_pay2)) -∗ K ⟨⟩))
      ⊢ wp frame (wpE (defs₀ (F := F)) Variants.none c none) E (cc0__scores_denom_kernel i arg2 harg2 arg3 harg3 arg4 harg4 arg5 harg5 arg6 harg6 arg7 harg7 arg8 harg8) K := by
  simp only [cc0__scores_denom_kernel_eq_skeleton]; unfold cc0__scores_denom_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    rw [View.read_writes_eq_canon _ _ _ (fun y => ⟨_, List.mem_cons.mpr (Or.inl rfl), View.mem_set_unit_zero a_hz2 inb_S1024x1024_S1024x1024_0_0 y⟩)]
    sl_unfold_words
    rw [View.canon_cons_unit_zero (S := S1024x1024) a_hz2, View.readCov_unit_zero (S := S1024x1024) _ a_hz2]
    simp only [View.readAt_eq_ld, harg2.read_unread, harg3.read_unread, View.ld_unit_zero (S := S1x512x1024) a_hz3]
  · iexists _; isplitr
    swap; · iexact HS1
    ipureintro
    rw [View.read_writes_eq_canon _ _ _ (fun y => ⟨_, List.mem_cons.mpr (Or.inl rfl), View.mem_set_unit_zero a_hz2 inb_S1x1024_S1x1024_0_0 y⟩)]
    sl_unfold_words
    rw [View.canon_cons_unit_zero (S := S1x1024) a_hz2, View.readCov_unit_zero (S := S1x1024) _ a_hz2]
    simp only [View.readAt_eq_ld, harg4.read_unread, View.ld_unit_zero (S := S1x512x1024) a_hz3]

set_option maxHeartbeats 1000000 in
/-- CASE B (a row's inner steps). From the inputs' buffers at `x0 x1 x2`, the results' at `d3 d4`, the accumulators at
    `p0 p1`: the body updates the accumulators once and stores no result. -/
theorem a_runB (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S1x1024 .f32) (harg8 : arg8.IsWhole)
    (hc0 : ¬a_cond1 i) (hc1 : ¬a_cond2 i)
    (x0 x1 x2 : Vec F S1x512x1024 .f32) (d3 : Vec F S1x1024x1024 .f32) (d4 : Vec F S1x1x1024 .f32) (p0 : Vec F S1024x1024 .f32) (p1 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ owns (c : Thread nD τ) arg6 fullShare d4
        ∗ owns (c : Thread nD τ) arg7 fullShare p0 ∗ owns (c : Thread nD τ) arg8 fullShare p1
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare d4
            ∗ owns (c : Thread nD τ) arg7 fullShare (k0_pay3 x0 x1 p0) ∗ owns (c : Thread nD τ) arg8 fullShare (k0_pay4 x2 p1)) -∗ K ⟨⟩))
      ⊢ wp frame (wpE (defs₀ (F := F)) Variants.none c none) E (cc0__scores_denom_kernel i arg2 harg2 arg3 harg3 arg4 harg4 arg5 harg5 arg6 harg6 arg7 harg7 arg8 harg8) K := by
  simp only [cc0__scores_denom_kernel_eq_skeleton]; unfold cc0__scores_denom_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg7.eq_unread hfs0; obtain rfl := harg8.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [H4]
  · iexists _; isplitr; · ipureintro; exact hf4
    iexact H4
  isplitl [HS0]
  · iexists _; isplitr
    swap; · iexact HS0
    ipureintro
    rw [View.read_writes_eq_canon _ _ _ (fun y => ⟨_, List.mem_singleton_self _, View.mem_set_unit_zero a_hz2 inb_S1024x1024_S1024x1024_0_0 y⟩)]
    rw [View.canon_unit_zero a_hz2]
    simp only [View.readAt_eq_ld, harg2.read_unread, harg3.read_unread, harg7.read_unread,
      View.ld_unit_zero (S := S1x512x1024) a_hz3, View.ld_unit_zero (S := S1024x1024) a_hz2]
  · iexists _; isplitr
    swap; · iexact HS1
    ipureintro
    rw [View.read_writes_eq_canon _ _ _ (fun y => ⟨_, List.mem_singleton_self _, View.mem_set_unit_zero a_hz2 inb_S1x1024_S1x1024_0_0 y⟩)]
    rw [View.canon_unit_zero a_hz2]
    simp only [View.readAt_eq_ld, harg4.read_unread, harg8.read_unread,
      View.ld_unit_zero (S := S1x512x1024) a_hz3, View.ld_unit_zero (S := S1x1024) a_hz2]

set_option maxHeartbeats 1000000 in
/-- CASE C (a row's last step). From the inputs' buffers at `x0 x1 x2`, the results' at anything, the accumulators at
    `p0 p1`: the body updates the accumulators once, then stores the scaled matrix accumulator and one plus the row
    accumulator into the results. -/
theorem a_runC (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S1x1024 .f32) (harg8 : arg8.IsWhole)
    (hc0 : ¬a_cond1 i) (hc1 : a_cond2 i)
    (x0 x1 x2 : Vec F S1x512x1024 .f32) (p0 : Vec F S1024x1024 .f32) (p1 : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare p0 ∗ owns (c : Thread nD τ) arg8 fullShare p1
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 (k0_pay3 x0 x1 p0)) ∗ owns (c : Thread nD τ) arg6 fullShare (k0_pay6 (k0_pay4 x2 p1))
            ∗ owns (c : Thread nD τ) arg7 fullShare (k0_pay3 x0 x1 p0) ∗ owns (c : Thread nD τ) arg8 fullShare (k0_pay4 x2 p1)) -∗ K ⟨⟩))
      ⊢ wp frame (wpE (defs₀ (F := F)) Variants.none c none) E (cc0__scores_denom_kernel i arg2 harg2 arg3 harg3 arg4 harg4 arg5 harg5 arg6 harg6 arg7 harg7 arg8 harg8) K := by
  simp only [cc0__scores_denom_kernel_eq_skeleton]; unfold cc0__scores_denom_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg7.eq_unread hfs0; obtain rfl := harg8.eq_unread hfs1
  sl_exec (disch := first | exact hc0 | exact hc1)

  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_singleton_self _, View.mem_set_unit_zero a_hz3 inb_S1x1024x1024_S1x1024x1024_0_0_0 y⟩)]
    rw [View.canon_unit_zero a_hz3, View.readCov_unit_zero (S := S1024x1024) _ a_hz2]
    simp only [View.readAt_eq_ld, harg2.read_unread, harg3.read_unread, harg7.read_unread,
      View.ld_unit_zero (S := S1x512x1024) a_hz3, View.ld_unit_zero (S := S1024x1024) a_hz2]
  isplitl [H4]
  · iexists _; isplitr
    swap; · iexact H4
    ipureintro
    sl_unfold_words
    rw [View.read_writes_eq_canon _ _ _ (fun y => ⟨_, List.mem_singleton_self _, View.mem_set_unit_zero a_hz3 inb_S1x1x1024_S1x1x1024_0_0_0 y⟩)]
    rw [View.canon_unit_zero a_hz3, View.readCov_unit_zero (S := S1x1024) _ a_hz2]
    simp only [View.readAt_eq_ld, harg4.read_unread, harg8.read_unread,
      View.ld_unit_zero (S := S1x512x1024) a_hz3, View.ld_unit_zero (S := S1x1024) a_hz2]
  isplitl [HS0]
  · iexists _; isplitr
    swap; · iexact HS0
    ipureintro
    sl_unfold_words
    rw [View.read_writes_eq_canon _ _ _ (fun y => ⟨_, List.mem_singleton_self _, View.mem_set_unit_zero a_hz2 inb_S1024x1024_S1024x1024_0_0 y⟩)]
    rw [View.canon_unit_zero a_hz2]
    simp only [View.readAt_eq_ld, harg2.read_unread, harg3.read_unread, harg7.read_unread,
      View.ld_unit_zero (S := S1x512x1024) a_hz3, View.ld_unit_zero (S := S1024x1024) a_hz2]
  · iexists _; isplitr
    swap; · iexact HS1
    ipureintro
    sl_unfold_words
    rw [View.read_writes_eq_canon _ _ _ (fun y => ⟨_, List.mem_singleton_self _, View.mem_set_unit_zero a_hz2 inb_S1x1024_S1x1024_0_0 y⟩)]
    rw [View.canon_unit_zero a_hz2]
    simp only [View.readAt_eq_ld, harg4.read_unread, harg8.read_unread,
      View.ld_unit_zero (S := S1x512x1024) a_hz3, View.ld_unit_zero (S := S1x1024) a_hz2]

variable (V : (c : Dev nD) → (b : Ref sig .tc) → Buf (Elt F) ((c : Thread nD τ).loc b))

/-! ## Which case a point is in, and where the result windows are idle -/

/-- The first conditional is taken at the points ≡ 0 (mod 8): decided over the grid. -/
theorem a_hcond1 : ∀ t : Fin cfg0.N, a_cond1 (grid0.coords t) ↔ t.val % 8 = 0 :=
  (by decide +kernel : ∀ t : Fin grid0.N, a_cond1 (grid0.coords t) ↔ t.val % 8 = 0)
/-- The second at the points ≡ 7 (mod 8). -/
theorem a_hcond2 : ∀ t : Fin cfg0.N, a_cond2 (grid0.coords t) ↔ t.val % 8 = 7 :=
  (by decide +kernel : ∀ t : Fin grid0.N, a_cond2 (grid0.coords t) ↔ t.val % 8 = 7)

/-- The three inputs are never idle. -/
theorem a_live0 : ∀ t : Fin cfg0.N, cfg0.idle 0 (grid0.coords t) = false := fun _ => rfl
theorem a_live1 : ∀ t : Fin cfg0.N, cfg0.idle 1 (grid0.coords t) = false := fun _ => rfl
theorem a_live2 : ∀ t : Fin cfg0.N, cfg0.idle 2 (grid0.coords t) = false := fun _ => rfl
/-- The two results are idle away from a row's last step, live at it. -/
theorem a_idle3 : ∀ t : Fin cfg0.N, ¬ t.val % 8 = 7 → cfg0.idle 3 (grid0.coords t) = true :=
  (by decide +kernel : ∀ t : Fin grid0.N, ¬ t.val % 8 = 7 → cfg0.idle 3 (grid0.coords t) = true)
theorem a_idle4 : ∀ t : Fin cfg0.N, ¬ t.val % 8 = 7 → cfg0.idle 4 (grid0.coords t) = true :=
  (by decide +kernel : ∀ t : Fin grid0.N, ¬ t.val % 8 = 7 → cfg0.idle 4 (grid0.coords t) = true)
theorem a_live3 : ∀ t : Fin cfg0.N, t.val % 8 = 7 → cfg0.idle 3 (grid0.coords t) = false :=
  (by decide +kernel : ∀ t : Fin grid0.N, t.val % 8 = 7 → cfg0.idle 3 (grid0.coords t) = false)
theorem a_live4 : ∀ t : Fin cfg0.N, t.val % 8 = 7 → cfg0.idle 4 (grid0.coords t) = false :=
  (by decide +kernel : ∀ t : Fin grid0.N, t.val % 8 = 7 → cfg0.idle 4 (grid0.coords t) = false)
/-- Away from a row's last step neither result's block is written back. -/
theorem a_noflush3 (t : Fin cfg0.N) (h : ¬ t.val % 8 = 7) : (cfg0.win 3).flush t = false :=
  Bool.eq_false_iff.mpr fun hf => h ((flush0_3 t).mp hf)
theorem a_noflush4 (t : Fin cfg0.N) (h : ¬ t.val % 8 = 7) : (cfg0.win 4).flush t = false :=
  Bool.eq_false_iff.mpr fun hf => h ((flush0_4 t).mp hf)

/-- Each window's current staging memref at point `t`, as the pipeline passes it to the body, and its wholeness. -/
abbrev a_ms0 (t : Fin cfg0.N) : Memref sig .tc .vmem S1x512x1024 .f32 := win0_0.stage (cfg0.slots t 0)
abbrev a_hs0 (t : Fin cfg0.N) : (a_ms0 t).IsWhole := hstage0_0 ((cfg0.slots t 0).cast nbuf0_0)
abbrev a_ms1 (t : Fin cfg0.N) : Memref sig .tc .vmem S1x512x1024 .f32 := win0_1.stage (cfg0.slots t 1)
abbrev a_hs1 (t : Fin cfg0.N) : (a_ms1 t).IsWhole := hstage0_1 ((cfg0.slots t 1).cast nbuf0_1)
abbrev a_ms2 (t : Fin cfg0.N) : Memref sig .tc .vmem S1x512x1024 .f32 := win0_2.stage (cfg0.slots t 2)
abbrev a_hs2 (t : Fin cfg0.N) : (a_ms2 t).IsWhole := hstage0_2 ((cfg0.slots t 2).cast nbuf0_2)
abbrev a_ms3 (t : Fin cfg0.N) : Memref sig .tc .vmem S1x1024x1024 .f32 := win0_3.stage (cfg0.slots t 3)
abbrev a_hs3 (t : Fin cfg0.N) : (a_ms3 t).IsWhole := hstage0_3 ((cfg0.slots t 3).cast nbuf0_3)
abbrev a_ms4 (t : Fin cfg0.N) : Memref sig .tc .vmem S1x1x1024 .f32 := win0_4.stage (cfg0.slots t 4)
abbrev a_hs4 (t : Fin cfg0.N) : (a_ms4 t).IsWhole := hstage0_4 ((cfg0.slots t 4).cast nbuf0_4)

/-- What the launch hands the call, with the two accumulators split off as memrefs owned at some contents and the
    other scoped buffers left unopened. -/
theorem a_PhiA_eq (c : Dev nD) :
    (Pipeline.ΦA spec0 c : sProp 𝕄)
      = iprop((((∃ d, owns (c : Thread nD τ) scr0_0 fullShare d) ∗ (∃ d, owns (c : Thread nD τ) scr0_1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA
  rw [Pipeline.scopedRest_split_of_list spec0 c [cc0_scratch0, cc0_scratch1] (by decide) (by decide)]
  simp only [scr0_0, scr0_1, owns_whole]; rfl

/-! ## The body obligation, at a generic point -/

/-- What the body is called with at point `t`: the invariant, what the core owes, and every window's current staging
    buffer at what it holds. -/
def a_bodyPre (c : Dev nD) (t : Fin cfg0.N) : sProp 𝕄 :=
  iprop((dat0 V c).Φ t.castSucc ∗ (dat0 V c).owesAt () t.castSucc
    ∗ (∃ d, owns (c : Thread nD τ) (a_ms0 t) fullShare ((dat0 V c).before 0 t d))
    ∗ (∃ d, owns (c : Thread nD τ) (a_ms1 t) fullShare ((dat0 V c).before 1 t d))
    ∗ (∃ d, owns (c : Thread nD τ) (a_ms2 t) fullShare ((dat0 V c).before 2 t d))
    ∗ (∃ d, owns (c : Thread nD τ) (a_ms3 t) fullShare ((dat0 V c).before 3 t d))
    ∗ (∃ d, owns (c : Thread nD τ) (a_ms4 t) fullShare ((dat0 V c).before 4 t d)))

/-- And what it returns. -/
def a_bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point. The inputs' buffers hold their blocks; the point's position in its row says which of the
    three control cases it is in; the invariant hands the body the two accumulators at what the point before left (at
    anything where a row starts, which zeroes them) and takes them back at this point's update of them; away from a
    row's last step the two results' buffers come back untouched, at it they hold the scaled matrix accumulator and one
    plus the row accumulator. -/
theorem a_sound_body (c : Dev nD) (t : Fin cfg0.N) :
    a_bodyPre V c t ⊢ wp frame (wpE (defs₀ (F := F)) Variants.none c none) Set.univ (bodyAt0 t) (fun _ => a_bodyPost V c t) := by
  unfold a_bodyPre a_bodyPost bodyAt0
  simp only [before0_0, before0_1, before0_2]
  rw [show (dat0 V c).owesAt () t.succ = (dat0 V c).owesAt () t.castSucc from rfl]
  rw [Phi0_at_succ, Phi0_succ]
  have hN : t.val < 32 := lt_of_lt_of_eq t.isLt (show cfg0.N = 32 from N_0)
  rw [show (dat0 V c).leavesExact 0 t = owns (c : Thread nD τ) (a_ms0 t) fullShare ((dat0 V c).after 0 t) from by
    unfold Dat.leavesExact; rw [a_live0 t], after0_0]
  rw [show (dat0 V c).leavesExact 1 t = owns (c : Thread nD τ) (a_ms1 t) fullShare ((dat0 V c).after 1 t) from by
    unfold Dat.leavesExact; rw [a_live1 t], after0_1]
  rw [show (dat0 V c).leavesExact 2 t = owns (c : Thread nD τ) (a_ms2 t) fullShare ((dat0 V c).after 2 t) from by
    unfold Dat.leavesExact; rw [a_live2 t], after0_2]
  by_cases h0 : t.val % 8 = 0
  · have h7 : ¬ t.val % 8 = 7 := by omega
    rw [Dat.leavesExact_idle (dat0 V c) 3 t (a_idle3 t h7) (a_noflush3 t h7),
      Dat.leavesExact_idle (dat0 V c) 4 t (a_idle4 t h7) (a_noflush4 t h7)]
    rw [acc0_first V c t h0]
    unfold step0 zero0
    dsimp only
    by_cases hz : t.val = 0
    · rw [Phi0_castSucc V c t, Phi0_zero V c _ _ hz, a_PhiA_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (a_runA c (grid0.coords t) (a_ms0 t) (a_hs0 t) (a_ms1 t) (a_hs1 t) (a_ms2 t) (a_hs2 t) (a_ms3 t) (a_hs3 t) (a_ms4 t) (a_hs4 t) scr0_0 (Memref.isWhole_whole _) scr0_1 (Memref.isWhole_whole _) ((a_hcond1 t).mpr h0) (fun h => h7 ((a_hcond2 t).mp h)) (iblk0 V c 0 t) (iblk0 V c 1 t) (iblk0 V c 2 t) ((dat0 V c).before 3 t d3) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexists d3; iexact H3
      iexists d4; iexact H4
    · rw [Phi0_castSucc V c t, Phi0_pos V c _ _ hz]
      iintro ⟨⟨HS0, HS1, Hrest, Hg⟩, Ho, ⟨%d0, H0⟩, ⟨%d1, H1⟩, ⟨%d2, H2⟩, ⟨%d3, H3⟩, ⟨%d4, H4⟩⟩
      iapply (a_runA c (grid0.coords t) (a_ms0 t) (a_hs0 t) (a_ms1 t) (a_hs1 t) (a_ms2 t) (a_hs2 t) (a_ms3 t) (a_hs3 t) (a_ms4 t) (a_hs4 t) scr0_0 (Memref.isWhole_whole _) scr0_1 (Memref.isWhole_whole _) ((a_hcond1 t).mpr h0) (fun h => h7 ((a_hcond2 t).mp h)) (iblk0 V c 0 t) (iblk0 V c 1 t) (iblk0 V c 2 t) ((dat0 V c).before 3 t d3) ((dat0 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexists d3; iexact H3
      iexists d4; iexact H4
  · have hz : t.val ≠ 0 := fun h => h0 (by rw [h])
    rw [acc0_later V c t h0]
    unfold step0
    dsimp only
    rw [Phi0_castSucc V c t, Phi0_pos V c _ _ hz]
    by_cases h7 : t.val % 8 = 7
    · rw [show (dat0 V c).leavesExact 3 t = owns (c : Thread nD τ) (a_ms3 t) fullShare ((dat0 V c).after 3 t) from by
        unfold Dat.leavesExact; rw [a_live3 t h7], after0_3]
      rw [show (dat0 V c).leavesExact 4 t = owns (c : Thread nD τ) (a_ms4 t) fullShare ((dat0 V c).after 4 t) from by
        unfold Dat.leavesExact; rw [a_live4 t h7], after0_4]
      rw [acc0_later V c t h0]
      unfold step0
      dsimp only
      iintro ⟨⟨HS0, HS1, Hrest, Hg⟩, Ho, ⟨%d0, H0⟩, ⟨%d1, H1⟩, ⟨%d2, H2⟩, ⟨%d3, H3⟩, ⟨%d4, H4⟩⟩
      iapply (a_runC c (grid0.coords t) (a_ms0 t) (a_hs0 t) (a_ms1 t) (a_hs1 t) (a_ms2 t) (a_hs2 t) (a_ms3 t) (a_hs3 t) (a_ms4 t) (a_hs4 t) scr0_0 (Memref.isWhole_whole _) scr0_1 (Memref.isWhole_whole _) (fun h => h0 ((a_hcond1 t).mp h)) ((a_hcond2 t).mpr h7) (iblk0 V c 0 t) (iblk0 V c 1 t) (iblk0 V c 2 t) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 3 t (a_idle3 t h7) (a_noflush3 t h7),
        Dat.leavesExact_idle (dat0 V c) 4 t (a_idle4 t h7) (a_noflush4 t h7)]
      iintro ⟨⟨HS0, HS1, Hrest, Hg⟩, Ho, ⟨%d0, H0⟩, ⟨%d1, H1⟩, ⟨%d2, H2⟩, ⟨%d3, H3⟩, ⟨%d4, H4⟩⟩
      iapply (a_runB c (grid0.coords t) (a_ms0 t) (a_hs0 t) (a_ms1 t) (a_hs1 t) (a_ms2 t) (a_hs2 t) (a_ms3 t) (a_hs3 t) (a_ms4 t) (a_hs4 t) scr0_0 (Memref.isWhole_whole _) scr0_1 (Memref.isWhole_whole _) (fun h => h0 ((a_hcond1 t).mp h)) (fun h => h7 ((a_hcond2 t).mp h)) (iblk0 V c 0 t) (iblk0 V c 1 t) (iblk0 V c 2 t) ((dat0 V c).before 3 t d3) ((dat0 V c).before 4 t d4) (acc0 V c (t.val - 1) (Nat.lt_of_le_of_lt (Nat.sub_le _ _) t.isLt)).1 (acc0 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexists d3; iexact H3
      iexists d4; iexact H4

/-- The library's body obligation, at every point. -/
theorem body_obligation0 (c : Dev nD) : BodyObligation (dat0 (F := F) V c) (defs₀ (F := F)) Variants.none () Set.univ := fun t => by
  rw [bigSep_W0, bigSep_W0]
  exact a_sound_body V c t

/-- What the launch hands the call is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives it back: the accumulators' named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), a_PhiA_eq]
  iintro ⟨HS0, HS1, Hrest, Hg⟩
  isplitr [Hg]
  · isplitr [Hrest]
    · isplitl [HS0]
      · iexists _; iexact HS0
      · iexists _; iexact HS1
    · iexact Hrest
  · iexact Hg

end Cert.KernelIdeal.Fr

end
-- ==== Proof.Body1.lean ====
/-
  The body of the second call at a grid point (b, s). It carries one 1×1024 accumulator in scratch memory: at s = 0
  the accumulator is set to zero; at every point it is increased by the column sums of exp (exp q / denominator) over
  the point's 512-row q-block; at s = 7 it is copied, reshaped, into the output's staging buffer. So there are three
  control cases: the first point of a batch row (zeroing branch taken), an inner point (neither branch), and the last
  point of a batch row (output branch taken). In each the body's run is stated over the values it stores, and the
  invariant hands the accumulator from point to point.

-/
import proofs.«169869_j23854248362895_1_alg».proof.Proof.Data
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, in closed form over the grid -/

/-- The condition of the zeroing branch, from the grid coordinates. -/
abbrev b_cond1_0 (i : grid1.Coords) : Prop :=
  (Scalar.cmpi .ne (Scalar.extui (Scalar.cmpi .eq (BitVec.ofNat 32 (i 1).val) 0#32)) 0#32) = 1#1
/-- It holds at the points ≡ 0 (mod 8): the first point of each batch row. -/
theorem b_hcond1_0 : ∀ t : Fin cfg1.N, b_cond1_0 (grid1.coords t) ↔ t.val % 8 = 0 :=
  (by decide +kernel : ∀ t : Fin grid1.N, b_cond1_0 (grid1.coords t) ↔ t.val % 8 = 0)

/-- The condition of the output branch. -/
abbrev b_cond1_1 (i : grid1.Coords) : Prop := k1_cond2 i = 1#1
/-- It holds at the points ≡ 7 (mod 8): the last point of each batch row. -/
theorem b_hcond1_1 : ∀ t : Fin cfg1.N, b_cond1_1 (grid1.coords t) ↔ t.val % 8 = 7 :=
  (by decide +kernel : ∀ t : Fin grid1.N, b_cond1_1 (grid1.coords t) ↔ t.val % 8 = 7)

/-- The two input windows are never idle. -/
theorem b_liveAt1_0 : ∀ t : Fin cfg1.N, cfg1.idle 0 (grid1.coords t) = false := by decide +kernel
theorem b_liveAt1_1 : ∀ t : Fin cfg1.N, cfg1.idle 1 (grid1.coords t) = false := by decide +kernel
/-- Off the last point of a batch row the output window is idle and is not written back; -/
theorem b_idleAt1_2 : ∀ t : Fin cfg1.N, ¬b_cond1_1 (grid1.coords t) → cfg1.idle 2 (grid1.coords t) = true := by decide +kernel
theorem b_noFlush1_2 : ∀ t : Fin cfg1.N, ¬b_cond1_1 (grid1.coords t) → (cfg1.win 2).flush t = false := by decide +kernel
/-- at it the window is live. -/
theorem b_liveAt1_2 : ∀ t : Fin cfg1.N, b_cond1_1 (grid1.coords t) → cfg1.idle 2 (grid1.coords t) = false := by decide +kernel

/-! ## Whole-buffer loads and stores -/

/-- Offsets spelt as literal zeros are the zero offset. -/
theorem b_hz1_2 : (![0, 0] : Fin 2 → Nat) = fun _ => 0 := funext fun a => by fin_cases a <;> rfl
theorem b_hz1_3 : (![0, 0, 0] : Fin 3 → Nat) = fun _ => 0 := funext fun a => by fin_cases a <;> rfl

/-- A last store through the whole-buffer rectangle covers the buffer, whatever was stored before. -/
theorem b_cover_unit1 {S : Shape} {e : EltTy} {off : Fin S.rank → Nat} (h : off = fun _ => 0)
    (inb : ∀ a, off a + S.size a ≤ S.size a) (p : S.Idx → Elt F e) (L : List (View.Piece (Elt F) S e)) (y : S.Idx) :
    ∃ pc ∈ ((⟨Rect.unit off S.size inb, p⟩ : View.Piece (Elt F) S e) :: L), y ∈ pc.1.set :=
  ⟨_, List.mem_cons.mpr (Or.inl rfl), View.mem_set_unit_zero h inb y⟩

/-! ## The body's run in each control case

On whole staging memrefs: the q-block's at `x0`, the denominator row's at `x1`, the output row's and the accumulator's
as the case says. Every load and store is through the whole-buffer rectangle, so a load reads the contents (or, after a
store, the stored value) and a store leaves its value. -/

set_option maxHeartbeats 1000000 in
/-- First point of a batch row: the accumulator, found at anything, is zeroed and then increased, so it ends at the
    update of zero; the output's buffer is not touched. -/
theorem b_run1_A (c : Dev nD) (E : Set ℕ) (i : grid1.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1024 .f32) (harg5 : arg5.IsWhole) (hc0 : b_cond1_0 i) (hc1 : ¬b_cond1_1 i)
    (x0 : Vec F S1x512x1024 .f32) (x1 : Vec F S1x1x1024 .f32) (x2 : Vec F S1x1x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k1_pay2 x0 x1 k1_pay1)) -∗ K ⟨⟩))
      ⊢ wp frame (wpE (defs₀ (F := F)) Variants.none c none) E
          (cc1__z_kernel i arg2 harg2 arg3 harg3 arg4 harg4 arg5 harg5) K := by
  simp only [cc1__z_kernel_eq_skeleton]; unfold cc1__z_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (b_cover_unit1 b_hz1_2 _ _ _), View.canon_cons_unit_zero b_hz1_2,
    View.readCov_unit_zero _ b_hz1_2]
  simp only [View.readAt_eq_ld, View.ld_unit_zero (S := S1x512x1024) b_hz1_3, View.ld_unit_zero (S := S1x1x1024) b_hz1_3,
    View.ld_unit_zero (S := S1x1024) b_hz1_2]

set_option maxHeartbeats 1000000 in
/-- An inner point: the accumulator, found at `p`, ends at the update of `p`; the output's buffer is not touched. -/
theorem b_run1_B (c : Dev nD) (E : Set ℕ) (i : grid1.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1024 .f32) (harg5 : arg5.IsWhole) (hc0 : ¬b_cond1_0 i) (hc1 : ¬b_cond1_1 i)
    (x0 : Vec F S1x512x1024 .f32) (x1 : Vec F S1x1x1024 .f32) (x2 : Vec F S1x1x1024 .f32) (p : Vec F S1x1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare p
        ∗ (iprop(owns (c : Thread nD τ) arg2 fullShare x0 ∗ owns (c : Thread nD τ) arg3 fullShare x1
            ∗ owns (c : Thread nD τ) arg4 fullShare x2
            ∗ owns (c : Thread nD τ) arg5 fullShare (k1_pay2 x0 x1 p)) -∗ K ⟨⟩))
      ⊢ wp frame (wpE (defs₀ (F := F)) Variants.none c none) E
          (cc1__z_kernel i arg2 harg2 arg3 harg3 arg4 harg4 arg5 harg5) K := by
  simp only [cc1__z_kernel_eq_skeleton]; unfold cc1__z_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [View.read_writes_eq_canon _ _ _ (b_cover_unit1 b_hz1_2 _ _ _), View.canon_unit_zero b_hz1_2]
  simp only [View.readAt_eq_ld, View.ld_unit_zero (S := S1x512x1024) b_hz1_3, View.ld_unit_zero (S := S1x1x1024) b_hz1_3,
    View.ld_unit_zero (S := S1x1024) b_hz1_2]

set_option maxHeartbeats 1000000 in
/-- Last point of a batch row: the accumulator, found at `p`, ends at the update of `p`, and the output's buffer,
    found at anything, ends at that value reshaped. -/
theorem b_run1_C (c : Dev nD) (E : Set ℕ) (i : grid1.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1024 .f32) (harg5 : arg5.IsWhole) (hc0 : ¬b_cond1_0 i) (hc1 : b_cond1_1 i)
    (x0 : Vec F S1x512x1024 .f32) (x1 : Vec F S1x1x1024 .f32) (p : Vec F S1x1024 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare p
        ∗ (iprop(owns (c : Thread nD τ) arg2 fullShare x0 ∗ owns (c : Thread nD τ) arg3 fullShare x1
            ∗ owns (c : Thread nD τ) arg4 fullShare (k1_pay3 (k1_pay2 x0 x1 p))
            ∗ owns (c : Thread nD τ) arg5 fullShare (k1_pay2 x0 x1 p)) -∗ K ⟨⟩))
      ⊢ wp frame (wpE (defs₀ (F := F)) Variants.none c none) E
          (cc1__z_kernel i arg2 harg2 arg3 harg3 arg4 harg4 arg5 harg5) K := by
  simp only [cc1__z_kernel_eq_skeleton]; unfold cc1__z_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (b_cover_unit1 b_hz1_3 _ _ _), View.canon_unit_zero b_hz1_3,
      View.readCov_unit_zero _ b_hz1_2]
    simp only [View.readAt_eq_ld, View.ld_unit_zero (S := S1x512x1024) b_hz1_3, View.ld_unit_zero (S := S1x1x1024) b_hz1_3,
    View.ld_unit_zero (S := S1x1024) b_hz1_2]
  iexists _; isplitr
  swap; · iexact HS
  ipureintro
  sl_unfold_run_names
  rw [View.read_writes_eq_canon _ _ _ (b_cover_unit1 b_hz1_2 _ _ _), View.canon_unit_zero b_hz1_2]
  simp only [View.readAt_eq_ld, View.ld_unit_zero (S := S1x512x1024) b_hz1_3, View.ld_unit_zero (S := S1x1x1024) b_hz1_3,
    View.ld_unit_zero (S := S1x1024) b_hz1_2]

/-! ## The invariant, split at the accumulator -/

/-- Separating conjunction reassociated, as an equation. -/
theorem b_sep_assoc_eq (X Y Z : sProp 𝕄) : iprop((X ∗ Y) ∗ Z) = iprop(X ∗ Y ∗ Z) :=
  BI.Entails.antisymm
    (show iprop((X ∗ Y) ∗ Z) ⊢ iprop(X ∗ Y ∗ Z) from by
      iintro ⟨⟨HX, HY⟩, HZ⟩
      isplitl [HX]; · iexact HX
      isplitl [HY]; · iexact HY
      iexact HZ)
    (show iprop(X ∗ Y ∗ Z) ⊢ iprop((X ∗ Y) ∗ Z) from by
      iintro ⟨HX, HY, HZ⟩
      isplitl [HX HY]
      · isplitl [HX]; · iexact HX
        iexact HY
      iexact HZ)

/-- What the call is entered with — the scoped buffers no window stages, at anything, and the generator register —
    with the accumulator's buffer named: it at anything, the others at anything, the register. -/
theorem b_PhiA1_eq (c : Dev nD) :
    (Pipeline.ΦA spec1 c : sProp 𝕄)
      = iprop((∃ d, owns (c : Thread nD τ) scr1_0 fullShare d)
        ∗ Pipeline.scopedRestBut (Ix := Unit) (Name := ℕ) (U := UR sig nD τ) (Lvl := ℕ) (Val := Elt F) spec1 c [cc1_scratch0]
        ∗ (∃ r, prngReg c r)) := by
  unfold Pipeline.ΦA
  rw [Pipeline.scopedRest_split_of_list spec1 c [cc1_scratch0] (by decide) (by decide)]
  simp only [bigSepL_singleton, scr1_0, owns_whole]
  exact b_sep_assoc_eq _ _ _

/-! ## The body obligation, at a generic point -/

/-- What the body is called with at point `t`: the invariant, the core's debts, and each window's current staging
    buffer at what the pipeline put there. -/
def b_bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def b_bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's position in its batch row says which
    case it is in; the invariant hands the body the accumulator at what the point before left (at anything before the
    first point) and takes it back at this point's value, which is the recursion's step; off the last point of a batch
    row the output's buffer goes back as it came, and at it the buffer ends at the reshaped accumulator. -/
theorem b_sound_body1 (c : Dev nD) (t : Fin cfg1.N) :
    b_bodyPre1 V c t ⊢ wp frame (wpE (defs₀ (F := F)) Variants.none c none) Set.univ (bodyAt1 t) (fun _ => b_bodyPost1 V c t) := by
  unfold b_bodyPre1 b_bodyPost1 bodyAt1
  simp only [before1_0, before1_1]
  rw [show (dat1 V c).owesAt () t.succ = (dat1 V c).owesAt () t.castSucc from rfl]
  rw [Phi1_at_succ, Phi1_succ]
  rw [show (dat1 V c).leavesExact 0 t = owns (c : Thread nD τ) (st1_0 t) fullShare ((dat1 V c).after 0 t) from by
    unfold Dat.leavesExact; rw [b_liveAt1_0 t], after1_0]
  rw [show (dat1 V c).leavesExact 1 t = owns (c : Thread nD τ) (st1_1 t) fullShare ((dat1 V c).after 1 t) from by
    unfold Dat.leavesExact; rw [b_liveAt1_1 t], after1_1]
  have hN : t.val < 32 := lt_of_lt_of_eq t.isLt (show cfg1.N = 32 from N_1)
  by_cases h0 : t.val % 8 = 0
  · have hc0 : b_cond1_0 (grid1.coords t) := (b_hcond1_0 t).mpr h0
    have hc1 : ¬b_cond1_1 (grid1.coords t) := fun h => by have h7 := (b_hcond1_1 t).mp h; omega
    rw [Dat.leavesExact_idle (dat1 V c) 2 t (b_idleAt1_2 t hc1) (b_noFlush1_2 t hc1)]
    rw [acc1_first V c t h0]; unfold step1
    by_cases hz : t.val = 0
    · rw [Phi1_castSucc V c t, Phi1_zero V c _ _ hz, b_PhiA1_eq]
      iintro ⟨⟨HS, Hr, Hg⟩, Ho, ⟨%d0, H0⟩, ⟨%d1, H1⟩, ⟨%d2, H2⟩⟩
      iapply (b_run1_A c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · rw [Phi1_castSucc V c t, Phi1_pos V c _ _ hz]
      iintro ⟨⟨HS, Hr, Hg⟩, Ho, ⟨%d0, H0⟩, ⟨%d1, H1⟩, ⟨%d2, H2⟩⟩
      iapply (b_run1_A c Set.univ (grid1.coords t) _ _ _ _ _ _ _ _ hc0 hc1 (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
  · have hc0 : ¬b_cond1_0 (grid1.coords t) := fun h => h0 ((b_hcond1_0 t).mp h)
    have hz : t.val ≠ 0 := fun h => h0 (by rw [h])
    rw [acc1_later V c t h0]; unfold step1
    rw [Phi1_castSucc V c t, Phi1_pos V c _ _ hz]
    by_cases h1 : t.val % 8 = 7
    · have hc1 : b_cond1_1 (grid1.coords t) := (b_hcond1_1 t).mpr h1
      rw [show (dat1 V c).leavesExact 2 t = owns (c : Thread nD τ) (st1_2 t) fullShare ((dat1 V c).after 2 t) from by
        unfold Dat.leavesExact; rw [b_liveAt1_2 t hc1], after1_2]
      rw [acc1_later V c t h0]; unfold step1
      iintro ⟨⟨HS, Hr, Hg⟩, Ho, ⟨%d0, H0⟩, ⟨%d1, H1⟩, ⟨%d2, H2⟩⟩
      iapply (b_run1_C c Set.univ (grid1.coords t) _ _ _ _ _ _ _ _ hc0 hc1 (iblk1 V c 0 t) (iblk1 V c 1 t)
        (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · have hc1 : ¬b_cond1_1 (grid1.coords t) := fun h => h1 ((b_hcond1_1 t).mp h)
      rw [Dat.leavesExact_idle (dat1 V c) 2 t (b_idleAt1_2 t hc1) (b_noFlush1_2 t hc1)]
      iintro ⟨⟨HS, Hr, Hg⟩, Ho, ⟨%d0, H0⟩, ⟨%d1, H1⟩, ⟨%d2, H2⟩⟩
      iapply (b_run1_B c Set.univ (grid1.coords t) _ _ _ _ _ _ _ _ hc0 hc1 (iblk1 V c 0 t) (iblk1 V c 1 t) ((dat1 V c).before 2 t d2)
        (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The body obligation of the second call, at every point. -/
theorem body_obligation1 (c : Dev nD) : BodyObligation (dat1 (F := F) V c) (defs₀ (F := F)) Variants.none () Set.univ := fun t => by
  rw [bigSep_W1, bigSep_W1]
  exact b_sound_body1 V c t

/-- What the call is entered with is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives that back: the accumulator's value is forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have hN : cfg1.N = 32 := N_1; omega), b_PhiA1_eq]
  iintro ⟨HS, Hr, Hg⟩
  isplitl [HS]; · iexists _; iexact HS
  isplitl [Hr]; · iexact Hr
  iexact Hg

end Cert.KernelIdeal.Fr

end
-- ==== Proof.Body2.lean ====
/-
  The body of the third call at a grid point. It keeps no state: it loads the whole of its four input blocks (the
  point's q-block, the batch row's two 1×1024 denominator rows, and the batch row's 1024×1024 score matrix) and stores
  the whole of its output block once, so what the output's staging buffer holds afterwards is the stored value as a
  function of the four blocks, and the inputs' buffers, the other scoped buffers and the generator register are as
  the body found them.

-/
import proofs.«169869_j23854248362895_1_alg».proof.Proof.Data
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A rank-3 offset spelt as three literal zeros is the zero offset. -/
theorem b_hz3 : (![0, 0, 0] : Fin 3 → Nat) = fun _ => 0 := funext fun a => by fin_cases a <;> rfl

/-- One store through the whole-buffer rectangle covers the buffer. -/
theorem b_cover_unit2 {S : Shape} {e : EltTy} {off : Fin S.rank → Nat} (h : off = fun _ => 0)
    (inb : ∀ a, off a + S.size a ≤ S.size a) (p : S.Idx → Elt F e) (y : S.Idx) :
    ∃ pc ∈ ([⟨Rect.unit off S.size inb, p⟩] : List (View.Piece (Elt F) S e)), y ∈ pc.1.set :=
  ⟨_, List.mem_singleton_self _, View.mem_set_unit_zero h inb y⟩

set_option maxHeartbeats 1000000 in
/-- The body on whole staging memrefs, the four inputs' at contents `x0 … x3` and the output's at anything, runs to
    the continuation holding the inputs' as they were and the output's at the stored value of the four: every load
    is through the whole-buffer rectangle, so it reads the contents, and the one store covers the buffer. -/
theorem b_sound_kernel2 (c : Dev nD) (E : Set ℕ) (i : grid2.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1024x1024 .f32) (harg5 : arg5.IsWhole)
    (arg6 : Memref sig .tc .vmem S1x512x1024 .f32) (harg6 : arg6.IsWhole)
    (x0 : Vec F S1x512x1024 .f32) (x1 : Vec F S1x1x1024 .f32) (x2 : Vec F S1x1x1024 .f32) (x3 : Vec F S1x1024x1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay1 x0 x1 x2 x3)) -∗ K ⟨⟩))
      ⊢ wp frame (wpE (defs₀ (F := F)) Variants.none c none) E
          (cc2__out_kernel i arg2 harg2 arg3 harg3 arg4 harg4 arg5 harg5 arg6 harg6) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (b_cover_unit2 b_hz3 _ _),
    View.canon_unit_zero b_hz3]
  simp only [View.readAt_eq_ld, View.ld_unit_zero (S := S1x512x1024) b_hz3, View.ld_unit_zero (S := S1x1x1024) b_hz3,
    View.ld_unit_zero (S := S1x1024x1024) b_hz3]

/-- What the body is called with at point `t`: the invariant, the core's debts, and each window's current staging
    buffer at what the pipeline put there. -/
def b_bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: each buffer at what the body leaves in it. -/
def b_bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: each input's buffer holds its block there, so the body's run applies at the four blocks;
    the invariant and the core's debts pass through untouched. -/
theorem b_sound_body2 (c : Dev nD) (t : Fin cfg2.N) :
    b_bodyPre2 V c t ⊢ wp frame (wpE (defs₀ (F := F)) Variants.none c none) Set.univ (bodyAt2 t) (fun _ => b_bodyPost2 V c t) := by
  unfold b_bodyPre2 b_bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (b_sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the third call, at every point. -/
theorem body_obligation2 (c : Dev nD) : BodyObligation (dat2 (F := F) V c) (defs₀ (F := F)) Variants.none () Set.univ := fun t => by
  rw [bigSep_W2, bigSep_W2]
  exact b_sound_body2 V c t

end Cert.KernelIdeal.Fr

end
-- ==== Proof.Run.lean ====
/-
  The whole program as three segments, one per pipelined call, and its run: every weakly fair execution ends, with
  the three argument arrays as launched and the result array at what the third call's write-backs leave.

  The unscoped buffers' contents at the four boundaries are a fold from the launch memory: `W0` the launch
  contents; after call K, that call's arrays at the contents its pipeline leaves and every other buffer unchanged
  (`W1`, `W2`, `W3`). Each call's proof data is taken at the contents its call is entered with.
-/
import proofs.«169869_j23854248362895_1_alg».proof.Proof.Data
import proofs.«169869_j23854248362895_1_alg».proof.Proof.Body0
import proofs.«169869_j23854248362895_1_alg».proof.Proof.Body1
import proofs.«169869_j23854248362895_1_alg».proof.Proof.Body2

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- Core `c`'s buffers at launch. -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b

/-- After call 0: its arrays at what the pipeline leaves (an input as entered, an output with its write-backs
    folded in), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After call 1: its arrays at what the pipeline leaves (an input as entered, an output with its write-backs
    folded in), every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After call 2: its arrays at what the pipeline leaves (an input as entered, an output with its write-backs
    folded in), every other buffer as entered. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-! ## The arguments end as launched

No call writes an argument: each is an input window of a call (its array after the run is its array before) or no
window of it (it bypasses the call). -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl

theorem W1_main_arg1 (c : Dev nD) : W1 m c (Proc.devRef .tc main_arg1) = m ((c : Thread nD τ).loc main_arg1) :=
  (W1_arr m c 2).trans (((dat0 (V0 m) c).arrAt_in 2 rfl _).trans (A_eq0 (V0 m) c 2))
theorem W2_main_arg1 (c : Dev nD) : W2 m c (Proc.devRef .tc main_arg1) = m ((c : Thread nD τ).loc main_arg1) :=
  ((W2_arr m c 0).trans (((dat1 (V1 m) c).arrAt_in 0 rfl _).trans (A_eq1 (V1 m) c 0))).trans (W1_main_arg1 m c)
theorem W3_main_arg1 (c : Dev nD) : W3 m c (Proc.devRef .tc main_arg1) = m ((c : Thread nD τ).loc main_arg1) :=
  ((W3_arr m c 0).trans (((dat2 (V2 m) c).arrAt_in 0 rfl _).trans (A_eq2 (V2 m) c 0))).trans (W2_main_arg1 m c)

/-! ## The proof data family and the thread state -/

/-- No call has a prefetched table. -/
abbrev adm : (p : Fin 3) → (pcfgs (F := F) p).Adm := fun p => (cfgs p).toPCfg_adm
/-- Every call's proof data, each at the contents its call is entered with. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The calls as segments -/

/-- The class invariant from the generator register and the scoped rest (whatever rides between them is dropped), -/
theorem phiA_in {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
/-- and back. -/
theorem phiA_out {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

-- a library lemma stated over `pin pcs a p` unifies with the pinned configuration only when unification may unfold
-- plain definitions in a metavariable's type
set_option backward.isDefEq.respectTransparency.types false in
/-- Call 0 as a segment: entered with every unscoped buffer at `W0`, left with them at `W1`. Its arrays
    are split out of the unscoped buffers and put back at what the write-backs leave; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in spec0 c _).trans (hin0 (V0 m) c)
  hout c := by
    rw [Pipeline.ownSems0_none]
    exact (hout0 (V0 m) c).trans (phiA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Call 1 as a segment: entered with every unscoped buffer at `W1`, left with them at `W2`. Its arrays
    are split out of the unscoped buffers and put back at what the write-backs leave; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in spec1 c _).trans (hin1 (V1 m) c)
  hout c := by
    rw [Pipeline.ownSems0_none]
    exact (hout1 (V1 m) c).trans (phiA_out spec1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Call 2 as a segment: entered with every unscoped buffer at `W2`, left with them at `W3`. Its arrays
    are split out of the unscoped buffers and put back at what the write-backs leave; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := show _ ⊢ (Pipeline.ΦA spec2 c : sProp 𝕄) from phiA_in spec2 c _
  hout c := by
    rw [Pipeline.ownSems0_none]
    exact show (Pipeline.ΦA spec2 c : sProp 𝕄) ⊢ _ from phiA_out spec2 c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .region (reg0 m), .region (reg1 m), .region (reg2 m) ]

theorem main_run (c : Dev nD) : main (F := F) c = Pipeline.Seg.run (segs m) := (main_chain c).trans (by chain_rfl)

set_option backward.isDefEq.respectTransparency.types false in
/-- THE RUN. From any memory with zero counters every weakly fair execution of the program ends, nothing faulting;
    the result array then holds what the third call's write-backs leave (`W3` at it) and each argument array what
    it held at launch. -/
theorem run_val : θ_run defs (onTc (τ := τ) (main (F := F))) ⟨m, fun _ => 0, ρ⟩ (fun r => ∀ c : Dev nD,
      r.2.mem ((c.tc : Thread nD τ).loc main_v2) = W3 m c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v2 (by decide)),
       (h c _ (mem_uc main_arg0 (by decide))).trans (W3_main_arg0 m c),
       (h c _ (mem_uc main_arg1 (by decide))).trans (W3_main_arg1 m c),
       (h c _ (mem_uc main_arg2 (by decide))).trans (W3_main_arg2 m c)⟩)

end Cert.KernelIdeal.Fr

end
-- ==== Proof.Spec.lean ====
/-
  The mathematics both programs compute, as whole-array functions on the extended reals, over literal shapes.

  With k, q, v of shape [4, 4096, 1024] (batch b, sequence position s, feature d or e):
    scores[b, d, e] = (Σ_s k[b, s, d] · v[b, s, e]) · 2⁻⁵
    denom[b, 0, d]  = 1 + Σ_s exp q[b, s, d]
    z[b, 0, d]      = Σ_s exp (exp q[b, s, d] / denom[b, 0, d])
    out[b, s, e]    = Σ_d (exp (exp q[b, s, d] / denom[b, 0, d]) / z[b, 0, d]) · scores[b, d, e]
  The functions take the intermediate arrays as arguments, so that each pipelined call is one of them applied to the
  arrays the call finds.
-/
import Idealize.ShloMosaic.PureOps.Ideal
import Idealize.ShloMosaic.Lib.ValueIdx

noncomputable section

namespace Cert.Spec

open Idealize.ShloMosaic Idealize.ShloMosaic.ValueIdx

/-- The arguments' and the result's shape, the feature-by-feature matrix's, and the per-feature rows'. -/
abbrev A3 : Shape := ⟨3, ![4, 4096, 1024]⟩
abbrev M3 : Shape := ⟨3, ![4, 1024, 1024]⟩
abbrev R3 : Shape := ⟨3, ![4, 1, 1024]⟩

/-- The two float words the programs spell: 2⁻⁵ and 1. -/
def scaleW : EReal := Ideal.ofBits .f32 0x3D000000#32
def oneW : EReal := Ideal.ofBits .f32 0x3F800000#32

def scoresAt (k v : A3.Idx → EReal) (b : Fin 4) (d e : Fin 1024) : EReal :=
  (∑ s : Fin 4096, k (ix3 b s d) * v (ix3 b s e)) * scaleW

def denomAt (q : A3.Idx → EReal) (b : Fin 4) (d : Fin 1024) : EReal :=
  oneW + ∑ s : Fin 4096, Ideal.exp (q (ix3 b s d))

/-- exp q / denom at one position. -/
def qnAt (q : A3.Idx → EReal) (den : R3.Idx → EReal) (b : Fin 4) (s : Fin 4096) (d : Fin 1024) : EReal :=
  Ideal.div (Ideal.exp (q (ix3 b s d))) (den (ix3 b 0 d))

def zAt (q : A3.Idx → EReal) (den : R3.Idx → EReal) (b : Fin 4) (d : Fin 1024) : EReal :=
  ∑ s : Fin 4096, Ideal.exp (qnAt q den b s d)

def outAt (q : A3.Idx → EReal) (den z : R3.Idx → EReal) (sc : M3.Idx → EReal) (b : Fin 4) (s : Fin 4096) (e : Fin 1024) : EReal :=
  ∑ d : Fin 1024, Ideal.div (Ideal.exp (qnAt q den b s d)) (z (ix3 b 0 d)) * sc (ix3 b d e)

def scoresG (k v : A3.Idx → EReal) : M3.Idx → EReal := fun i => scoresAt k v (i 0) (i 1) (i 2)
def denomG (q : A3.Idx → EReal) : R3.Idx → EReal := fun i => denomAt q (i 0) (i 2)
def zG (q : A3.Idx → EReal) (den : R3.Idx → EReal) : R3.Idx → EReal := fun i => zAt q den (i 0) (i 2)
def outG (q : A3.Idx → EReal) (den z : R3.Idx → EReal) (sc : M3.Idx → EReal) : A3.Idx → EReal :=
  fun i => outAt q den z sc (i 0) (i 1) (i 2)

/-! ## The reference's own spelling

The reference divides the k·v contraction by the word of 32, adds its sums onto the zero word, and computes the
softmax over s with the maximum subtracted: exp (qn − m) / (0 + Σ_s exp (qn − m)), m the maximum over s of qn, taken
from the word of −∞. -/

def zeroW : EReal := Ideal.ofBits .f32 0x00000000#32
def negInfW : EReal := Ideal.ofBits .f32 0xFF800000#32
def divW : EReal := Ideal.ofBits .f32 0x42000000#32

def rDot (k v : A3.Idx → EReal) (b : Fin 4) (d e : Fin 1024) : EReal :=
  ∑ s : Fin 4096, k (ix3 b s d) * v (ix3 b s e)
def rScores (k v : A3.Idx → EReal) (b : Fin 4) (d e : Fin 1024) : EReal := Ideal.div (rDot k v b d e) divW
def rDen (q : A3.Idx → EReal) (b : Fin 4) (d : Fin 1024) : EReal :=
  oneW + (zeroW + ∑ s : Fin 4096, Ideal.exp (q (ix3 b s d)))
def rQn (q : A3.Idx → EReal) (b : Fin 4) (s : Fin 4096) (d : Fin 1024) : EReal :=
  Ideal.div (Ideal.exp (q (ix3 b s d))) (rDen q b d)
def rMax (q : A3.Idx → EReal) (b : Fin 4) (d : Fin 1024) : EReal :=
  max negInfW ((Finset.univ : Finset (Fin 4096)).fold max negInfW fun s => rQn q b s d)
def rE (q : A3.Idx → EReal) (b : Fin 4) (s : Fin 4096) (d : Fin 1024) : EReal :=
  Ideal.exp (rQn q b s d - rMax q b d)
def rSum (q : A3.Idx → EReal) (b : Fin 4) (d : Fin 1024) : EReal := zeroW + ∑ s : Fin 4096, rE q b s d
def rSm (q : A3.Idx → EReal) (b : Fin 4) (s : Fin 4096) (d : Fin 1024) : EReal :=
  Ideal.div (rE q b s d) (rSum q b d)
def refAt (k q v : A3.Idx → EReal) (b : Fin 4) (s : Fin 4096) (e : Fin 1024) : EReal :=
  ∑ d : Fin 1024, rSm q b s d * rScores k v b d e
/-- The reference's result as one function of the three arguments. -/
def refG (k q v : A3.Idx → EReal) : A3.Idx → EReal := fun i => refAt k q v (i 0) (i 1) (i 2)

/-- The kernel's result as one function of the three arguments. -/
def kernelG (k q v : A3.Idx → EReal) : A3.Idx → EReal :=
  outG q (denomG q) (zG q (denomG q)) (scoresG k v)

end Cert.Spec

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.Val0Acc.lean ====
/-
  What call 0's two scratch accumulators hold after each grid point, on the extended reals.

  The grid point t = 8·b + s works on batch b and on the s-th tile of 512 sequence rows. The matrix accumulator is
  reset to zero at s = 0 and each point adds, at entry (d, e), the sum over the tile's rows r of
  k[b, 512·s + r, d] · v[b, 512·s + r, e] (a contraction of the two blocks along their rows); the row accumulator is
  reset likewise and each point adds, at column d, the sum over the tile's rows of exp q[b, 512·s + r, d]. By induction
  on s the accumulators after point 8·b + s hold the tiles 0 … s; at s = 7 the eight tiles are all 4096 rows, and a sum
  over (tile, row in the tile) regroups into the sum over the rows (addition of extended reals is commutative and
  associative; nothing here needs finiteness). Scaled by 2⁻⁵, resp. increased by 1, these are the entries of the two
  results.
-/
import proofs.«169869_j23854248362895_1_alg».proof.Proof.Data
import proofs.«169869_j23854248362895_1_alg».proof.Proof.Spec
import proofs.«169869_j23854248362895_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

/-- The contraction of the two 512-row blocks along their rows, at entry (d, e). -/
theorem c_dot_rows_apply (l w : FVec Ideal S512x1024 .bf16) (d e : Fin 1024) :
    FloatOps.matmul dot_S512x1024_S512x1024_S1024x1024_0_0_1_1_n_n none l w (constant S1024x1024 .f32 0x00000000#32) (ix2 d e)
      = ∑ r : Fin 512, l (ix2 r d) * w (ix2 r e) := by
  refine (Ideal.matmul_constant_zero_apply dot_S512x1024_S512x1024_S1024x1024_0_0_1_1_n_n none l w (ix2 d e)).trans ?_
  rw [← Equiv.sum_comp (contrEquiv1 dot_S512x1024_S512x1024_S1024x1024_0_0_1_1_n_n 512 rfl rfl).symm]
  refine Finset.sum_congr rfl fun r _ => ?_
  have hr := contrEquiv1_symm_val dot_S512x1024_S512x1024_S1024x1024_0_0_1_1_n_n 512 rfl rfl r
  have el : dot_S512x1024_S512x1024_S1024x1024_0_0_1_1_n_n.lhsIdx (ix2 d e) ((contrEquiv1 dot_S512x1024_S512x1024_S1024x1024_0_0_1_1_n_n 512 rfl rfl).symm r) = ix2 r d :=
    funext fun a => Fin.ext (by
      match a with
      | ⟨0, _⟩ => exact (dot_S512x1024_S512x1024_S1024x1024_0_0_1_1_n_n.lhsIdx_val_of_single rfl _ _).trans hr
      | ⟨1, _⟩ => rfl)
  have er : dot_S512x1024_S512x1024_S1024x1024_0_0_1_1_n_n.rhsIdx (ix2 d e) ((contrEquiv1 dot_S512x1024_S512x1024_S1024x1024_0_0_1_1_n_n 512 rfl rfl).symm r) = ix2 r e :=
    funext fun a => Fin.ext (by
      match a with
      | ⟨0, _⟩ => exact (dot_S512x1024_S512x1024_S1024x1024_0_0_1_1_n_n.rhsIdx_val_of_single rfl _ _).trans hr
      | ⟨1, _⟩ => rfl)
  rw [el, er]

/-- One point's update of the matrix accumulator, at entry (d, e): what it held plus the sum over the block's 512 rows
    of the k-block's column d times the v-block's column e. -/
theorem c_pay3_apply (kb vb : Vec Ideal S1x512x1024 .f32) (old : Vec Ideal S1024x1024 .f32) (d e : Fin 1024) :
    k0_pay3 (F := Ideal) kb vb old (ix2 d e)
      = old (ix2 d e) + ∑ r : Fin 512, kb (ix3 (0 : Fin 1) r d) * vb (ix3 (0 : Fin 1) r e) := by
  unfold k0_pay3
  refine (congrFun (shapeCast_self _ shapeCasts_S1024x1024_S1024x1024) (ix2 d e)).trans ?_
  refine congrArg (old (ix2 d e) + ·) ?_
  refine (c_dot_rows_apply _ _ d e).trans ?_
  refine Finset.sum_congr rfl fun r _ => ?_
  exact congrArg₂ (· * ·) (shapeCast_1ab_ab_apply kb shapeCasts_S1x512x1024_S512x1024 r d)
    (shapeCast_1ab_ab_apply vb shapeCasts_S1x512x1024_S512x1024 r e)

/-- One point's update of the row accumulator, at column d: what it held plus the sum over the block's 512 rows of
    exp of the q-block's column d. -/
theorem c_pay4_apply (qb : Vec Ideal S1x512x1024 .f32) (old : Vec Ideal S1x1024 .f32) (u : Fin 1) (d : Fin 1024) :
    k0_pay4 (F := Ideal) qb old (ix2 u d)
      = old (ix2 u d) + ∑ r : Fin 512, Ideal.exp (qb (ix3 (0 : Fin 1) r d)) := by
  unfold k0_pay4
  refine (congrFun (shapeCast_self _ shapeCasts_S1x1024_S1x1024) (ix2 u d)).trans ?_
  refine congrArg (old (ix2 u d) + ·) ?_
  refine (shapeCast_a_1a_apply _ shapeCasts_S1024_S1x1024 u d).trans ?_
  refine (Cert.Keepdims.sum_axis0_apply _ 0x00000000#32 reduces_S512x1024_S1024 (.inl rfl) rfl d).trans ?_
  refine Finset.sum_congr rfl fun r _ => ?_
  exact congrArg Ideal.exp (shapeCast_1ab_ab_apply qb shapeCasts_S1x512x1024_S512x1024 r d)

/-- The matrix accumulator's reset value is zero everywhere. -/
theorem c_pay1_apply (j : S1024x1024.Idx) : k0_pay1 (F := Ideal) j = 0 := by
  unfold k0_pay1
  refine (congrFun (shapeCast_self _ shapeCasts_S1024x1024_S1024x1024) j).trans ?_
  exact Ideal.ofBits_zero_f32

/-- The row accumulator's reset value is zero everywhere. -/
theorem c_pay2_apply (j : S1x1024.Idx) : k0_pay2 (F := Ideal) j = 0 := by
  unfold k0_pay2
  refine (congrFun (shapeCast_self _ shapeCasts_S1x1024_S1x1024) j).trans ?_
  exact Ideal.ofBits_zero_f32

/-- The block written to the first result: the matrix accumulator times the word 2⁻⁵, under a leading unit axis. -/
theorem c_pay5_apply (a : Vec Ideal S1024x1024 .f32) (u : Fin 1) (d e : Fin 1024) :
    k0_pay5 (F := Ideal) a (ix3 u d e) = a (ix2 d e) * Cert.Spec.scaleW := by
  unfold k0_pay5
  exact shapeCast_ab_1ab_apply _ shapeCasts_S1024x1024_S1x1024x1024 u d e

/-- The block written to the second result: the word 1 plus the row accumulator, under a leading unit axis. -/
theorem c_pay6_apply (a : Vec Ideal S1x1024 .f32) (u v : Fin 1) (d : Fin 1024) :
    k0_pay6 (F := Ideal) a (ix3 u v d) = Cert.Spec.oneW + a (ix2 v d) := by
  unfold k0_pay6
  exact shapeCast_ab_1ab_apply _ shapeCasts_S1x1024_S1x1x1024 u v d

variable (V : (c : Dev nD) → (b : Ref sig .tc) → Buf (Elt Ideal) ((c : Thread nD τ).loc b))

/-- Where the blocks of call 0's five windows sit at point t = 8·b + s: the three inputs' at block (b, s, 0), the two
    results' at block (b, 0, 0). -/
theorem c_idx0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = 0 ∧ win0_4.index t (2 : Fin 3) = 0 :=
  (by decide +kernel : ∀ t : Fin grid0.N, _)

/-- The k-block at point t, at (0, r, d): entry (b, 512·s + r, d) of k. -/
theorem c_iblk0_0_apply (c : Dev nD) (t : Fin cfg0.N) (r : Fin 512) (d : Fin 1024) (b : Fin 4) (k : Fin 4096)
    (hb : b.val = t.val / 8) (hk : k.val = 512 * (t.val % 8) + r.val) :
    (iblk0 (F := Ideal) V c 0 t : Vec Ideal S1x512x1024 .f32) (ix3 (0 : Fin 1) r d)
      = (V c main_arg0 : Cert.Spec.A3.Idx → EReal) (ix3 b k d) := by
  obtain ⟨e0, e1, e2, -⟩ := c_idx0 t
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 512 + 1 * r.val = k.val; omega
  | ⟨2, _⟩ => show win0_0.index t (2 : Fin 3) * 1024 + 1 * d.val = d.val; omega

/-- The v-block at point t, at (0, r, e): entry (b, 512·s + r, e) of v. -/
theorem c_iblk0_1_apply (c : Dev nD) (t : Fin cfg0.N) (r : Fin 512) (d : Fin 1024) (b : Fin 4) (k : Fin 4096)
    (hb : b.val = t.val / 8) (hk : k.val = 512 * (t.val % 8) + r.val) :
    (iblk0 (F := Ideal) V c 1 t : Vec Ideal S1x512x1024 .f32) (ix3 (0 : Fin 1) r d)
      = (V c main_arg2 : Cert.Spec.A3.Idx → EReal) (ix3 b k d) := by
  obtain ⟨-, -, -, e0, e1, e2, -⟩ := c_idx0 t
  unfold iblk0
  rw [View.read_apply]
  show V c main_arg2 _ = V c main_arg2 _
  congr 1
  funext a
  apply Fin.ext
  match a with
  | ⟨0, _⟩ => show win0_1.index t (0 : Fin 3) * 1 + 1 * 0 = b.val; omega
  | ⟨1, _⟩ => show win0_1.index t (1 : Fin 3) * 512 + 1 * r.val = k.val; omega
  | ⟨2, _⟩ => show win0_1.index t (2 : Fin 3) * 1024 + 1 * d.val = d.val; omega

/-- The q-block at point t, at (0, r, d): entry (b, 512·s + r, d) of q. -/
theorem c_iblk0_2_apply (c : Dev nD) (t : Fin cfg0.N) (r : Fin 512) (d : Fin 1024) (b : Fin 4) (k : Fin 4096)
    (hb : b.val = t.val / 8) (hk : k.val = 512 * (t.val % 8) + r.val) :
    (iblk0 (F := Ideal) V c 2 t : Vec Ideal S1x512x1024 .f32) (ix3 (0 : Fin 1) r d)
      = (V c main_arg1 : Cert.Spec.A3.Idx → EReal) (ix3 b k d) := by
  obtain ⟨-, -, -, -, -, -, e0, e1, e2, -⟩ := c_idx0 t
  unfold iblk0
  rw [View.read_apply]
  show V c main_arg1 _ = V c main_arg1 _
  congr 1
  funext a
  apply Fin.ext
  match a with
  | ⟨0, _⟩ => show win0_2.index t (0 : Fin 3) * 1 + 1 * 0 = b.val; omega
  | ⟨1, _⟩ => show win0_2.index t (1 : Fin 3) * 512 + 1 * r.val = k.val; omega
  | ⟨2, _⟩ => show win0_2.index t (2 : Fin 3) * 1024 + 1 * d.val = d.val; omega

/-- Row r of the j-th tile of 512 rows, as a position below 4096 (reduced modulo 4096, which changes nothing for
    the eight tiles j < 8). -/
def c_row (j : ℕ) (r : Fin 512) : Fin 4096 := ⟨(512 * j + r.val) % 4096, Nat.mod_lt _ (by norm_num)⟩

/-- The eight tiles of 512 rows are all 4096 rows: a sum over tile and row within the tile is the sum over the rows. -/
theorem c_sum_tiles {M : Type*} [AddCommMonoid M] (g : Fin 4096 → M) :
    ∑ j ∈ Finset.range 8, ∑ r : Fin 512, g (c_row j r) = ∑ i : Fin 4096, g i := by
  rw [Finset.sum_range (fun j => ∑ r : Fin 512, g (c_row j r))]
  rw [← Equiv.sum_comp (finProdFinEquiv : Fin 8 × Fin 512 ≃ Fin (8 * 512)) g, Fintype.sum_prod_type]
  refine Finset.sum_congr rfl fun j _ => Finset.sum_congr rfl fun r _ => congrArg g (Fin.ext ?_)
  show (512 * j.val + r.val) % 4096 = r.val + 512 * j.val
  have := j.isLt; have := r.isLt; omega

/-- Row s's term of the k·v contraction at (b, d, e), and of the column sum of exp q at (b, d); -/
def c_kvAt (k v : Cert.Spec.A3.Idx → EReal) (b : Fin 4) (d e : Fin 1024) (s : Fin 4096) : EReal :=
  k (ix3 b s d) * v (ix3 b s e)
def c_eqAt (q : Cert.Spec.A3.Idx → EReal) (b : Fin 4) (d : Fin 1024) (s : Fin 4096) : EReal :=
  Ideal.exp (q (ix3 b s d))
/-- and one tile's: the 512 rows of tile j. -/
def c_kvTile (k v : Cert.Spec.A3.Idx → EReal) (b : Fin 4) (d e : Fin 1024) (j : ℕ) : EReal :=
  ∑ r : Fin 512, c_kvAt k v b d e (c_row j r)
def c_eqTile (q : Cert.Spec.A3.Idx → EReal) (b : Fin 4) (d : Fin 1024) (j : ℕ) : EReal :=
  ∑ r : Fin 512, c_eqAt q b d (c_row j r)

/-- One point's update of the matrix accumulator at (d, e), in terms of k and v: what it held plus the point's tile. -/
theorem c_step_fst (c : Dev nD) (t : Fin cfg0.N) (b : Fin 4) (s : ℕ) (hb : b.val = t.val / 8) (hs : t.val % 8 = s)
    (p : Vec Ideal S1024x1024 .f32 × Vec Ideal S1x1024 .f32) (d e : Fin 1024) :
    (step0 (F := Ideal) V c t p).1 (ix2 d e) = p.1 (ix2 d e) + c_kvTile (V c main_arg0) (V c main_arg2) b d e s := by
  have hs8 : s < 8 := by omega
  show k0_pay3 (F := Ideal) (iblk0 V c 0 t) (iblk0 V c 1 t) p.1 (ix2 d e) = _
  refine (c_pay3_apply (iblk0 V c 0 t) (iblk0 V c 1 t) p.1 d e).trans ?_
  refine congrArg (p.1 (ix2 d e) + ·) (Finset.sum_congr rfl fun r _ => ?_)
  have hk : (c_row s r).val = 512 * (t.val % 8) + r.val := by
    show (512 * s + r.val) % 4096 = 512 * (t.val % 8) + r.val
    have := r.isLt; omega
  exact congrArg₂ (· * ·) (c_iblk0_0_apply V c t r d b (c_row s r) hb hk) (c_iblk0_1_apply V c t r e b (c_row s r) hb hk)

/-- One point's update of the row accumulator at column d, in terms of q. -/
theorem c_step_snd (c : Dev nD) (t : Fin cfg0.N) (b : Fin 4) (s : ℕ) (hb : b.val = t.val / 8) (hs : t.val % 8 = s)
    (p : Vec Ideal S1024x1024 .f32 × Vec Ideal S1x1024 .f32) (u : Fin 1) (d : Fin 1024) :
    (step0 (F := Ideal) V c t p).2 (ix2 u d) = p.2 (ix2 u d) + c_eqTile (V c main_arg1) b d s := by
  have hs8 : s < 8 := by omega
  show k0_pay4 (F := Ideal) (iblk0 V c 2 t) p.2 (ix2 u d) = _
  refine (c_pay4_apply (iblk0 V c 2 t) p.2 u d).trans ?_
  refine congrArg (p.2 (ix2 u d) + ·) (Finset.sum_congr rfl fun r _ => ?_)
  have hk : (c_row s r).val = 512 * (t.val % 8) + r.val := by
    show (512 * s + r.val) % 4096 = 512 * (t.val % 8) + r.val
    have := r.isLt; omega
  exact congrArg Ideal.exp (c_iblk0_2_apply V c t r d b (c_row s r) hb hk)

/-- After the point t = 8·b + s the matrix accumulator holds, at (d, e), the tiles 0 … s of batch b of the k·v
    contraction: by induction on s, from zero at s = 0. -/
theorem c_acc_fst (c : Dev nD) (d e : Fin 1024) : ∀ (s : ℕ) (t : Fin cfg0.N) (b : Fin 4), b.val = t.val / 8 → t.val % 8 = s →
    (acc0 (F := Ideal) V c t.val t.isLt).1 (ix2 d e)
      = ∑ j ∈ Finset.range (s + 1), c_kvTile (V c main_arg0) (V c main_arg2) b d e j
  | 0, t, b, hb, hs => by
    rw [acc0_first V c t hs]
    refine (c_step_fst V c t b 0 hb hs zero0 d e).trans ?_
    rw [Finset.sum_range_one]
    show k0_pay1 (F := Ideal) (ix2 d e) + _ = _
    rw [c_pay1_apply, zero_add]
  | s + 1, t, b, hb, hs => by
    have ht : t.val < 32 := lt_of_lt_of_eq t.isLt N_0
    rw [acc0_later V c t (by omega)]
    refine (c_step_fst V c t b (s + 1) hb hs _ d e).trans ?_
    rw [Finset.sum_range_succ _ (s + 1)]
    refine congrArg (· + _) ?_
    exact c_acc_fst c d e s ⟨t.val - 1, Nat.lt_of_le_of_lt (Nat.sub_le _ _) t.isLt⟩ b
      (by show b.val = (t.val - 1) / 8; omega) (by show (t.val - 1) % 8 = s; omega)

/-- After the point t = 8·b + s the row accumulator holds, at column d, the tiles 0 … s of batch b of the column sums
    of exp q. -/
theorem c_acc_snd (c : Dev nD) (u : Fin 1) (d : Fin 1024) : ∀ (s : ℕ) (t : Fin cfg0.N) (b : Fin 4), b.val = t.val / 8 → t.val % 8 = s →
    (acc0 (F := Ideal) V c t.val t.isLt).2 (ix2 u d)
      = ∑ j ∈ Finset.range (s + 1), c_eqTile (V c main_arg1) b d j
  | 0, t, b, hb, hs => by
    rw [acc0_first V c t hs]
    refine (c_step_snd V c t b 0 hb hs zero0 u d).trans ?_
    rw [Finset.sum_range_one]
    show k0_pay2 (F := Ideal) (ix2 u d) + _ = _
    rw [c_pay2_apply, zero_add]
  | s + 1, t, b, hb, hs => by
    have ht : t.val < 32 := lt_of_lt_of_eq t.isLt N_0
    rw [acc0_later V c t (by omega)]
    refine (c_step_snd V c t b (s + 1) hb hs _ u d).trans ?_
    rw [Finset.sum_range_succ _ (s + 1)]
    refine congrArg (· + _) ?_
    exact c_acc_snd c u d s ⟨t.val - 1, Nat.lt_of_le_of_lt (Nat.sub_le _ _) t.isLt⟩ b
      (by show b.val = (t.val - 1) / 8; omega) (by show (t.val - 1) % 8 = s; omega)

/-- At the last point of batch b (s = 7) the matrix accumulator is the whole contraction over the 4096 rows, so scaled it
    is the first result's entry; -/
theorem c_acc_fst_last (c : Dev nD) (t : Fin cfg0.N) (b : Fin 4) (hb : b.val = t.val / 8) (h7 : t.val % 8 = 7) (d e : Fin 1024) :
    (acc0 (F := Ideal) V c t.val t.isLt).1 (ix2 d e) * Cert.Spec.scaleW
      = Cert.Spec.scoresAt (V c main_arg0) (V c main_arg2) b d e :=
  congrArg (· * Cert.Spec.scaleW)
    ((c_acc_fst V c d e 7 t b hb h7).trans (c_sum_tiles (c_kvAt (V c main_arg0) (V c main_arg2) b d e)))

/-- and the row accumulator the whole column sum of exp q, so one plus it is the second result's entry. -/
theorem c_acc_snd_last (c : Dev nD) (t : Fin cfg0.N) (b : Fin 4) (hb : b.val = t.val / 8) (h7 : t.val % 8 = 7) (u : Fin 1) (d : Fin 1024) :
    Cert.Spec.oneW + (acc0 (F := Ideal) V c t.val t.isLt).2 (ix2 u d)
      = Cert.Spec.denomAt (V c main_arg1) b d :=
  congrArg (Cert.Spec.oneW + ·)
    ((c_acc_snd V c u d 7 t b hb h7).trans (c_sum_tiles (c_eqAt (V c main_arg1) b d)))

end Cert.KernelIdeal.Val
end
-- ==== Proof.Val0.lean ====
/-
  The first result array of call 0 after its run, on the extended reals:
    scores[b, d, e] = (Σ_s k[b, s, d] · v[b, s, e]) · 2⁻⁵.

  The array is written back one batch row at a time: the block [b, 0…1023, 0…1023] at the last point of batch b
  (t = 8·b + 7), from the matrix accumulator scaled by 2⁻⁵. There the accumulator holds the whole contraction over
  the 4096 sequence rows of batch b, so the block written is that block of the whole-array function, and the four
  blocks b = 0 … 3 cover the array.
-/
import proofs.«169869_j23854248362895_1_alg».proof.Proof.Val0Acc

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

variable (V : (c : Dev nD) → (b : Ref sig .tc) → Buf (Elt Ideal) ((c : Thread nD τ).loc b))

/-- What a point that writes the first result back (s = 7) writes is its block of the whole-array function: the
    block's entry (0, d, e) is the scaled accumulator at (d, e), and sits in the array at (b, d, e). -/
theorem c_flushed3_eq (c : Dev nD) (t : Fin cfg0.N) (hf : (cfg0.win 3).flush t = true) :
    (dat0 (F := Ideal) V c).flushed 3 t
      = ((cfg0.win 3).blk t).view.read (Elt Ideal) (Cert.Spec.scoresG (V c main_arg0) (V c main_arg2)) := by
  have h7 : t.val % 8 = 7 := (flush0_3 t).mp hf
  have ht : t.val < 32 := lt_of_lt_of_eq t.isLt N_0
  obtain ⟨-, -, -, -, -, -, -, -, -, e0, e1, e2, -⟩ := c_idx0 t
  show (cfg0.win 3).cut (grid0.coords t) ((dat0 (F := Ideal) V c).after 3 t) = _
  rw [after0_3]
  funext y
  obtain ⟨u, d, e, rfl⟩ : ∃ (u : Fin 1) (d e : Fin 1024), y = ix3 u d e := ⟨y 0, y 1, y 2, eq_ix3 y⟩
  rw [View.read_apply]
  have hx : (cfg0.win 3).xinj (grid0.coords t) (ix3 u d e) = ix3 u d e :=
    funext fun a => Fin.ext (by match a with | ⟨0, _⟩ => rfl | ⟨1, _⟩ => rfl | ⟨2, _⟩ => rfl)
  show k0_pay5 (F := Ideal) (acc0 V c t.val t.isLt).1 ((cfg0.win 3).xinj (grid0.coords t) (ix3 u d e)) = _
  rw [hx]
  refine (c_pay5_apply (acc0 (F := Ideal) V c t.val t.isLt).1 u d e).trans ?_
  refine (c_acc_fst_last V c t ⟨t.val / 8, by omega⟩ rfl h7 d e).trans ?_
  show Cert.Spec.scoresG (V c main_arg0) (V c main_arg2) (ix3 (⟨t.val / 8, by omega⟩ : Fin 4) d e) = Cert.Spec.scoresG (V c main_arg0) (V c main_arg2) _
  congr 1
  funext a
  apply Fin.ext
  have hu := u.isLt
  match a with
  | ⟨0, _⟩ => show t.val / 8 = win0_3.index t (0 : Fin 3) * 1 + 1 * u.val; omega
  | ⟨1, _⟩ => show d.val = win0_3.index t (1 : Fin 3) * 1024 + 1 * d.val; omega
  | ⟨2, _⟩ => show e.val = win0_3.index t (2 : Fin 3) * 1024 + 1 * e.val; omega

/-- An index of the array is in point t's block iff each coordinate is in the block's range on its axis. -/
theorem c_mem_blk3 (t : Fin cfg0.N) (i : S4x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0_0).slice (win0_3.rect t)).set ↔ _
  rw [View.set_slice_whole, Rect.mem_set_unit]
  exact Iff.rfl

/-- Every index (b, d, e) of the array lies in the block written back at the last point of batch b. -/
theorem c_cover3 (i : S4x1024x1024.Idx) :
    ∃ t : Fin cfg0.N, (cfg0.win 3).flush t = true ∧ i ∈ ((cfg0.win 3).blk t).view.set := by
  have hi0 : (i 0).val < 4 := (i 0).isLt
  have hi1 : (i 1).val < 1024 := (i 1).isLt
  have hi2 : (i 2).val < 1024 := (i 2).isLt
  have hN : cfg0.N = 32 := N_0
  have hlt : 8 * (i 0).val + 7 < cfg0.N := by rw [hN]; omega
  obtain ⟨-, -, -, -, -, -, -, -, -, e0, e1, e2, -⟩ := c_idx0 ⟨8 * (i 0).val + 7, hlt⟩
  have e0' : win0_3.index ⟨8 * (i 0).val + 7, hlt⟩ (0 : Fin 3) = (8 * (i 0).val + 7) / 8 := e0
  refine ⟨⟨8 * (i 0).val + 7, hlt⟩, (flush0_3 _).mpr (by show (8 * (i 0).val + 7) % 8 = 7; omega), ?_⟩
  rw [c_mem_blk3]
  intro a
  match a with
  | ⟨0, _⟩ =>
    show win0_3.index ⟨8 * (i 0).val + 7, hlt⟩ (0 : Fin 3) * 1 ≤ (i 0).val ∧ (i 0).val < win0_3.index ⟨8 * (i 0).val + 7, hlt⟩ (0 : Fin 3) * 1 + 1
    omega
  | ⟨1, _⟩ =>
    show win0_3.index ⟨8 * (i 0).val + 7, hlt⟩ (1 : Fin 3) * 1024 ≤ (i 1).val ∧ (i 1).val < win0_3.index ⟨8 * (i 0).val + 7, hlt⟩ (1 : Fin 3) * 1024 + 1024
    omega
  | ⟨2, _⟩ =>
    show win0_3.index ⟨8 * (i 0).val + 7, hlt⟩ (2 : Fin 3) * 1024 ≤ (i 2).val ∧ (i 2).val < win0_3.index ⟨8 * (i 0).val + 7, hlt⟩ (2 : Fin 3) * 1024 + 1024
    omega

/-- The first result array after call 0's run is the scaled k·v contraction, index by index. -/
theorem val0_scores (c : Dev nD) :
    (dat0 (F := Ideal) V c).arrAt 3 cfg0.N = Cert.Spec.scoresG (V c main_arg0) (V c main_arg2) :=
  (dat0 (F := Ideal) V c).arrAt_eq_of_cover 3 (Cert.Spec.scoresG (V c main_arg0) (V c main_arg2))
    (fun t hf => c_flushed3_eq V c t hf) (fun i => c_cover3 i)

end Cert.KernelIdeal.Val

end
-- ==== Proof.Val0d.lean ====
/-
  The second result of call 0, the denominators, as a whole array after the call.

  The call writes its second result only at the last point of each batch row: the point t = 8·b + 7 writes the block
  (b, 0, ·) of the array, and what it writes there is one plus the row accumulator, which at that point holds the sum
  over all 4096 sequence positions of exp q[b, ·, d]. Each of the four blocks is written once and together they are
  the whole array, so the array ends as the function (b, 0, d) ↦ 1 + Σ_s exp q[b, s, d].
-/
import proofs.«169869_j23854248362895_1_alg».proof.Proof.Data
import proofs.«169869_j23854248362895_1_alg».proof.Proof.Spec
import proofs.«169869_j23854248362895_1_alg».proof.Proof.Val0Acc
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

variable (V : (c : Dev nD) → (b : Ref sig .tc) → Buf (Elt Ideal) ((c : Thread nD τ).loc b))

/-- What the last point of a batch row writes back to the second result is its block of the denominators: at
    (0, 0, d) of the block, one plus the whole column sum of exp q over batch b = t / 8, which is the array's entry
    (b, 0, d). -/
theorem e_flushed4 (c : Dev nD) (t : Fin cfg0.N) (h7 : t.val % 8 = 7) :
    (dat0 (F := Ideal) V c).flushed 4 t
      = ((cfg0.win 4).blk t).view.read (Elt Ideal) (Cert.Spec.denomG (V c main_arg1)) := by
  have ht : t.val < 32 := lt_of_lt_of_eq t.isLt N_0
  obtain ⟨-, -, -, -, -, -, -, -, -, -, -, -, e0, e1, e2⟩ := c_idx0 t
  show (cfg0.win 4).cut (grid0.coords t) ((dat0 (F := Ideal) V c).after 4 t) = _
  rw [after0_4]
  funext j
  obtain ⟨u, v, d, rfl⟩ : ∃ (u v : Fin 1) (d : Fin 1024), (j : S1x1x1024.Idx) = ix3 u v d := ⟨j 0, j 1, j 2, eq_ix3 j⟩
  rw [View.read_apply]
  show k0_pay6 (F := Ideal) (acc0 (F := Ideal) V c t.val t.isLt).2 (ix3 u v d) = Cert.Spec.denomAt (V c main_arg1) _ _
  refine (c_pay6_apply _ u v d).trans ?_
  refine (c_acc_snd_last V c t ⟨t.val / 8, by omega⟩ rfl h7 v d).trans ?_
  congr 1
  · apply Fin.ext
    show t.val / 8 = win0_4.index t (0 : Fin 3) * 1 + 1 * u.val
    have := u.isLt; omega
  · apply Fin.ext
    show d.val = win0_4.index t (2 : Fin 3) * 1024 + 1 * d.val
    omega

/-- Every entry (b, 0, d) of the second result lies in the block that the point 8·b + 7 writes back. -/
theorem e_cover4 (i : S4x1x1024.Idx) :
    ∃ t : Fin cfg0.N, (cfg0.win 4).flush t = true ∧ i ∈ ((cfg0.win 4).blk t).view.set := by
  have hi0 : (i 0).val < 4 := (i 0).isLt
  have hi1 : (i 1).val < 1 := (i 1).isLt
  have hi2 : (i 2).val < 1024 := (i 2).isLt
  obtain ⟨t, htv⟩ : ∃ t : Fin cfg0.N, t.val = 8 * (i 0).val + 7 :=
    ⟨⟨8 * (i 0).val + 7, lt_of_lt_of_eq (by omega : 8 * (i 0).val + 7 < 32) N_0.symm⟩, rfl⟩
  obtain ⟨-, -, -, -, -, -, -, -, -, -, -, -, e0, e1, e2⟩ := c_idx0 t
  refine ⟨t, (flush0_4 t).mpr (by omega), ?_⟩
  show i ∈ ((View.whole main_v0_1).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1 ≤ (i 1).val ∧ (i 1).val < win0_4.index t (1 : Fin 3) * 1 + 1
    omega
  | ⟨2, _⟩ =>
    show win0_4.index t (2 : Fin 3) * 1024 ≤ (i 2).val ∧ (i 2).val < win0_4.index t (2 : Fin 3) * 1024 + 1024
    omega

/-- After call 0 its second result holds the denominators 1 + Σ_s exp q. -/
theorem val0_denom (c : Dev nD) : (dat0 (F := Ideal) V c).arrAt 4 cfg0.N = Cert.Spec.denomG (V c main_arg1) :=
  (dat0 (F := Ideal) V c).arrAt_eq_of_cover 4 (Cert.Spec.denomG (V c main_arg1))
    (fun t hf => e_flushed4 V c t ((flush0_4 t).mp hf)) (fun i => e_cover4 i)

end Cert.KernelIdeal.Val

end
-- ==== Proof.Val1.lean ====
/-
  The value the second call leaves in its result array, on the extended reals.

  The call runs over the points t = 8·b + s (b < 4, s < 8) and keeps one 1×1024 accumulator. At the point t it reads
  rows 512·s … 512·s + 511 of batch b of q and the row (b, 0, ·) of the denominators, and adds to the accumulator, at
  column d, the sum over those 512 rows of exp (exp q[b, row, d] / den[b, 0, d]); at s = 0 the accumulator is first set
  to zero. So after the point 8·b + s the accumulator holds, at column d, the sum of that term over the rows
  0 … 512·(s + 1) − 1 of batch b: by induction on s. At s = 7 the eight blocks of 512 rows are the whole range of 4096
  rows, the accumulator is z[b, 0, d] = Σ_s exp (exp q[b, s, d] / den[b, 0, d]), and the call writes it to the row
  (b, 0, ·) of its result. The four rows written at the points 8·b + 7 are the whole result array, which therefore ends
  holding `Cert.Spec.zG` of the two arrays the call finds.
-/
import proofs.«169869_j23854248362895_1_alg».proof.Proof.Data
import proofs.«169869_j23854248362895_1_alg».proof.Proof.Spec
import proofs.«169869_j23854248362895_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

/-! ## The three values the body stores, entry by entry -/

/-- The accumulator's reset value is zero at every entry. -/
theorem f_pay1_apply (j : S1x1024.Idx) : k1_pay1 (F := Ideal) j = 0 := by
  unfold k1_pay1
  refine (congrFun (shapeCast_self _ shapeCasts_S1x1024_S1x1024) j).trans ?_
  exact Ideal.ofBits_zero_f32

/-- One point's update of the accumulator, at column d: what it held plus the sum over the block's 512 rows of
    exp (exp q / den), q the entry of the q-block in that row and column, den the denominator block's entry in column d. -/
theorem f_pay2_apply (qb : Vec Ideal S1x512x1024 .f32) (db : Vec Ideal S1x1x1024 .f32) (old : Vec Ideal S1x1024 .f32)
    (u : Fin 1) (d : Fin 1024) :
    k1_pay2 (F := Ideal) qb db old (ix2 u d)
      = old (ix2 u d) + ∑ r : Fin 512,
          Ideal.exp (Ideal.div (Ideal.exp (qb (ix3 (0 : Fin 1) r d))) (db (ix3 (0 : Fin 1) (0 : Fin 1) d))) := by
  unfold k1_pay2
  refine (congrFun (shapeCast_self _ shapeCasts_S1x1024_S1x1024) (ix2 u d)).trans ?_
  refine congrArg (old (ix2 u d) + ·) ?_
  refine (shapeCast_a_1a_apply _ shapeCasts_S1024_S1x1024 u d).trans ?_
  refine (Cert.Keepdims.sum_axis0_apply _ 0x00000000#32 reduces_S512x1024_S1024 (.inl rfl) rfl d).trans ?_
  refine Finset.sum_congr rfl fun r _ => ?_
  have hq : shapeCast S512x1024 qb shapeCasts_S1x512x1024_S512x1024 (ix2 r d) = qb (ix3 (0 : Fin 1) r d) :=
    shapeCast_1ab_ab_apply qb _ r d
  have hden : broadcastTo S512x1024 (shapeCast S1x1024 db shapeCasts_S1x1x1024_S1x1024) broadcasts_S1x1024_S512x1024 (ix2 r d)
      = db (ix3 (0 : Fin 1) (0 : Fin 1) d) :=
    (broadcastTo_1b_ab_apply _ _ r d).trans (shapeCast_1ab_ab_apply db _ (0 : Fin 1) d)
  exact congrArg Ideal.exp (congrArg₂ Ideal.div (congrArg Ideal.exp hq) hden)

/-- The block written to the result: the accumulator under one more leading unit axis. -/
theorem f_pay3_apply (a : Vec Ideal S1x1024 .f32) (u0 u1 : Fin 1) (d : Fin 1024) :
    k1_pay3 (F := Ideal) a (ix3 u0 u1 d) = a (ix2 u1 d) := by
  unfold k1_pay3
  exact shapeCast_ab_1ab_apply _ shapeCasts_S1x1024_S1x1x1024 u0 u1 d

/-! ## Regrouping eight blocks of 512 rows into the 4096 rows -/

/-- The batch row of the point n = 8·b + s. -/
def f_b (n : ℕ) : Fin 4 := ⟨n / 8 % 4, Nat.mod_lt _ (by norm_num)⟩

/-- Row r of the j-th block of 512 rows. -/
def f_row (j : ℕ) (r : Fin 512) : Fin 4096 := ⟨(512 * j + r.val) % 4096, Nat.mod_lt _ (by norm_num)⟩

/-- A sum over eight blocks of 512 rows each is the sum over the 4096 rows: (j, r) ↦ 512·j + r is a bijection, and
    addition of extended reals is commutative and associative. -/
theorem f_sum_blocks (G : Fin 4096 → EReal) :
    ∑ j ∈ Finset.range 8, ∑ r : Fin 512, G (f_row j r) = ∑ σ : Fin 4096, G σ := by
  rw [Finset.sum_range (fun j => ∑ r : Fin 512, G (f_row j r))]
  refine (Fintype.sum_prod_type' (fun (j : Fin 8) (r : Fin 512) => G (f_row j.val r))).symm.trans ?_
  refine Fintype.sum_equiv (finProdFinEquiv.trans (finCongr (by norm_num : 8 * 512 = 4096))) _ _ fun x => ?_
  refine congrArg G (Fin.ext ?_)
  show (512 * x.1.val + x.2.val) % 4096 = x.2.val + 512 * x.1.val
  have h1 := x.1.isLt
  have h2 := x.2.isLt
  omega

variable (V : (c : Dev nD) → (b : Ref sig .tc) → Buf (Elt Ideal) ((c : Thread nD τ).loc b))

/-! ## The blocks the body reads at a point -/

/-- Where the blocks of the call's three windows sit at the point t = 8·b + s: the q-block at block (b, s, 0), the
    denominator block and the result block at block (b, 0, 0). -/
theorem f_idx1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0 :=
  (by decide +kernel : ∀ t : Fin grid1.N, _)

/-- The q-block at the point t, at (0, r, d): entry (b, 512·s + r, d) of q. -/
theorem f_iblk1_0_apply (c : Dev nD) (t : Fin cfg1.N) (r : Fin 512) (d : Fin 1024) (b : Fin 4) (σ : Fin 4096)
    (hb : b.val = t.val / 8) (hσ : σ.val = t.val % 8 * 512 + r.val) :
    (iblk1 (F := Ideal) V c 0 t : Vec Ideal S1x512x1024 .f32) (ix3 (0 : Fin 1) r d)
      = (V c main_arg1 : S4x4096x1024.Idx → EReal) (ix3 b σ d) := by
  obtain ⟨e0, e1, e2, -⟩ := f_idx1 t
  unfold iblk1
  rw [View.read_apply]
  show V c main_arg1 _ = V c main_arg1 _
  refine congrArg (V c main_arg1) (funext fun a => Fin.ext ?_)
  match a with
  | ⟨0, _⟩ => show win1_0.index t (0 : Fin 3) * 1 + 1 * 0 = b.val; omega
  | ⟨1, _⟩ => show win1_0.index t (1 : Fin 3) * 512 + 1 * r.val = σ.val; omega
  | ⟨2, _⟩ => show win1_0.index t (2 : Fin 3) * 1024 + 1 * d.val = d.val; omega

/-- The denominator block at the point t, at (0, 0, d): entry (b, 0, d) of the denominators. -/
theorem f_iblk1_1_apply (c : Dev nD) (t : Fin cfg1.N) (d : Fin 1024) (b : Fin 4) (hb : b.val = t.val / 8) :
    (iblk1 (F := Ideal) V c 1 t : Vec Ideal S1x1x1024 .f32) (ix3 (0 : Fin 1) (0 : Fin 1) d)
      = (V c main_v0_1 : S4x1x1024.Idx → EReal) (ix3 b (0 : Fin 1) d) := by
  obtain ⟨-, -, -, e0, e1, e2, -⟩ := f_idx1 t
  unfold iblk1
  rw [View.read_apply]
  show V c main_v0_1 _ = V c main_v0_1 _
  refine congrArg (V c main_v0_1) (funext fun a => Fin.ext ?_)
  match a with
  | ⟨0, _⟩ => show win1_1.index t (0 : Fin 3) * 1 + 1 * 0 = b.val; omega
  | ⟨1, _⟩ => show win1_1.index t (1 : Fin 3) * 1 + 1 * 0 = 0; omega
  | ⟨2, _⟩ => show win1_1.index t (2 : Fin 3) * 1024 + 1 * d.val = d.val; omega

/-! ## The accumulator after each point -/

/-- The sum, over the j-th block of 512 rows of batch b, of exp (exp q / den) in column d. -/
def f_blk (c : Dev nD) (b : Fin 4) (j : ℕ) (d : Fin 1024) : EReal :=
  ∑ r : Fin 512, Ideal.exp (Cert.Spec.qnAt (V c main_arg1) (V c main_v0_1) b (f_row j r) d)

/-- One point's update, at column d: what the accumulator held plus the point's block sum. -/
theorem f_step1_fin (c : Dev nD) (t : Fin cfg1.N) (old : Vec Ideal S1x1024 .f32) (u : Fin 1) (d : Fin 1024) :
    step1 (F := Ideal) V c t old (ix2 u d) = old (ix2 u d) + f_blk V c (f_b t.val) (t.val % 8) d := by
  have ht : t.val < 32 := lt_of_lt_of_eq t.isLt N_1
  unfold step1 f_blk
  refine (f_pay2_apply (iblk1 V c 0 t) (iblk1 V c 1 t) old u d).trans ?_
  refine congrArg (old (ix2 u d) + ·) (Finset.sum_congr rfl fun r _ => ?_)
  unfold Cert.Spec.qnAt
  have e0 := f_iblk1_0_apply V c t r d (f_b t.val) (f_row (t.val % 8) r)
    (by show t.val / 8 % 4 = t.val / 8; omega)
    (by show (512 * (t.val % 8) + r.val) % 4096 = t.val % 8 * 512 + r.val; have := r.isLt; omega)
  have e1 := f_iblk1_1_apply V c t d (f_b t.val) (by show t.val / 8 % 4 = t.val / 8; omega)
  exact congrArg Ideal.exp (congrArg₂ Ideal.div (congrArg Ideal.exp e0) e1)

/-- The same at the point of position n. -/
theorem f_step1_apply (c : Dev nD) (n : ℕ) (hn : n < cfg1.N) (old : Vec Ideal S1x1024 .f32) (u : Fin 1) (d : Fin 1024) :
    step1 (F := Ideal) V c ⟨n, hn⟩ old (ix2 u d) = old (ix2 u d) + f_blk V c (f_b n) (n % 8) d :=
  f_step1_fin V c ⟨n, hn⟩ old u d

/-- After the point n = 8·b + s the accumulator holds, at column d, the block sums of the blocks 0 … s of batch b. -/
theorem f_acc1_apply (c : Dev nD) (u : Fin 1) (d : Fin 1024) (n : ℕ) :
    ∀ hn : n < cfg1.N, acc1 (F := Ideal) V c n hn (ix2 u d) = ∑ j ∈ Finset.range (n % 8 + 1), f_blk V c (f_b n) j d := by
  induction n with
  | zero =>
    intro hn
    show step1 (F := Ideal) V c ⟨0, hn⟩ (k1_pay1 (F := Ideal)) (ix2 u d) = ∑ j ∈ Finset.range 1, f_blk V c (f_b 0) j d
    rw [Finset.sum_range_one]
    refine (f_step1_apply V c 0 hn (k1_pay1 (F := Ideal)) u d).trans ?_
    rw [f_pay1_apply, zero_add]
  | succ n ih =>
    intro hn
    have hn32 : n + 1 < 32 := lt_of_lt_of_eq hn N_1
    by_cases h8 : (n + 1) % 8 = 0
    · -- a new batch row starts: the accumulator is updated from zero
      refine (congrFun (acc1_first V c ⟨n + 1, hn⟩ h8) (ix2 u d)).trans ?_
      refine (f_step1_apply V c (n + 1) hn (k1_pay1 (F := Ideal)) u d).trans ?_
      rw [f_pay1_apply, zero_add, h8, zero_add, Finset.sum_range_one]
    · -- the accumulator is updated from what the point before left
      refine (congrFun (acc1_later V c ⟨n + 1, hn⟩ h8) (ix2 u d)).trans ?_
      refine (f_step1_apply V c (n + 1) hn _ u d).trans ?_
      have hb : f_b (n + 1) = f_b n := Fin.ext (by show (n + 1) / 8 % 4 = n / 8 % 4; omega)
      have hm : (n + 1) % 8 = n % 8 + 1 := by omega
      show acc1 (F := Ideal) V c n (Nat.lt_of_succ_lt hn) (ix2 u d) + f_blk V c (f_b (n + 1)) ((n + 1) % 8) d
        = ∑ j ∈ Finset.range ((n + 1) % 8 + 1), f_blk V c (f_b (n + 1)) j d
      rw [ih (Nat.lt_of_succ_lt hn), hm, Finset.sum_range_succ _ (n % 8 + 1), hb]

/-! ## What a point writes back, and the array after the run -/

/-- The entry (0, 0, d) of the block stored at a point t = 8·b + 7 is z at (b, d). -/
theorem f_flushed1_at (c : Dev nD) (t : Fin cfg1.N) (hf : t.val % 8 = 7) (u0 u1 : Fin 1) (d : Fin 1024) (b : Fin 4)
    (hb : b.val = t.val / 8) :
    k1_pay3 (F := Ideal) (acc1 V c t.val t.isLt) (ix3 u0 u1 d)
      = Cert.Spec.zAt (V c main_arg1) (V c main_v0_1) b d := by
  have ht : t.val < 32 := lt_of_lt_of_eq t.isLt N_1
  refine (f_pay3_apply (acc1 V c t.val t.isLt) u0 u1 d).trans ?_
  refine (f_acc1_apply V c u1 d t.val t.isLt).trans ?_
  have hbb : f_b t.val = b := Fin.ext (by show t.val / 8 % 4 = b.val; omega)
  rw [hf, hbb]
  exact f_sum_blocks (fun σ => Ideal.exp (Cert.Spec.qnAt (V c main_arg1) (V c main_v0_1) b σ d))

/-- What a point that writes its block back writes is its block of the function z. -/
theorem f_flushed1 (c : Dev nD) (t : Fin cfg1.N) (hf : t.val % 8 = 7) :
    (dat1 (F := Ideal) V c).flushed 2 t
      = ((cfg1.win 2).blk t).view.read (Elt Ideal) (Cert.Spec.zG (V c main_arg1) (V c main_v0_1)) := by
  show (cfg1.win 2).cut (grid1.coords t) ((dat1 (F := Ideal) V c).after 2 t) = _
  rw [after1_2]
  refine funext fun (j : S1x1x1024.Idx) => ?_
  obtain ⟨u0, u1, d, rfl⟩ : ∃ (u0 u1 : Fin 1) (d : Fin 1024), j = ix3 u0 u1 d := ⟨j 0, j 1, j 2, eq_ix3 j⟩
  obtain ⟨-, -, -, -, -, -, i0, i1, i2⟩ := f_idx1 t
  show k1_pay3 (F := Ideal) (acc1 V c t.val t.isLt) (ix3 u0 u1 d)
     = Cert.Spec.zG (V c main_arg1) (V c main_v0_1) (((cfg1.win 2).blk t).view.emb (ix3 u0 u1 d))
  have hb : ((((cfg1.win 2).blk t).view.emb (ix3 u0 u1 d) : S4x1x1024.Idx) 0).val = t.val / 8 := by
    show win1_2.index t (0 : Fin 3) * 1 + 1 * u0.val = _
    omega
  have hd : ((((cfg1.win 2).blk t).view.emb (ix3 u0 u1 d) : S4x1x1024.Idx) 2).val = d.val := by
    show win1_2.index t (2 : Fin 3) * 1024 + 1 * d.val = _
    omega
  generalize (((cfg1.win 2).blk t).view.emb (ix3 u0 u1 d) : S4x1x1024.Idx) = i at hb hd ⊢
  obtain ⟨b, v, d', rfl⟩ : ∃ (b : Fin 4) (v : Fin 1) (d' : Fin 1024), i = ix3 b v d' := ⟨i 0, i 1, i 2, eq_ix3 i⟩
  obtain rfl : d' = d := Fin.ext hd
  exact f_flushed1_at V c t hf u0 u1 d' b hb

/-- Every index (b, 0, d) of the result lies in the block of the point 8·b + 7, which writes its block back. -/
theorem f_cover1 (i : S4x1x1024.Idx) :
    ∃ t : Fin cfg1.N, (cfg1.win 2).flush t = true ∧ i ∈ ((cfg1.win 2).blk t).view.set := by
  have h0 : (i 0).val < 4 := (i 0).isLt
  have h1 : (i 1).val < 1 := (i 1).isLt
  have h2 : (i 2).val < 1024 := (i 2).isLt
  have hN : cfg1.N = 32 := N_1
  obtain ⟨t, ht⟩ : ∃ t : Fin cfg1.N, t.val = 8 * (i 0).val + 7 :=
    ⟨⟨8 * (i 0).val + 7, by rw [hN]; omega⟩, rfl⟩
  refine ⟨t, (flush1_2 t).2 (by omega), ?_⟩
  obtain ⟨-, -, -, -, -, -, i0, i1, i2⟩ := f_idx1 t
  show i ∈ ((View.whole main_v1).slice (win1_2.rect t)).set
  rw [View.set_slice_whole, Rect.mem_set_unit]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 1 ≤ (i 1).val ∧ (i 1).val < win1_2.index t (1 : Fin 3) * 1 + 1
    omega
  | ⟨2, _⟩ =>
    show win1_2.index t (2 : Fin 3) * 1024 ≤ (i 2).val ∧ (i 2).val < win1_2.index t (2 : Fin 3) * 1024 + 1024
    omega

/-- The second call leaves the function z of the two arrays it finds in its result array. -/
theorem val1_z (c : Dev nD) :
    (dat1 (F := Ideal) V c).arrAt 2 cfg1.N = Cert.Spec.zG (V c main_arg1) (V c main_v0_1) :=
  (dat1 (F := Ideal) V c).arrAt_eq_of_cover 2 _ (fun t hf => f_flushed1 V c t ((flush1_2 t).1 hf)) (fun i => f_cover1 i)

end Cert.KernelIdeal.Val

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Val2.lean ====
/-
  The value the third call leaves in its result array, on the extended reals.

  The call runs over the points t = 8·b + s (b < 4, s < 8) and keeps no state. At the point t it reads rows
  512·s … 512·s + 511 of batch b of q, the rows (b, 0, ·) of the denominators and of the normalisers, and the matrix
  (b, ·, ·) of the scores, and stores the 512×1024 block whose entry (r, e) is
    Σ_d (exp (exp q[b, 512·s + r, d] / den[b, 0, d]) / z[b, 0, d]) · scores[b, d, e]:
  a product of a 512×1024 matrix of pointwise terms with the 1024×1024 scores matrix, summed from zero. The block is
  written back to rows 512·s … 512·s + 511 of batch b of the result. That is the block at t of the whole-array
  function `Cert.Spec.outG`, and the 32 blocks tile the result (the row (b, σ, ·) lies in the block of the point
  8·b + σ / 512), so the result array ends holding `outG` of the four arrays the call finds.
-/
import proofs.«169869_j23854248362895_1_alg».proof.Proof.Data
import proofs.«169869_j23854248362895_1_alg».proof.Proof.Spec
import proofs.«169869_j23854248362895_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Fr

variable (V : (c : Dev nD) → (b : Ref sig .tc) → Buf (Elt Ideal) ((c : Thread nD τ).loc b))

/-- One entry of the block a point of the third call stores: the product of the row of
    exp (exp q / den) / z with the column of the scores block. -/
theorem d_pay2_apply (x0 : Vec Ideal S1x512x1024 .f32) (x1 x2 : Vec Ideal S1x1x1024 .f32) (x3 : Vec Ideal S1x1024x1024 .f32)
    (u : Fin 1) (r : Fin 512) (e : Fin 1024) :
    k2_pay1 (F := Ideal) x0 x1 x2 x3 (ix3 u r e)
      = ∑ d : Fin 1024, Ideal.div (Ideal.exp (Ideal.div (Ideal.exp (x0 (ix3 (0 : Fin 1) r d))) (x1 (ix3 (0 : Fin 1) (0 : Fin 1) d))))
          (x2 (ix3 (0 : Fin 1) (0 : Fin 1) d)) * x3 (ix3 (0 : Fin 1) d e) := by
  unfold k2_pay1
  refine (shapeCast_ab_1ab_apply _ _ u r e).trans ?_
  refine (Cert.PlainDot.matmul_zero_apply 512 1024 1024 none _ _ (ix2 r e)).trans ?_
  refine Finset.sum_congr rfl fun d _ => ?_
  have hq : shapeCast S512x1024 x0 shapeCasts_S1x512x1024_S512x1024 (ix2 r d) = x0 (ix3 (0 : Fin 1) r d) :=
    shapeCast_1ab_ab_apply x0 _ r d
  have hden : broadcastTo S512x1024 (shapeCast S1x1024 x1 shapeCasts_S1x1x1024_S1x1024) broadcasts_S1x1024_S512x1024 (ix2 r d)
      = x1 (ix3 (0 : Fin 1) (0 : Fin 1) d) :=
    (broadcastTo_1b_ab_apply _ _ r d).trans (shapeCast_1ab_ab_apply x1 _ (0 : Fin 1) d)
  have hz : broadcastTo S512x1024 (shapeCast S1x1024 x2 shapeCasts_S1x1x1024_S1x1024) broadcasts_S1x1024_S512x1024 (ix2 r d)
      = x2 (ix3 (0 : Fin 1) (0 : Fin 1) d) :=
    (broadcastTo_1b_ab_apply _ _ r d).trans (shapeCast_1ab_ab_apply x2 _ (0 : Fin 1) d)
  have hs : shapeCast S1024x1024 x3 shapeCasts_S1x1024x1024_S1024x1024 (ix2 d e) = x3 (ix3 (0 : Fin 1) d e) :=
    shapeCast_1ab_ab_apply x3 _ d e
  exact congrArg₂ (· * ·)
    (congrArg₂ Ideal.div (congrArg Ideal.exp (congrArg₂ Ideal.div (congrArg Ideal.exp hq) hden)) hz) hs

/-- The block indices of the third call's five windows at the point t = 8·b + s: the q block and the output block
    are block (b, s, 0) of their arrays, the three per-batch operands are block (b, 0, 0) of theirs. -/
theorem d_idx2 : ∀ t : Fin cfg2.N,
    win2_4.index t (0 : Fin 3) = t.val / 8 ∧ win2_4.index t (1 : Fin 3) = t.val % 8 ∧ win2_4.index t (2 : Fin 3) = 0
    ∧ win2_0.index t (0 : Fin 3) = t.val / 8 ∧ win2_0.index t (1 : Fin 3) = t.val % 8 ∧ win2_0.index t (2 : Fin 3) = 0
    ∧ win2_1.index t (0 : Fin 3) = t.val / 8 ∧ win2_1.index t (1 : Fin 3) = 0 ∧ win2_1.index t (2 : Fin 3) = 0
    ∧ win2_2.index t (0 : Fin 3) = t.val / 8 ∧ win2_2.index t (1 : Fin 3) = 0 ∧ win2_2.index t (2 : Fin 3) = 0
    ∧ win2_3.index t (0 : Fin 3) = t.val / 8 ∧ win2_3.index t (1 : Fin 3) = 0 ∧ win2_3.index t (2 : Fin 3) = 0 :=
  (by decide +kernel : ∀ t : Fin grid2.N, _)

/-- The q block at a point: rows 512·s … 512·s + 511 of batch b of the q array. -/
theorem d_iblk2_0 (c : Dev nD) (t : Fin cfg2.N) (y : S1x512x1024.Idx) (k : S4x4096x1024.Idx)
    (h0 : (k 0).val = t.val / 8 + (y 0).val) (h1 : (k 1).val = t.val % 8 * 512 + (y 1).val) (h2 : (k 2).val = (y 2).val) :
    (iblk2 V c 0 t : Vec Ideal S1x512x1024 .f32) y = (V c main_arg1 : S4x4096x1024.Idx → EReal) k := by
  obtain ⟨-, -, -, i0, i1, i2, -⟩ := d_idx2 t
  unfold iblk2
  rw [View.read_apply]
  show V c main_arg1 _ = V c main_arg1 _
  refine congrArg (V c main_arg1) (funext fun a => Fin.ext ?_)
  match a with
  | ⟨0, _⟩ => show win2_0.index t (0 : Fin 3) * 1 + 1 * (y 0).val = (k 0).val; omega
  | ⟨1, _⟩ => show win2_0.index t (1 : Fin 3) * 512 + 1 * (y 1).val = (k 1).val; omega
  | ⟨2, _⟩ => show win2_0.index t (2 : Fin 3) * 1024 + 1 * (y 2).val = (k 2).val; omega

/-- The denominator block at a point: row (b, 0, ·) of the denominators. -/
theorem d_iblk2_1 (c : Dev nD) (t : Fin cfg2.N) (y : S1x1x1024.Idx) (k : S4x1x1024.Idx)
    (h0 : (k 0).val = t.val / 8 + (y 0).val) (h1 : (k 1).val = (y 1).val) (h2 : (k 2).val = (y 2).val) :
    (iblk2 V c 1 t : Vec Ideal S1x1x1024 .f32) y = (V c main_v0_1 : S4x1x1024.Idx → EReal) k := by
  obtain ⟨-, -, -, -, -, -, i0, i1, i2, -⟩ := d_idx2 t
  unfold iblk2
  rw [View.read_apply]
  show V c main_v0_1 _ = V c main_v0_1 _
  refine congrArg (V c main_v0_1) (funext fun a => Fin.ext ?_)
  match a with
  | ⟨0, _⟩ => show win2_1.index t (0 : Fin 3) * 1 + 1 * (y 0).val = (k 0).val; omega
  | ⟨1, _⟩ => show win2_1.index t (1 : Fin 3) * 1 + 1 * (y 1).val = (k 1).val; omega
  | ⟨2, _⟩ => show win2_1.index t (2 : Fin 3) * 1024 + 1 * (y 2).val = (k 2).val; omega

/-- The normaliser block at a point: row (b, 0, ·) of the normalisers. -/
theorem d_iblk2_2 (c : Dev nD) (t : Fin cfg2.N) (y : S1x1x1024.Idx) (k : S4x1x1024.Idx)
    (h0 : (k 0).val = t.val / 8 + (y 0).val) (h1 : (k 1).val = (y 1).val) (h2 : (k 2).val = (y 2).val) :
    (iblk2 V c 2 t : Vec Ideal S1x1x1024 .f32) y = (V c main_v1 : S4x1x1024.Idx → EReal) k := by
  obtain ⟨-, -, -, -, -, -, -, -, -, i0, i1, i2, -⟩ := d_idx2 t
  unfold iblk2
  rw [View.read_apply]
  show V c main_v1 _ = V c main_v1 _
  refine congrArg (V c main_v1) (funext fun a => Fin.ext ?_)
  match a with
  | ⟨0, _⟩ => show win2_2.index t (0 : Fin 3) * 1 + 1 * (y 0).val = (k 0).val; omega
  | ⟨1, _⟩ => show win2_2.index t (1 : Fin 3) * 1 + 1 * (y 1).val = (k 1).val; omega
  | ⟨2, _⟩ => show win2_2.index t (2 : Fin 3) * 1024 + 1 * (y 2).val = (k 2).val; omega

/-- The scores block at a point: the whole matrix (b, ·, ·) of the scores. -/
theorem d_iblk2_3 (c : Dev nD) (t : Fin cfg2.N) (y : S1x1024x1024.Idx) (k : S4x1024x1024.Idx)
    (h0 : (k 0).val = t.val / 8 + (y 0).val) (h1 : (k 1).val = (y 1).val) (h2 : (k 2).val = (y 2).val) :
    (iblk2 V c 3 t : Vec Ideal S1x1024x1024 .f32) y = (V c main_v0_0 : S4x1024x1024.Idx → EReal) k := by
  obtain ⟨-, -, -, -, -, -, -, -, -, -, -, -, i0, i1, i2⟩ := d_idx2 t
  unfold iblk2
  rw [View.read_apply]
  show V c main_v0_0 _ = V c main_v0_0 _
  refine congrArg (V c main_v0_0) (funext fun a => Fin.ext ?_)
  match a with
  | ⟨0, _⟩ => show win2_3.index t (0 : Fin 3) * 1 + 1 * (y 0).val = (k 0).val; omega
  | ⟨1, _⟩ => show win2_3.index t (1 : Fin 3) * 1024 + 1 * (y 1).val = (k 1).val; omega
  | ⟨2, _⟩ => show win2_3.index t (2 : Fin 3) * 1024 + 1 * (y 2).val = (k 2).val; omega

/-- The entry (0, r, e) of the block stored at the point t = 8·b + s is the output at (b, 512·s + r, e). -/
theorem d_flushed2_at (c : Dev nD) (t : Fin cfg2.N) (u : Fin 1) (r : Fin 512) (e : Fin 1024)
    (b : Fin 4) (s : Fin 4096) (hb : b.val = t.val / 8) (hs : s.val = t.val % 8 * 512 + r.val) :
    k2_pay1 (F := Ideal) (iblk2 V c 0 t) (iblk2 V c 1 t) (iblk2 V c 2 t) (iblk2 V c 3 t) (ix3 u r e)
      = Cert.Spec.outAt (V c main_arg1) (V c main_v0_1) (V c main_v1) (V c main_v0_0) b s e := by
  refine (d_pay2_apply (iblk2 V c 0 t) (iblk2 V c 1 t) (iblk2 V c 2 t) (iblk2 V c 3 t) u r e).trans ?_
  unfold Cert.Spec.outAt Cert.Spec.qnAt
  refine Finset.sum_congr rfl fun d _ => ?_
  have e0 := d_iblk2_0 V c t (ix3 (0 : Fin 1) r d) (ix3 b s d) (by show b.val = t.val / 8 + 0; omega) hs rfl
  have e1 := d_iblk2_1 V c t (ix3 (0 : Fin 1) (0 : Fin 1) d) (ix3 b (0 : Fin 1) d) (by show b.val = t.val / 8 + 0; omega) rfl rfl
  have e2 := d_iblk2_2 V c t (ix3 (0 : Fin 1) (0 : Fin 1) d) (ix3 b (0 : Fin 1) d) (by show b.val = t.val / 8 + 0; omega) rfl rfl
  have e3 := d_iblk2_3 V c t (ix3 (0 : Fin 1) d e) (ix3 b d e) (by show b.val = t.val / 8 + 0; omega) rfl rfl
  exact congrArg₂ (· * ·)
    (congrArg₂ Ideal.div (congrArg Ideal.exp (congrArg₂ Ideal.div (congrArg Ideal.exp e0) e1)) e2) e3

/-- What a point writes back is its block of the output function. -/
theorem d_flushed2 (c : Dev nD) (t : Fin cfg2.N) :
    (dat2 (F := Ideal) V c).flushed 4 t
      = ((cfg2.win 4).blk t).view.read (Elt Ideal)
          (Cert.Spec.outG (V c main_arg1) (V c main_v0_1) (V c main_v1) (V c main_v0_0)) := by
  show (cfg2.win 4).cut (grid2.coords t) ((dat2 (F := Ideal) V c).after 4 t) = _
  rw [after2_4]
  refine funext fun (j : S1x512x1024.Idx) => ?_
  obtain ⟨u, r, e, rfl⟩ : ∃ (u : Fin 1) (r : Fin 512) (e : Fin 1024), j = ix3 u r e := ⟨j 0, j 1, j 2, eq_ix3 j⟩
  obtain ⟨i0, i1, i2, -⟩ := d_idx2 t
  show k2_pay1 (F := Ideal) (iblk2 V c 0 t) (iblk2 V c 1 t) (iblk2 V c 2 t) (iblk2 V c 3 t) (ix3 u r e)
     = Cert.Spec.outG (V c main_arg1) (V c main_v0_1) (V c main_v1) (V c main_v0_0) (((cfg2.win 4).blk t).view.emb (ix3 u r e))
  have hb : ((((cfg2.win 4).blk t).view.emb (ix3 u r e) : S4x4096x1024.Idx) 0).val = t.val / 8 := by
    show win2_4.index t (0 : Fin 3) * 1 + 1 * u.val = _
    omega
  have hs : ((((cfg2.win 4).blk t).view.emb (ix3 u r e) : S4x4096x1024.Idx) 1).val = t.val % 8 * 512 + r.val := by
    show win2_4.index t (1 : Fin 3) * 512 + 1 * r.val = _
    omega
  have he : ((((cfg2.win 4).blk t).view.emb (ix3 u r e) : S4x4096x1024.Idx) 2).val = e.val := by
    show win2_4.index t (2 : Fin 3) * 1024 + 1 * e.val = _
    omega
  generalize (((cfg2.win 4).blk t).view.emb (ix3 u r e) : S4x4096x1024.Idx) = i at hb hs he ⊢
  obtain ⟨b, s, e', rfl⟩ : ∃ (b : Fin 4) (s : Fin 4096) (e' : Fin 1024), i = ix3 b s e' := ⟨i 0, i 1, i 2, eq_ix3 i⟩
  obtain rfl : e' = e := Fin.ext he
  exact d_flushed2_at V c t u r e' b s hb hs

/-- Every index of the output lies in the block of the point 8·b + s, s the index of its row's 512-row block. -/
theorem d_cover2 (i : S4x4096x1024.Idx) :
    ∃ t : Fin cfg2.N, (cfg2.win 4).flush t = true ∧ i ∈ ((cfg2.win 4).blk t).view.set := by
  have h0 : (i 0).val < 4 := (i 0).isLt
  have h1 : (i 1).val < 4096 := (i 1).isLt
  have h2 : (i 2).val < 1024 := (i 2).isLt
  have hN : cfg2.N = 32 := N_2
  obtain ⟨t, ht⟩ : ∃ t : Fin cfg2.N, t.val = 8 * (i 0).val + (i 1).val / 512 :=
    ⟨⟨8 * (i 0).val + (i 1).val / 512, by rw [hN]; omega⟩, rfl⟩
  refine ⟨t, flush2_4 t, ?_⟩
  obtain ⟨i0, i1, i2, -⟩ := d_idx2 t
  show i ∈ ((View.whole main_v2).slice (win2_4.rect t)).set
  rw [View.set_slice_whole, Rect.mem_set_unit]
  intro a
  match a with
  | ⟨0, _⟩ =>
    show win2_4.index t (0 : Fin 3) * 1 ≤ (i 0).val ∧ (i 0).val < win2_4.index t (0 : Fin 3) * 1 + 1
    omega
  | ⟨1, _⟩ =>
    show win2_4.index t (1 : Fin 3) * 512 ≤ (i 1).val ∧ (i 1).val < win2_4.index t (1 : Fin 3) * 512 + 512
    omega
  | ⟨2, _⟩ =>
    show win2_4.index t (2 : Fin 3) * 1024 ≤ (i 2).val ∧ (i 2).val < win2_4.index t (2 : Fin 3) * 1024 + 1024
    omega

/-- The third call leaves the output function of the arrays it finds in its result array. -/
theorem val2_out (c : Dev nD) :
    (dat2 (F := Ideal) V c).arrAt 4 cfg2.N
      = Cert.Spec.outG (V c main_arg1) (V c main_v0_1) (V c main_v1) (V c main_v0_0) :=
  (dat2 (F := Ideal) V c).arrAt_eq_of_cover 4 _ (fun t _ => d_flushed2 V c t) (fun i => d_cover2 i)

end Cert.KernelIdeal.Val

end
-- ==== Proof.Final.lean ====
/-
  The result array after the run, on the extended reals, as ONE function of the three argument arrays: the third
  call's output is `outG` of the arrays it finds, which are q as launched, the first call's two results (`denomG`,
  `scoresG` of the arguments) and the second call's result (`zG` of q and the denominators) — together `kernelG`.
-/
import proofs.«169869_j23854248362895_1_alg».proof.Proof.Run
import proofs.«169869_j23854248362895_1_alg».proof.Proof.Val0
import proofs.«169869_j23854248362895_1_alg».proof.Proof.Val0d
import proofs.«169869_j23854248362895_1_alg».proof.Proof.Val1
import proofs.«169869_j23854248362895_1_alg».proof.Proof.Val2

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Fr

variable (m : (ℓ : Loc nD τ sig) → Buf (Elt Ideal) ℓ)

/-- The first call's second result (the denominators), as the later calls find it. -/
theorem W1_denom (c : Dev nD) :
    W1 (F := Ideal) m c (Proc.devRef .tc main_v0_1) = Cert.Spec.denomG (m ((c : Thread nD τ).loc main_arg1)) :=
  (W1_arr m c 4).trans (val0_denom (V0 m) c)

/-- The first call's first result (the scaled k·v contraction). -/
theorem W1_scores (c : Dev nD) :
    W1 (F := Ideal) m c (Proc.devRef .tc main_v0_0)
      = Cert.Spec.scoresG (m ((c : Thread nD τ).loc main_arg0)) (m ((c : Thread nD τ).loc main_arg2)) :=
  (W1_arr m c 3).trans (val0_scores (V0 m) c)

/-- The second call leaves the denominators as it found them (an input window of it), -/
theorem W2_denom (c : Dev nD) :
    W2 (F := Ideal) m c (Proc.devRef .tc main_v0_1) = Cert.Spec.denomG (m ((c : Thread nD τ).loc main_arg1)) :=
  ((W2_arr m c 1).trans (((dat1 (V1 m) c).arrAt_in 1 rfl _).trans (A_eq1 (V1 m) c 1))).trans (W1_denom m c)

/-- the scores too (no window of it), -/
theorem W2_scores (c : Dev nD) :
    W2 (F := Ideal) m c (Proc.devRef .tc main_v0_0)
      = Cert.Spec.scoresG (m ((c : Thread nD τ).loc main_arg0)) (m ((c : Thread nD τ).loc main_arg2)) :=
  (W2_of_ne m c main_v0_0 (by decide)).trans (W1_scores m c)

/-- and writes the normalizers of the second softmax. -/
theorem W2_z (c : Dev nD) :
    W2 (F := Ideal) m c (Proc.devRef .tc main_v1)
      = Cert.Spec.zG (m ((c : Thread nD τ).loc main_arg1)) (Cert.Spec.denomG (m ((c : Thread nD τ).loc main_arg1))) := by
  refine ((W2_arr m c 2).trans (val1_z (V1 m) c)).trans ?_
  rw [show V1 m c main_arg1 = m ((c : Thread nD τ).loc main_arg1) from W1_main_arg1 m c,
    show V1 m c main_v0_1 = Cert.Spec.denomG (m ((c : Thread nD τ).loc main_arg1)) from W1_denom m c]

/-- THE RESULT: after the third call the result array holds `kernelG` of the three arguments. -/
theorem result_eq (c : Dev nD) :
    W3 (F := Ideal) m c (Proc.devRef .tc main_v2)
      = Cert.Spec.kernelG (m ((c : Thread nD τ).loc main_arg0)) (m ((c : Thread nD τ).loc main_arg1)) (m ((c : Thread nD τ).loc main_arg2)) := by
  refine ((W3_arr m c 4).trans (val2_out (V2 m) c)).trans ?_
  rw [show V2 m c main_arg1 = m ((c : Thread nD τ).loc main_arg1) from W2_main_arg1 m c,
    show V2 m c main_v0_1 = Cert.Spec.denomG (m ((c : Thread nD τ).loc main_arg1)) from W2_denom m c,
    show V2 m c main_v1 = Cert.Spec.zG (m ((c : Thread nD τ).loc main_arg1)) (Cert.Spec.denomG (m ((c : Thread nD τ).loc main_arg1))) from W2_z m c,
    show V2 m c main_v0_0 = Cert.Spec.scoresG (m ((c : Thread nD τ).loc main_arg0)) (m ((c : Thread nD τ).loc main_arg2)) from W2_scores m c]
  rfl

end Cert.KernelIdeal.Val

end
-- ==== Proof.Ref.lean ====
/-
  What the reference computes: its run read back as one function of the three arguments.

  Each stage of the reference is read at an index split into its coordinates (batch b, sequence position s,
  feature d or e) and identified with the matching function of the specification: the exponential, the two
  sums over s, the maximum over s, the softmax quotient, and the two contractions.
-/
import proofs.«169869_j23854248362895_1_alg».proof.Proof.Gen.ReferenceIdeal.Read
import proofs.«169869_j23854248362895_1_alg».proof.Proof.Spec

noncomputable section

namespace Cert.ReferenceIdeal.RefValue

open Idealize.ShloMosaic Idealize.ShloMosaic.ValueIdx Cert.Spec Cert.ReferenceIdeal Cert.ReferenceIdeal.Gen

/-! ## Index equations

The index each operation reads its operand at, written with the coordinates. -/

/-- Summing over s at (b, d) reads (b, s, d). -/
theorem e_idx4 (b : Fin 4) (d : Fin 1024) (s : Fin 4096) : Read.idx_main_v4 (ix2 b d) s = ix3 b s d :=
  funext fun a => Fin.ext (by match a with | ⟨0, _⟩ => rfl | ⟨1, _⟩ => rfl | ⟨2, _⟩ => rfl)
theorem e_idx17 (b : Fin 4) (d : Fin 1024) (s : Fin 4096) : Read.idx_main_v17 (ix2 b d) s = ix3 b s d :=
  funext fun a => Fin.ext (by match a with | ⟨0, _⟩ => rfl | ⟨1, _⟩ => rfl | ⟨2, _⟩ => rfl)

/-- A row (b, 0, d) of a per-feature array reads the rank-2 array at (b, d). -/
theorem e_idx5 (b : Fin 4) (d : Fin 1024) : Read.idx_main_v5 (ix3 b (0 : Fin 1) d) = ix2 b d :=
  funext fun a => Fin.ext (by match a with | ⟨0, _⟩ => rfl | ⟨1, _⟩ => rfl)
theorem e_idx13 (b : Fin 4) (d : Fin 1024) : Read.idx_main_v13 (ix3 b (0 : Fin 1) d) = ix2 b d :=
  funext fun a => Fin.ext (by match a with | ⟨0, _⟩ => rfl | ⟨1, _⟩ => rfl)
theorem e_idx18 (b : Fin 4) (d : Fin 1024) : Read.idx_main_v18 (ix3 b (0 : Fin 1) d) = ix2 b d :=
  funext fun a => Fin.ext (by match a with | ⟨0, _⟩ => rfl | ⟨1, _⟩ => rfl)

/-- Spreading a per-feature row over the sequence: (b, s, d) reads (b, 0, d). -/
theorem e_idx8 (b : Fin 4) (s : Fin 4096) (d : Fin 1024) : Read.idx_main_v8 (ix3 b s d) = ix3 b (0 : Fin 1) d :=
  funext fun a => Fin.ext (by match a with | ⟨0, _⟩ => rfl | ⟨1, _⟩ => rfl | ⟨2, _⟩ => rfl)
theorem e_idx14 (b : Fin 4) (s : Fin 4096) (d : Fin 1024) : Read.idx_main_v14 (ix3 b s d) = ix3 b (0 : Fin 1) d :=
  funext fun a => Fin.ext (by match a with | ⟨0, _⟩ => rfl | ⟨1, _⟩ => rfl | ⟨2, _⟩ => rfl)
theorem e_idx19 (b : Fin 4) (s : Fin 4096) (d : Fin 1024) : Read.idx_main_v19 (ix3 b s d) = ix3 b (0 : Fin 1) d :=
  funext fun a => Fin.ext (by match a with | ⟨0, _⟩ => rfl | ⟨1, _⟩ => rfl | ⟨2, _⟩ => rfl)

/-- The contraction over s at (b, d, e) reads k at (b, s, d) and v at (b, s, e). -/
theorem e_lidx0 (b : Fin 4) (d e : Fin 1024) (s : Fin 4096) : Read.lidx_main_v0 (ix3 b d e) s = ix3 b s d :=
  funext fun a => Fin.ext (by match a with | ⟨0, _⟩ => rfl | ⟨1, _⟩ => rfl | ⟨2, _⟩ => rfl)
theorem e_ridx0 (b : Fin 4) (d e : Fin 1024) (s : Fin 4096) : Read.ridx_main_v0 (ix3 b d e) s = ix3 b s e :=
  funext fun a => Fin.ext (by match a with | ⟨0, _⟩ => rfl | ⟨1, _⟩ => rfl | ⟨2, _⟩ => rfl)

/-- The contraction over d at (b, s, e) reads the softmax at (b, s, d) and the scores at (b, d, e). -/
theorem e_lidx21 (b : Fin 4) (s : Fin 4096) (e d : Fin 1024) : Read.lidx_main_v21 (ix3 b s e) d = ix3 b s d :=
  funext fun a => Fin.ext (by match a with | ⟨0, _⟩ => rfl | ⟨1, _⟩ => rfl | ⟨2, _⟩ => rfl)
theorem e_ridx21 (b : Fin 4) (s : Fin 4096) (e d : Fin 1024) : Read.ridx_main_v21 (ix3 b s e) d = ix3 b d e :=
  funext fun a => Fin.ext (by match a with | ⟨0, _⟩ => rfl | ⟨1, _⟩ => rfl | ⟨2, _⟩ => rfl)

/-- The reduced index (b, d) with the sequence coordinate k put back is (b, k, d). -/
theorem e_lift (h : (⟨3, ![4, 4096, 1024]⟩ : Shape).Reduces [1] (⟨2, ![4, 1024]⟩ : Shape)) (b : Fin 4) (d : Fin 1024)
    (k : Fin ((⟨3, ![4, 4096, 1024]⟩ : Shape).size 1)) :
    h.lift (ix2 b d) k = ix3 b (⟨k.val, k.isLt⟩ : Fin 4096) d := by
  funext c; apply Fin.ext
  fin_cases c <;> rfl

/-! ## The stages at coordinates -/

/-- exp q. -/
theorem e_v3 (q : A3.Idx → EReal) (j : A3.Idx) : Read.val_main_v3 (F := Ideal) q j = Ideal.exp (q j) := by
  rw [Read.val_main_v3_apply, Ideal.hostUnary_exp_def]

/-- Σ_s exp q, added onto the zero word. -/
theorem e_v4 (q : A3.Idx → EReal) (b : Fin 4) (d : Fin 1024) :
    Read.val_main_v4 (F := Ideal) q (ix2 b d) = zeroW + ∑ s : Fin 4096, Ideal.exp (q (ix3 b s d)) := by
  rw [Read.val_main_v4_apply]
  refine congrArg₂ (· + ·) rfl (Finset.sum_congr rfl fun s _ => ?_)
  rw [e_idx4, e_v3]

/-- 1 + Σ_s exp q: the first denominator. -/
theorem e_v7 (q : A3.Idx → EReal) (b : Fin 4) (d : Fin 1024) :
    Read.val_main_v7 (F := Ideal) q (ix3 b (0 : Fin 1) d) = rDen q b d := by
  rw [Read.val_main_v7_apply, Read.val_main_v6_apply, Read.val_main_cst_1_apply, Read.val_main_v5_apply, e_idx5, e_v4]
  rfl

/-- exp q over the first denominator. -/
theorem e_v9 (q : A3.Idx → EReal) (b : Fin 4) (s : Fin 4096) (d : Fin 1024) :
    Read.val_main_v9 (F := Ideal) q (ix3 b s d) = rQn q b s d := by
  rw [Read.val_main_v9_apply, Read.val_main_v8_apply, e_idx8, e_v7, e_v3]
  rfl

/-- The maximum over s of the quotient, folded from the word of −∞. -/
theorem e_v10 (q : A3.Idx → EReal) (b : Fin 4) (d : Fin 1024) :
    Read.val_main_v10 (F := Ideal) q (ix2 b d)
      = (Finset.univ : Finset (Fin 4096)).fold max negInfW fun s => rQn q b s d := by
  have h : (⟨3, ![4, 4096, 1024]⟩ : Shape).Reduces [1] (⟨2, ![4, 1024]⟩ : Shape) := by decide
  unfold Read.val_main_v10
  rw [Host.reduce_eq_fold_single (FloatOps.maximumf (F := Ideal) (φ := .f32)) (Read.val_main_v9 (F := Ideal) q) _ _ h _]
  have hf : (Read.val_main_v9 (F := Ideal) q ∘ h.lift (ix2 b d)) = fun s : Fin 4096 => rQn q b s d :=
    funext fun k => by rw [Function.comp_apply, e_lift, e_v9]; rfl
  exact congrArg (fun f => Finset.fold max negInfW f (Finset.univ : Finset (Fin 4096))) hf

/-- The maximum the softmax subtracts. -/
theorem e_v12 (q : A3.Idx → EReal) (b : Fin 4) (d : Fin 1024) :
    Read.val_main_v12 (F := Ideal) q (ix2 b d) = rMax q b d := by
  rw [Read.val_main_v12_apply, Read.val_main_v11_apply, Read.val_main_cst_3_apply, e_v10]
  rfl

/-- exp of the quotient less its maximum. -/
theorem e_v16 (q : A3.Idx → EReal) (b : Fin 4) (s : Fin 4096) (d : Fin 1024) :
    Read.val_main_v16 (F := Ideal) q (ix3 b s d) = rE q b s d := by
  rw [Read.val_main_v16_apply, Read.val_main_v15_apply, Read.val_main_v14_apply, e_idx14, Read.val_main_v13_apply,
    e_idx13, e_v12, e_v9]
  rfl

/-- The softmax's denominator: the sum over s of those exponentials, added onto the zero word. -/
theorem e_v17 (q : A3.Idx → EReal) (b : Fin 4) (d : Fin 1024) :
    Read.val_main_v17 (F := Ideal) q (ix2 b d) = rSum q b d := by
  rw [Read.val_main_v17_apply]
  unfold rSum
  refine congrArg₂ (· + ·) rfl (Finset.sum_congr rfl fun s _ => ?_)
  rw [e_idx17, e_v16]

/-- The softmax over s. -/
theorem e_v20 (q : A3.Idx → EReal) (b : Fin 4) (s : Fin 4096) (d : Fin 1024) :
    Read.val_main_v20 (F := Ideal) q (ix3 b s d) = rSm q b s d := by
  rw [Read.val_main_v20_apply, Read.val_main_v19_apply, e_idx19, Read.val_main_v18_apply, e_idx18, e_v17, e_v16]
  rfl

/-- The k·v contraction over s, divided by the word of 32. -/
theorem e_v2 (k v : A3.Idx → EReal) (b : Fin 4) (d e : Fin 1024) :
    Read.val_main_v2 (F := Ideal) k v (ix3 b d e) = rScores k v b d e := by
  rw [Read.val_main_v2_apply, Read.val_main_v0_apply, Read.val_main_v1_apply, Read.val_main_cst_apply,
    Ideal.hostDivf_def]
  unfold rScores rDot
  refine congrArg₂ Ideal.div (Finset.sum_congr rfl fun s _ => ?_) rfl
  rw [e_lidx0, e_ridx0]

/-! ## The result -/

/-- The reference's result is the specification's function of the three arguments. -/
theorem ref_read (k q v : A3.Idx → EReal) : Read.val_main_v21 (F := Ideal) k q v = refG k q v := by
  funext i
  obtain ⟨b, s, e, rfl⟩ : ∃ (b : Fin 4) (s : Fin 4096) (e : Fin 1024), i = ix3 b s e := ⟨i 0, i 1, i 2, eq_ix3 i⟩
  rw [Read.val_main_v21_apply]
  show _ = ∑ d : Fin 1024, rSm q b s d * rScores k v b d e
  refine Finset.sum_congr rfl fun d _ => ?_
  rw [e_lidx21, e_ridx21, e_v20, e_v2]

end Cert.ReferenceIdeal.RefValue

end
-- ==== Proof.Alg.lean ====
/-
  The reference's spelling and the kernel's are one function of the three arguments when every entry of q is a real.

  Both sides are, at (b, s, e), the sum over d of  w[b, s, d] · scores[b, d, e], and the two spellings agree factor by
  factor:
    • the contraction Σ_s k·v divided by the word of 32 is its product with the word of 2⁻⁵, on every extended real;
    • the denominators 1 + (0 + Σ_s exp q) and 1 + Σ_s exp q are one extended real, so qn = exp q / den is one function;
    • with q real, every exp q is a positive real, den is a real ≥ 1, qn is a real, the maximum m over s of qn is a real,
      and  exp (qn − m) / (0 + Σ_s exp (qn − m)) = exp qn / Σ_s exp qn : the positive real exp (−m) cancels.
-/
import proofs.«169869_j23854248362895_1_alg».proof.Proof.Spec

noncomputable section

namespace Cert.Spec

open Idealize.ShloMosaic Idealize.ShloMosaic.ValueIdx

/-! ## The five words as extended reals -/

theorem f_zeroW : zeroW = 0 := by simp [zeroW, Ideal.ofBits, Ideal.ieee]

theorem f_negInfW : negInfW = ⊥ := by simp [negInfW, Ideal.ofBits, Ideal.ieee]

theorem f_oneW : oneW = ((1 : ℝ) : EReal) := by
  simp [oneW, Ideal.ofBits, Ideal.ieee, -EReal.coe_mul]; norm_num

theorem f_divW : divW = ((32 : ℝ) : EReal) := by
  simp [divW, Ideal.ofBits, Ideal.ieee, -EReal.coe_mul]; norm_num

theorem f_scaleW : scaleW = ((1 / 32 : ℝ) : EReal) := by
  simp [scaleW, Ideal.ofBits, Ideal.ieee, -EReal.coe_mul]; norm_num

/-! ## Real sums inside the extended reals -/

/-- A finite sum of reals, read in the extended reals, is the real sum. -/
theorem f_coe_sum {ι : Type*} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- The softmax of reals does not change when a real m is subtracted from every exponent:
    exp (ρ s − m) = exp (ρ s) · exp (−m), the sum takes the same positive factor, and it cancels. -/
theorem f_softmax_shift {ι : Type*} [Fintype ι] [Nonempty ι] (ρ : ι → ℝ) (m : ℝ) (s : ι) :
    Ideal.div (Ideal.exp ((ρ s : EReal) - (m : EReal))) (zeroW + ∑ t, Ideal.exp ((ρ t : EReal) - (m : EReal)))
      = Ideal.div (Ideal.exp (ρ s : EReal)) (∑ t, Ideal.exp (ρ t : EReal)) := by
  have hA : 0 < ∑ t, Real.exp (ρ t - m) := Finset.sum_pos (fun i _ => Real.exp_pos _) Finset.univ_nonempty
  have hB : 0 < ∑ t, Real.exp (ρ t) := Finset.sum_pos (fun i _ => Real.exp_pos _) Finset.univ_nonempty
  simp only [f_zeroW, zero_add, ← EReal.coe_sub, Ideal.exp_coe, f_coe_sum]
  rw [Ideal.div_coe hA.ne', Ideal.div_coe hB.ne', ← EReal.coe_mul, ← EReal.coe_mul]
  congr 1
  have h1 : ∀ t, Real.exp (ρ t - m) = Real.exp (ρ t) * Real.exp (-m) := fun t => by
    rw [← Real.exp_add]; ring_nf
  simp only [h1, ← Finset.sum_mul]
  have hm : Real.exp (-m) ≠ 0 := (Real.exp_pos _).ne'
  field_simp

/-! ## Factor by factor -/

/-- The quotient by the word of 32 is the product with the word of 2⁻⁵, on every extended real. -/
theorem f_rScores (k v : A3.Idx → EReal) (b : Fin 4) (d e : Fin 1024) : rScores k v b d e = scoresAt k v b d e := by
  rw [rScores, scoresAt, rDot, f_divW, f_scaleW, Ideal.div_coe (by norm_num)]

/-- Adding the sum onto the zero word changes nothing: the two denominators are one extended real. -/
theorem f_rDen (q : A3.Idx → EReal) (b : Fin 4) (d : Fin 1024) : rDen q b d = denomG q (ix3 b 0 d) := by
  rw [rDen, f_zeroW, zero_add]; rfl

theorem f_rQn (q : A3.Idx → EReal) (b : Fin 4) (s : Fin 4096) (d : Fin 1024) :
    rQn q b s d = qnAt q (denomG q) b s d := by
  rw [rQn, qnAt, f_rDen]

/-- With q real, exp q / den is a real: den = 1 + Σ_s exp q is a real ≥ 1. -/
theorem f_qn_real (q : A3.Idx → EReal) (hq : ∀ i, ∃ r : ℝ, q i = (r : EReal)) (b : Fin 4) (s : Fin 4096) (d : Fin 1024) :
    ∃ ρ : ℝ, qnAt q (denomG q) b s d = (ρ : EReal) := by
  choose r hr using hq
  have hD : (0 : ℝ) < 1 + ∑ t : Fin 4096, Real.exp (r (ix3 b t d)) := by
    have := Finset.sum_nonneg (fun t (_ : t ∈ (Finset.univ : Finset (Fin 4096))) => (Real.exp_pos (r (ix3 b t d))).le)
    linarith
  have hden : denomG q (ix3 b 0 d) = ((1 + ∑ t : Fin 4096, Real.exp (r (ix3 b t d)) : ℝ) : EReal) := by
    show denomAt q b d = _
    simp only [denomAt, hr, Ideal.exp_coe, f_coe_sum, f_oneW, ← EReal.coe_add]
  refine ⟨Real.exp (r (ix3 b s d)) * (1 / (1 + ∑ t : Fin 4096, Real.exp (r (ix3 b t d)))), ?_⟩
  rw [qnAt, hden, Ideal.div_coe hD.ne', hr, Ideal.exp_coe, ← EReal.coe_mul]

/-- The reference's max-subtracted softmax over s of qn is exp qn over the kernel's z. -/
theorem f_rSm (q : A3.Idx → EReal) (hq : ∀ i, ∃ r : ℝ, q i = (r : EReal)) (b : Fin 4) (s : Fin 4096) (d : Fin 1024) :
    rSm q b s d = Ideal.div (Ideal.exp (qnAt q (denomG q) b s d)) (zG q (denomG q) (ix3 b 0 d)) := by
  choose ρ hρ using fun t => f_qn_real q hq b t d
  have hf : (fun t => rQn q b t d) = fun t => (ρ t : EReal) := funext fun t => by rw [f_rQn, hρ]
  -- the maximum, taken from ⊥ over the nonempty range of s, lies strictly between ⊥ and ⊤: it is a real
  obtain ⟨m, hm⟩ : ∃ m : ℝ, rMax q b d = (m : EReal) := by
    rw [rMax, f_negInfW, hf, max_eq_right bot_le]
    have h1 : (Finset.univ : Finset (Fin 4096)).fold max ⊥ (fun t => (ρ t : EReal)) ≠ ⊤ :=
      ne_of_lt ((Finset.fold_max_lt _).2 ⟨bot_lt_top, fun x _ => EReal.coe_lt_top _⟩)
    have h2 : (Finset.univ : Finset (Fin 4096)).fold max ⊥ (fun t => (ρ t : EReal)) ≠ ⊥ :=
      ne_of_gt (lt_of_lt_of_le (EReal.bot_lt_coe (ρ 0))
        ((Finset.le_fold_max _).2 (Or.inr ⟨0, Finset.mem_univ _, le_rfl⟩)))
    exact ⟨_, (EReal.coe_toReal h1 h2).symm⟩
  have hz : zG q (denomG q) (ix3 b 0 d) = ∑ t : Fin 4096, Ideal.exp (ρ t : EReal) := by
    show zAt q (denomG q) b d = _
    simp only [zAt, hρ]
  rw [hz, rSm, rSum]
  simp only [rE, f_rQn, hm, hρ]
  exact f_softmax_shift ρ m s

/-! ## The statement -/

/-- At one position the two sums over d agree term by term. -/
theorem f_refAt (k q v : A3.Idx → EReal) (hq : ∀ i, ∃ r : ℝ, q i = (r : EReal)) (b : Fin 4) (s : Fin 4096) (e : Fin 1024) :
    refAt k q v b s e = outAt q (denomG q) (zG q (denomG q)) (scoresG k v) b s e := by
  rw [refAt, outAt]
  refine Finset.sum_congr rfl fun d _ => ?_
  rw [f_rSm q hq, f_rScores]
  rfl

theorem refG_eq_kernelG (k q v : A3.Idx → EReal) (hq : ∀ i, ∃ r : ℝ, q i = (r : EReal)) :
    refG k q v = kernelG k q v := by
  funext i
  exact f_refAt k q v hq (i 0) (i 1) (i 2)

end Cert.Spec

end
-- ==== Proof.Fin.lean ====
/-
  The precondition read back: when the printed predicate (every entry of each of the three arguments has an
  absolute value below the word of +∞, the three conjunctions taken together) answers 1, every entry of the
  second argument is a real number.
-/
import proofs.«169869_j23854248362895_1_alg».proof.Proof.Gen.Pre_finite_inputs
import Idealize.ShloMosaic.Lib.ReduceAll
import Idealize.ShloMosaic.Lib.ValueIdx

namespace Cert.FinPre

open Idealize.ShloMosaic

/-- The rank-0 shape has one index. -/
instance f_subsingleton : Subsingleton Cert.Pre_finite_inputs.S_.Idx := ⟨fun a b => funext fun d => d.elim0⟩

/-- An extended real whose absolute value max x (−x) lies strictly below the word of +∞ is a real. -/
theorem f_real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

theorem q_real [Cert.Pre_finite_inputs.Facts] (a0 a1 a2 : FVec Ideal Cert.Pre_finite_inputs.S4x4096x1024 .f32)
    (h : Cert.Pre_finite_inputs.fn (F := Ideal) a0 a1 a2 = fun _ => 1#1) : ∀ i, ∃ r : ℝ, a1 i = (r : EReal) := by
  intro i
  have h0 := congrFun h ValueIdx.ix0
  dsimp only [Cert.Pre_finite_inputs.fn] at h0
  obtain ⟨h01, -⟩ := IntOp.andi_eq_one.1 h0
  obtain ⟨-, h1⟩ := IntOp.andi_eq_one.1 h01
  have he := Host.reduce_andi_all _ _ _ _ _ h1 i
  exact f_real_of_abs_lt (a1 i) he

end Cert.FinPre
-- ==== Proof.lean ====
/-
  The certificate of a linear-attention kernel written as three pipelined calls against its jnp reference.

  With k, q, v of shape [4, 4096, 1024] (batch b, sequence position s, features d, e) both programs compute
      out[b, s, e] = Σ_d softmax_s(qn)[b, s, d] · scores[b, d, e],
      scores[b, d, e] = (Σ_s k[b, s, d] · v[b, s, e]) / 32,   qn = exp q / (1 + Σ_s exp q).
  The kernel accumulates the two sums over s in eight tiles of 512 rows (a different grouping of the same sums),
  multiplies by 2⁻⁵ where the reference divides by 32 (one number on every extended real), rounds to bf16 before its
  matrix products (the identity on the extended reals) and computes the softmax over s WITHOUT subtracting the
  maximum, where the reference subtracts it: the two agree because qn is a real number when q is finite — the factor
  exp(−max) cancels — and that is the one place the precondition (every input finite) is used.

  The frames (each program runs to the end, faults nowhere, leaves its arguments unchanged) of the two kernel programs
  come from one run of their three calls as segments (Proof/Run.lean for the idealized program, Proof/RunK.lean the
  same text for the word-level one); the reference's from its run read back. The idealization rewrote nothing, so
  `preserves` states nothing. The value claim: the kernel's result array is `Spec.kernelG` of the arguments
  (Proof/Final.lean over Proof/Val0, Val1, Val2), the reference's is `Spec.refG` of them (Proof/Ref.lean), and the
  two functions agree at finite q (Proof/Alg.lean, the finiteness from Proof/Fin.lean).
-/
import proofs.«169869_j23854248362895_1_alg».proof.Defs
import proofs.«169869_j23854248362895_1_alg».proof.Proof.Gen.Kernel
import proofs.«169869_j23854248362895_1_alg».proof.Proof.Gen.KernelIdeal
import proofs.«169869_j23854248362895_1_alg».proof.Proof.Gen.ReferenceIdeal
import proofs.«169869_j23854248362895_1_alg».proof.Proof.Gen.Pre_finite_inputs
import proofs.«169869_j23854248362895_1_alg».proof.Proof.Gen.ReferenceIdeal.Read
import proofs.«169869_j23854248362895_1_alg».proof.Proof.RunK
import proofs.«169869_j23854248362895_1_alg».proof.Proof.Final
import proofs.«169869_j23854248362895_1_alg».proof.Proof.Ref
import proofs.«169869_j23854248362895_1_alg».proof.Proof.Alg
import proofs.«169869_j23854248362895_1_alg».proof.Proof.Fin
import Idealize.ShloMosaic.Adequacy
import Idealize.ShloMosaic.Init

noncomputable section

/-! ## The claims -/

namespace Cert.Proof.Claims

open Idealize.ShloMosaic Idealize.ShloMosaic.TcCoe Idealize.SL.Sem

theorem frame_p : Cert.frame_Kernel := fun m ρ _ =>
  (θ_run Cert.Kernel.defs _ _).mono (fun _ h c => (h c).2) (Cert.Kernel.Fr.run_val (F := Bits) m ρ)

theorem frame_pi : Cert.frame_KernelIdeal := fun m ρ _ =>
  (θ_run Cert.KernelIdeal.defs _ _).mono (fun _ h c => (h c).2) (Cert.KernelIdeal.Fr.run_val (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The two idealized programs, run from memories agreeing on k, q, v, end with the same result array: the kernel's is
    `kernelG` of the arguments (its three calls read off their pipelines), the reference's is `refG` of them (its
    run read back), and the two are one function where q is finite, which the precondition says. -/
theorem algebraic : Cert.algebraic_KernelIdeal_ReferenceIdeal := by
  intro m ρ m' ρ' hpre hagree
  refine ⟨fun c => Cert.Spec.kernelG (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Val.result_eq m c), (h c).2⟩)
      (Cert.KernelIdeal.Fr.run_val (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq (F := Ideal)
        (m' ((c.tc : Thread Cert.ReferenceIdeal.nD Cert.ReferenceIdeal.τ).loc Cert.ReferenceIdeal.main_arg0)) _ _,
      (hagree c).1, (hagree c).2.1, (hagree c).2.2]
    exact (Cert.ReferenceIdeal.RefValue.ref_read _ _ _).trans
      (Cert.Spec.refG_eq_kernelG _ _ _ (Cert.FinPre.q_real _ _ _ (hpre c)))

end Cert.Proof.Claims

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.Claims.frame_ri, trivial, Cert.Proof.Claims.algebraic⟩

end Cert.Proof

end
